-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v49_0)) (v1 : (c : Dev Cert.KernelIdeal.nD) → Buf (Elt Ideal) ((c.tc : Thread Cert.KernelIdeal.nD Cert.KernelIdeal.τ).loc Cert.KernelIdeal.main_v49_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49_0) = v0 c
          ∧ r.2.mem ((c.tc : Thread Cert.KernelIdeal.nD Cert.KernelIdeal.τ).loc Cert.KernelIdeal.main_v49_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v74) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2 : Shape := ⟨2, ![4096, 2]⟩
abbrev S4096 : Shape := ⟨1, ![4096]⟩
abbrev S40000 : Shape := ⟨1, ![40000]⟩
abbrev S2048x38032 : Shape := ⟨2, ![2048, 38032]⟩
abbrev S2048 : Shape := ⟨1, ![2048]⟩
abbrev S1024x2048 : Shape := ⟨2, ![1024, 2048]⟩
abbrev S1024 : Shape := ⟨1, ![1024]⟩
abbrev S1x1024 : Shape := ⟨2, ![1, 1024]⟩
abbrev S1 : Shape := ⟨1, ![1]⟩
abbrev S_ : Shape := ⟨0, ![]⟩

class Facts : Prop where
  bcast_S_S2048x38032 : S_.BroadcastsInDim S2048x38032 (![] : Fin 0 → Fin S2048x38032.rank)
  reducesTo_S2048x38032_S_d0_1 : S2048x38032.ReducesTo [0, 1] S_
  h_S_ : 0 < S_.numel
  bcast_S_S2048 : S_.BroadcastsInDim S2048 (![] : Fin 0 → Fin S2048.rank)
  reducesTo_S2048_S_d0 : S2048.ReducesTo [0] S_
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_
  bcast_S_S1x1024 : S_.BroadcastsInDim S1x1024 (![] : Fin 0 → Fin S1x1024.rank)
  reducesTo_S1x1024_S_d0_1 : S1x1024.ReducesTo [0, 1] S_
  bcast_S_S1 : S_.BroadcastsInDim S1 (![] : Fin 0 → Fin S1.rank)
  reducesTo_S1_S_d0 : S1.ReducesTo [0] S_
  bcast_S_S40000 : S_.BroadcastsInDim S40000 (![] : Fin 0 → Fin S40000.rank)
  reducesTo_S40000_S_d0 : S40000.ReducesTo [0] S_

variable [Facts]

def fn_part1 {F : FTy → Type} [FloatOps F] (main_arg3 : IVec S40000 32) (main_arg8 : FVec F S1x1024 .f32) (main_arg9 : FVec F S1 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1x1024 .f32 := Host.absf main_arg8
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S1 .f32 := Host.absf main_arg9
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_c_10 : IVec S_ 32 := constantI S_ 32 0#32
  let main_v29 : IVec S40000 32 := broadcastInDim S40000 ![] bcast_S_S40000 main_c_10
  let main_v30 : IVec S40000 1 := cmpi .sge main_arg3 main_v29
  let main_c_11 : IVec S_ 1 := constantI S_ 1 1#1
  let main_v31 : IVec S_ 1 := (fun x v => Host.reduce IntOp.andi x v reducesTo_S40000_S_d0 h_S_) main_v30 main_c_11
  let main_v32 : IVec S_ 1 := andi main_v28 main_v31
  main_v32

def fn {F : FTy → Type} [FloatOps F] (main_arg0 : IVec S4096x2 32) (main_arg1 : IVec S4096 32) (main_arg2 : IVec S40000 32) (main_arg3 : IVec S40000 32) (main_arg4 : FVec F S2048x38032 .f32) (main_arg5 : FVec F S2048 .f32) (main_arg6 : FVec F S1024x2048 .f32) (main_arg7 : FVec F S1024 .f32) (main_arg8 : FVec F S1x1024 .f32) (main_arg9 : FVec F S1 .f32) : IVec S_ 1 :=
  let main_v0 : FVec F S2048x38032 .f32 := Host.absf main_arg4
  let main_cst : FVec F S_ .f32 := constant S_ .f32 0x7F800000#32
  let main_v1 : FVec F S2048x38032 .f32 := broadcastInDim S2048x38032 ![] bcast_S_S2048x38032 main_cst
  let main_v2 : IVec S2048x38032 1 := cmpf .olt main_v0 main_v1
  let main_c : IVec S_ 1 := constantI S_ 1 1#1
  let main_v3 : IVec S_ 1 := (fun x v => Host.reduce IntOp.andi x v reducesTo_S2048x38032_S_d0_1 h_S_) main_v2 main_c
  let main_v4 : FVec F S2048 .f32 := Host.absf main_arg5
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S1024x2048 .f32 := Host.absf main_arg6
  let main_cst_2 : FVec F S_ .f32 := constant S_ .f32 0x7F800000#32
  let main_v10 : FVec F S1024x2048 .f32 := broadcastInDim S1024x2048 ![] bcast_S_S1024x2048 main_cst_2
  let main_v11 : IVec S1024x2048 1 := cmpf .olt main_v9 main_v10
  let main_c_3 : IVec S_ 1 := constantI S_ 1 1#1
  let main_v12 : IVec S_ 1 := (fun x v => Host.reduce IntOp.andi x v reducesTo_S1024x2048_S_d0_1 h_S_) main_v11 main_c_3
  let main_v13 : IVec S_ 1 := andi main_v8 main_v12
  let main_v14 : FVec F S1024 .f32 := Host.absf main_arg7
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg3 main_arg8 main_arg9 main_v13 main_v16
-- ==== Kernel.lean ====
abbrev S4096x2 : Shape := ⟨2, ![4096, 2]⟩
abbrev S4096 : Shape := ⟨1, ![4096]⟩
abbrev S40000 : Shape := ⟨1, ![40000]⟩
abbrev S2048x38032 : Shape := ⟨2, ![2048, 38032]⟩
abbrev S2048 : Shape := ⟨1, ![2048]⟩
abbrev S1024x2048 : Shape := ⟨2, ![1024, 2048]⟩
abbrev S1024 : Shape := ⟨1, ![1024]⟩
abbrev S1x1024 : Shape := ⟨2, ![1, 1024]⟩
abbrev S1 : Shape := ⟨1, ![1]⟩
abbrev S_ : Shape := ⟨0, ![]⟩
abbrev S4000x19456 : Shape := ⟨2, ![4000, 19456]⟩
abbrev S40000x1 : Shape := ⟨2, ![40000, 1]⟩
abbrev S40000x2 : Shape := ⟨2, ![40000, 2]⟩
abbrev S4096x1 : Shape := ⟨2, ![4096, 1]⟩
abbrev S4096x19456 : Shape := ⟨2, ![4096, 19456]⟩
abbrev S1x16 : Shape := ⟨2, ![1, 16]⟩
abbrev S4096x16 : Shape := ⟨2, ![4096, 16]⟩
abbrev S2048x19000 : Shape := ⟨2, ![2048, 19000]⟩
abbrev S2048x16 : Shape := ⟨2, ![2048, 16]⟩
abbrev S2048x19456 : Shape := ⟨2, ![2048, 19456]⟩
abbrev S512x512 : Shape := ⟨2, ![512, 512]⟩
abbrev S512x16 : Shape := ⟨2, ![512, 16]⟩
abbrev S2048x512 : Shape := ⟨2, ![2048, 512]⟩
abbrev S512 : Shape := ⟨1, ![512]⟩
abbrev S512x2048 : Shape := ⟨2, ![512, 2048]⟩
abbrev S16x2048 : Shape := ⟨2, ![16, 2048]⟩
abbrev S1x2048 : Shape := ⟨2, ![1, 2048]⟩
abbrev S2048x1024 : Shape := ⟨2, ![2048, 1024]⟩
abbrev S512x1024 : Shape := ⟨2, ![512, 1024]⟩
abbrev S1024x1 : Shape := ⟨2, ![1024, 1]⟩
abbrev S512x1 : Shape := ⟨2, ![512, 1]⟩
abbrev S1x1 : Shape := ⟨2, ![1, 1]⟩

abbrev nBuf : Space → Nat
  | .hbm => 80
  | .vmem => 22
  | .smem => 0
  | _ => 0

abbrev bufTy : (tb : Table) → Fin (tcTables nBuf tb) → BufTy
  | .hbm, ⟨0, _⟩ => ⟨S4096x2, .i32⟩
  | .hbm, ⟨1, _⟩ => ⟨S4096, .i32⟩
  | .hbm, ⟨2, _⟩ => ⟨S40000, .i32⟩
  | .hbm, ⟨3, _⟩ => ⟨S40000, .i32⟩
  | .hbm, ⟨4, _⟩ => ⟨S2048x38032, .f32⟩
  | .hbm, ⟨5, _⟩ => ⟨S2048, .f32⟩
  | .hbm, ⟨6, _⟩ => ⟨S1024x2048, .f32⟩
  | .hbm, ⟨7, _⟩ => ⟨S1024, .f32⟩
  | .hbm, ⟨8, _⟩ => ⟨S1x1024, .f32⟩
  | .hbm, ⟨9, _⟩ => ⟨S1, .f32⟩
  | .hbm, ⟨10, _⟩ => ⟨S_, .bf16⟩
  | .hbm, ⟨11, _⟩ => ⟨S4000x19456, .bf16⟩
  | .hbm, ⟨12, _⟩ => ⟨S_, .i32⟩
  | .hbm, ⟨13, _⟩ => ⟨S40000, .i32⟩
  | .hbm, ⟨14, _⟩ => ⟨S40000, .i1⟩
  | .hbm, ⟨15, _⟩ => ⟨S_, .i32⟩
  | .hbm, ⟨16, _⟩ => ⟨S40000, .i32⟩
  | .hbm, ⟨17, _⟩ => ⟨S40000, .i32⟩
  | .hbm, ⟨18, _⟩ => ⟨S40000, .i32⟩
  | .hbm, ⟨19, _⟩ => ⟨S_, .i32⟩
  | .hbm, ⟨20, _⟩ => ⟨S40000, .i32⟩
  | .hbm, ⟨21, _⟩ => ⟨S40000, .i1⟩
  | .hbm, ⟨22, _⟩ => ⟨S_, .i32⟩
  | .hbm, ⟨23, _⟩ => ⟨S40000, .i32⟩
  | .hbm, ⟨24, _⟩ => ⟨S40000, .i32⟩
  | .hbm, ⟨25, _⟩ => ⟨S40000, .i32⟩
  | .hbm, ⟨26, _⟩ => ⟨S40000x1, .i32⟩
  | .hbm, ⟨27, _⟩ => ⟨S40000x1, .i32⟩
  | .hbm, ⟨28, _⟩ => ⟨S40000x2, .i32⟩
  | .hbm, ⟨29, _⟩ => ⟨S_, .bf16⟩
  | .hbm, ⟨30, _⟩ => ⟨S40000, .bf16⟩
  | .hbm, ⟨31, _⟩ => ⟨S4000x19456, .bf16⟩
  | .hbm, ⟨32, _⟩ => ⟨S4096x1, .i32⟩
  | .hbm, ⟨33, _⟩ => ⟨S4096, .i32⟩
  | .hbm, ⟨34, _⟩ => ⟨S_, .i32⟩
  | .hbm, ⟨35, _⟩ => ⟨S4096, .i32⟩
  | .hbm, ⟨36, _⟩ => ⟨S4096, .i1⟩
  | .hbm, ⟨37, _⟩ => ⟨S_, .i32⟩
  | .hbm, ⟨38, _⟩ => ⟨S4096, .i32⟩
  | .hbm, ⟨39, _⟩ => ⟨S4096, .i32⟩
  | .hbm, ⟨40, _⟩ => ⟨S4096, .i32⟩
  | .hbm, ⟨41, _⟩ => ⟨S4096x1, .i32⟩
  | .hbm, ⟨42, _⟩ => ⟨S4096x19456, .bf16⟩
  | .hbm, ⟨43, _⟩ => ⟨S4096x1, .i32⟩
  | .hbm, ⟨44, _⟩ => ⟨S4096, .i32⟩
  | .hbm, ⟨45, _⟩ => ⟨S_, .i32⟩
  | .hbm, ⟨46, _⟩ => ⟨S4096, .i32⟩
  | .hbm, ⟨47, _⟩ => ⟨S4096, .i1⟩
  | .hbm, ⟨48, _⟩ => ⟨S_, .i32⟩
  | .hbm, ⟨49, _⟩ => ⟨S4096, .i32⟩
  | .hbm, ⟨50, _⟩ => ⟨S4096, .i32⟩
  | .hbm, ⟨51, _⟩ => ⟨S4096, .i32⟩
  | .hbm, ⟨52, _⟩ => ⟨S4096x1, .i32⟩
  | .hbm, ⟨53, _⟩ => ⟨S4096x19456, .bf16⟩
  | .hbm, ⟨54, _⟩ => ⟨S4096x1, .i32⟩
  | .hbm, ⟨55, _⟩ => ⟨S1x16, .i32⟩
  | .hbm, ⟨56, _⟩ => ⟨S4096x16, .i32⟩
  | .hbm, ⟨57, _⟩ => ⟨S4096x16, .i32⟩
  | .hbm, ⟨58, _⟩ => ⟨S4096x16, .i1⟩
  | .hbm, ⟨59, _⟩ => ⟨S4096x16, .bf16⟩
  | .hbm, ⟨60, _⟩ => ⟨S2048x19000, .f32⟩
  | .hbm, ⟨61, _⟩ => ⟨S2048x16, .f32⟩
  | .hbm, ⟨62, _⟩ => ⟨S2048x19000, .f32⟩
  | .hbm, ⟨63, _⟩ => ⟨S2048x16, .f32⟩
  | .hbm, ⟨64, _⟩ => ⟨S2048x19000, .f32⟩
  | .hbm, ⟨65, _⟩ => ⟨S2048x19000, .f32⟩
  | .hbm, ⟨66, _⟩ => ⟨S2048x16, .f32⟩
  | .hbm, ⟨67, _⟩ => ⟨S2048x16, .bf16⟩
  | .hbm, ⟨68, _⟩ => ⟨S_, .i32⟩
  | .hbm, ⟨69, _⟩ => ⟨S_, .f32⟩
  | .hbm, ⟨70, _⟩ => ⟨S2048x19456, .f32⟩
  | .hbm, ⟨71, _⟩ => ⟨S2048x19456, .bf16⟩
  | .hbm, ⟨72, _⟩ => ⟨S_, .i32⟩
  | .hbm, ⟨73, _⟩ => ⟨S_, .f32⟩
  | .hbm, ⟨74, _⟩ => ⟨S2048x19456, .f32⟩
  | .hbm, ⟨75, _⟩ => ⟨S2048x19456, .bf16⟩
  | .hbm, ⟨76, _⟩ => ⟨S1024x2048, .bf16⟩
  | .hbm, ⟨77, _⟩ => ⟨S1x1024, .bf16⟩
  | .hbm, ⟨78, _⟩ => ⟨S4096, .f32⟩
  | .hbm, ⟨79, _⟩ => ⟨S4096, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x16, .bf16⟩
  | .local _ .vmem, ⟨5, _⟩ => ⟨S512x16, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S2048x16, .bf16⟩
  | .local _ .vmem, ⟨11, _⟩ => ⟨S2048, .f32⟩
  | .local _ .vmem, ⟨12, _⟩ => ⟨S1024x2048, .bf16⟩
  | .local _ .vmem, ⟨13, _⟩ => ⟨S1024, .f32⟩
  | .local _ .vmem, ⟨14, _⟩ => ⟨S1x1024, .bf16⟩
  | .local _ .vmem, ⟨15, _⟩ => ⟨S1, .f32⟩
  | .local _ .vmem, ⟨16, _⟩ => ⟨S512, .f32⟩
  | .local _ .vmem, ⟨17, _⟩ => ⟨S512, .f32⟩
  | .local _ .vmem, ⟨18, _⟩ => ⟨S512, .f32⟩
  | .local _ .vmem, ⟨19, _⟩ => ⟨S512, .f32⟩
  | .local _ .vmem, ⟨20, _⟩ => ⟨S512x2048, .f32⟩
  | .local _ .vmem, ⟨21, _⟩ => ⟨S512x2048, .f32⟩
  | _, _ => ⟨S4096x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_c_1 : Ref sig .tc := ⟨.hbm, 19, rfl⟩
abbrev main_v6 : Ref sig .tc := ⟨.hbm, 20, rfl⟩
abbrev main_v7 : Ref sig .tc := ⟨.hbm, 21, rfl⟩
abbrev main_c_2 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_4 : Ref sig .tc := ⟨.hbm, 34, rfl⟩
abbrev main_v18 : Ref sig .tc := ⟨.hbm, 35, rfl⟩
abbrev main_v19 : Ref sig .tc := ⟨.hbm, 36, rfl⟩
abbrev main_c_5 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_c_7 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_call0_v0 : Ref sig .tc := ⟨.hbm, 54, rfl⟩
abbrev main_call0_v1 : Ref sig .tc := ⟨.hbm, 55, rfl⟩
abbrev main_call0_v2 : Ref sig .tc := ⟨.hbm, 56, rfl⟩
abbrev main_call0_v3 : Ref sig .tc := ⟨.hbm, 57, rfl⟩
abbrev main_call0_v4 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_c_8 : Ref sig .tc := ⟨.hbm, 68, rfl⟩
abbrev main_call1_v0 : Ref sig .tc := ⟨.hbm, 69, rfl⟩
abbrev main_v43 : Ref sig .tc := ⟨.hbm, 70, rfl⟩
abbrev main_v44 : Ref sig .tc := ⟨.hbm, 71, rfl⟩
abbrev main_c_9 : Ref sig .tc := ⟨.hbm, 72, rfl⟩
abbrev main_call2_v0 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49_0 : Ref sig .tc := ⟨.hbm, 78, rfl⟩
abbrev main_v49_1 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨2, ![8, 38], ![false, false]⟩

def k0_cond3 (i : grid0.Coords) : BitVec 1 :=
  let arg1 : BitVec 32 := BitVec.ofNat 32 (i 1).val
  let c37_i32 : BitVec 32 := 37#32
  let v36 : BitVec 1 := Scalar.cmpi .eq arg1 c37_i32
  let v37 : BitVec 32 := Scalar.extui v36
  let c0_i32_21 : BitVec 32 := 0#32
  let v38 : BitVec 1 := Scalar.cmpi .ne v37 c0_i32_21
  v38

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_11 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_12 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x16 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S2048x16 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

class Facts₀ : Prop where
  bcast_S_S4000x19456 : S_.BroadcastsInDim S4000x19456 (![] : Fin 0 → Fin S4000x19456.rank)
  bcast_S_S40000 : S_.BroadcastsInDim S40000 (![] : Fin 0 → Fin S40000.rank)
  bcast_S40000_S40000x1_0 : S40000.BroadcastsInDim S40000x1 (![0] : Fin 1 → Fin S40000x1.rank)
  concatenates_S40000x1_S40000x1_S40000x2_d1 : Shape.Concatenates [S40000x1, S40000x1] S40000x2 1
  slices_S4096x2_S4096x1_0_0 : S4096x2.Slices ![0, 0] S4096x1
  shapeCasts_S4096x1_S4096 : S4096x1.ShapeCasts S4096
  bcast_S_S4096 : S_.BroadcastsInDim S4096 (![] : Fin 0 → Fin S4096.rank)
  bcast_S4096_S4096x1_0 : S4096.BroadcastsInDim S4096x1 (![0] : Fin 1 → Fin S4096x1.rank)
  slices_S4096x2_S4096x1_0_1 : S4096x2.Slices ![0, 1] S4096x1
  bcast_S4096x1_S4096x16_0_1 : S4096x1.BroadcastsInDim S4096x16 (![0, 1] : Fin 2 → Fin S4096x16.rank)
  bcast_S1x16_S4096x16_0_1 : S1x16.BroadcastsInDim S4096x16 (![0, 1] : Fin 2 → Fin S4096x16.rank)
  slices_S2048x38032_S2048x19000_0_0 : S2048x38032.Slices ![0, 0] S2048x19000
  slices_S2048x38032_S2048x16_0_19000 : S2048x38032.Slices ![0, 19000] S2048x16
  slices_S2048x38032_S2048x19000_0_19016 : S2048x38032.Slices ![0, 19016] S2048x19000
  slices_S2048x38032_S2048x16_0_38016 : S2048x38032.Slices ![0, 38016] S2048x16
  bitsLt_bf16_f32 : FTy.bits .bf16 < FTy.bits .f32
  pads_S2048x19000_S2048x19456_000_04560 : S2048x19000.Pads (![0, 0] : Fin 2 → Nat) ![0, 456] ![0, 0] S2048x19456
  h_S_ : 0 < S_.numel
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  transposes_S2048x512_p1_0_S512x2048 : S2048x512.Transposes [1, 0] S512x2048
  inb_S512x16_S512x16_0_0 : ∀ a, (![0, 0] : Fin 2 → Nat) a + S512x16.size a ≤ S512x16.size a
  h_S512x16 : 0 < S512x16.numel
  shapeCasts_S512x16_S512x16 : S512x16.ShapeCasts S512x16
  inb_S2048x16_S2048x16_0_0 : ∀ a, (![0, 0] : Fin 2 → Nat) a + S2048x16.size a ≤ S2048x16.size a
  h_S2048x16 : 0 < S2048x16.numel
  shapeCasts_S2048x16_S2048x16 : S2048x16.ShapeCasts S2048x16
  transposes_S2048x16_p1_0_S16x2048 : S2048x16.Transposes [1, 0] S16x2048
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S512x2048 : S1x2048.Broadcasts S512x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024_S1024_0 : ∀ a, (![0] : Fin 1 → Nat) a + S1024.size a ≤ S1024.size a
  h_S1024 : 0 < S1024.numel
  transposes_S1024x2048_p1_0_S2048x1024 : S1024x2048.Transposes [1, 0] S2048x1024
  shapeCasts_S1024_S1x1024 : S1024.ShapeCasts S1x1024
  broadcasts_S1x1024_S512x1024 : S1x1024.Broadcasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1_S1_0 : ∀ a, (![0] : Fin 1 → Nat) a + S1.size a ≤ S1.size a
  h_S1 : 0 < S1.numel
  transposes_S1x1024_p1_0_S1024x1 : S1x1024.Transposes [1, 0] S1024x1
  shapeCasts_S1_S1x1 : S1.ShapeCasts S1x1
  broadcasts_S1x1_S512x1 : S1x1.Broadcasts S512x1
  shapeCasts_S512x1_S512 : S512x1.ShapeCasts S512
  inb_S512_S512_0 : ∀ a, (![0] : Fin 1 → Nat) a + S512.size a ≤ S512.size a
  h_S512 : 0 < S512.numel
  scatter_S4000x19456_S40000x2_S40000_n_01_01_1_wf : ScatterDims.WF S4000x19456 S40000x2 S40000 [] [0, 1] [0, 1] 1
  gather_S4000x19456_S4096x1_S4096x19456_1_0_n_n_0_1_119456_wf : GatherDims.WF S4000x19456 S4096x1 S4096x19456 [1] [0] [] [0] [] 1 ![1, 19456]
  dot_S512x512_S512x2048_S512x2048_1_0_0_1_n_n_wf : DotDims.WF S512x512 S512x2048 S512x2048 [1] [0] [0] [1] [] []
  dot_S512x16_S16x2048_S512x2048_1_0_0_1_n_n_wf : DotDims.WF S512x16 S16x2048 S512x2048 [1] [0] [0] [1] [] []
  dot_S512x2048_S2048x1024_S512x1024_1_0_0_1_n_n_wf : DotDims.WF S512x2048 S2048x1024 S512x1024 [1] [0] [0] [1] [] []
  dot_S512x1024_S1024x1_S512x1_1_0_0_1_n_n_wf : DotDims.WF S512x1024 S1024x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x19456.size a
  hwx0_0 : ∀ i : grid0.Coords, EltTy.bits .bf16 = 32 ∨ (Rect.block (s := S4096x19456) S512x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S4096x19456.size a
  hwx0_1 : ∀ i : grid0.Coords, EltTy.bits .bf16 = 32 ∨ (Rect.block (s := S4096x19456) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x16.size a ≤ S4096x16.size a
  hwx0_2 : ∀ i : grid0.Coords, EltTy.bits .bf16 = 32 ∨ (Rect.block (s := S4096x16) S512x16.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S2048x19456.size a
  hwx0_3 : ∀ i : grid0.Coords, EltTy.bits .bf16 = 32 ∨ (Rect.block (s := S2048x19456) S2048x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x512.size a ≤ S2048x19456.size a
  hwx0_4 : ∀ i : grid0.Coords, EltTy.bits .bf16 = 32 ∨ (Rect.block (s := S2048x19456) S2048x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2048x16.size a ≤ S2048x16.size a
  hwx0_5 : ∀ i : grid0.Coords, EltTy.bits .bf16 = 32 ∨ (Rect.block (s := S2048x16) S2048x16.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2048.size a ≤ S2048.size a
  hwx0_6 : ∀ i : grid0.Coords, EltTy.bits .f32 = 32 ∨ (Rect.block (s := S2048) S2048.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x2048.size a ≤ S1024x2048.size a
  hwx0_7 : ∀ i : grid0.Coords, EltTy.bits .bf16 = 32 ∨ (Rect.block (s := S1024x2048) S1024x2048.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024.size a ≤ S1024.size a
  hwx0_8 : ∀ i : grid0.Coords, EltTy.bits .f32 = 32 ∨ (Rect.block (s := S1024) S1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1024.size a ≤ S1x1024.size a
  hwx0_9 : ∀ i : grid0.Coords, EltTy.bits .bf16 = 32 ∨ (Rect.block (s := S1x1024) S1x1024.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1.size a ≤ S1.size a
  hwx0_10 : ∀ i : grid0.Coords, EltTy.bits .f32 = 32 ∨ (Rect.block (s := S1) S1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512.size a ≤ S4096.size a
  hwx0_11 : ∀ i : grid0.Coords, EltTy.bits .f32 = 32 ∨ (Rect.block (s := S4096) S512.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S512.size a ≤ S4096.size a
  hwx0_12 : ∀ i : grid0.Coords, EltTy.bits .f32 = 32 ∨ (Rect.block (s := S4096) S512.size (cc0_transform_12 i) (hinb0_12 i)).WholeWords (EltTy.packing .f32)

variable [Facts₀]

def scatter_S4000x19456_S40000x2_S40000_n_01_01_1 : ScatterDims S4000x19456 S40000x2 S40000 where
  updateWindowDims := []
  insertedWindowDims := [0, 1]
  scatterDimsToOperandDims := [0, 1]
  indexVectorDim := 1
  wf := scatter_S4000x19456_S40000x2_S40000_n_01_01_1_wf
def gather_S4000x19456_S4096x1_S4096x19456_1_0_n_n_0_1_119456 : GatherDims S4000x19456 S4096x1 S4096x19456 where
  offsetDims := [1]
  collapsedSliceDims := [0]
  operandBatchingDims := []
  startIndicesBatchingDims := []
  startIndexMap := [0]
  indexVectorDim := 1
  sliceSizes := ![1, 19456]
  wf := gather_S4000x19456_S4096x1_S4096x19456_1_0_n_n_0_1_119456_wf
def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf
def dot_S512x16_S16x2048_S512x2048_1_0_0_1_n_n : DotDims S512x16 S16x2048 S512x2048 where
  lhsContracting := [1]
  rhsContracting := [0]
  lhsNonContracting := [0]
  rhsNonContracting := [1]
  lhsBatch := []
  rhsBatch := []
  wf := dot_S512x16_S16x2048_S512x2048_1_0_0_1_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf
def dot_S512x1024_S1024x1_S512x1_1_0_0_1_n_n : DotDims S512x1024 S1024x1 S512x1 where
  lhsContracting := [1]
  rhsContracting := [0]
  lhsNonContracting := [0]
  rhsNonContracting := [1]
  lhsBatch := []
  rhsBatch := []
  wf := dot_S512x1024_S1024x1_S512x1_1_0_0_1_n_n_wf

abbrev win0_0 : Pipeline.Window sig grid0 :=
  Pipeline.Window.ofSpec (Memref.whole main_v24) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v34) S512x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v44) S2048x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v46) S2048x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v42) S2048x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v47) S1024x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v48) S1x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg9) S1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v49_0) S512.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v49_1) S512.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev idle0 : Fin 13 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun i => !(k0_cond3 i == 1#1) | 12 => fun i => !(k0_cond3 i == 1#1) | ⟨_ + 13, h⟩ => absurd h (Nat.not_lt.2 (Nat.le_add_left _ _))

class Facts : Prop extends Facts₀ where

variable [Facts]
-- ==== ReferenceIdeal.lean ====
abbrev S4096x2 : Shape := ⟨2, ![4096, 2]⟩
abbrev S4096 : Shape := ⟨1, ![4096]⟩
abbrev S40000 : Shape := ⟨1, ![40000]⟩
abbrev S2048x38032 : Shape := ⟨2, ![2048, 38032]⟩
abbrev S2048 : Shape := ⟨1, ![2048]⟩
abbrev S1024x2048 : Shape := ⟨2, ![1024, 2048]⟩
abbrev S1024 : Shape := ⟨1, ![1024]⟩
abbrev S1x1024 : Shape := ⟨2, ![1, 1024]⟩
abbrev S1 : Shape := ⟨1, ![1]⟩
abbrev S_ : Shape := ⟨0, ![]⟩
abbrev S4000x19000 : Shape := ⟨2, ![4000, 19000]⟩
abbrev S40000x1 : Shape := ⟨2, ![40000, 1]⟩
abbrev S40000x2 : Shape := ⟨2, ![40000, 2]⟩
abbrev S4096x1 : Shape := ⟨2, ![4096, 1]⟩
abbrev S4096x19000 : Shape := ⟨2, ![4096, 19000]⟩
abbrev S1x16 : Shape := ⟨2, ![1, 16]⟩
abbrev S4096x16 : Shape := ⟨2, ![4096, 16]⟩
abbrev S4096x19016 : Shape := ⟨2, ![4096, 19016]⟩
abbrev S4096x38032 : Shape := ⟨2, ![4096, 38032]⟩
abbrev S38032x2048 : Shape := ⟨2, ![38032, 2048]⟩
abbrev S4096x2048 : Shape := ⟨2, ![4096, 2048]⟩
abbrev S1x2048 : Shape := ⟨2, ![1, 2048]⟩
abbrev S2048x1024 : Shape := ⟨2, ![2048, 1024]⟩
abbrev S4096x1024 : Shape := ⟨2, ![4096, 1024]⟩
abbrev S1024x1 : Shape := ⟨2, ![1024, 1]⟩
abbrev S1x1 : Shape := ⟨2, ![1, 1]⟩

abbrev nBuf : Space → Nat
  | .hbm => 108
  | .vmem => 0
  | .smem => 0
  | _ => 0

abbrev bufTy : (tb : Table) → Fin (tcTables nBuf tb) → BufTy
  | .hbm, ⟨0, _⟩ => ⟨S4096x2, .i32⟩
  | .hbm, ⟨1, _⟩ => ⟨S4096, .i32⟩
  | .hbm, ⟨2, _⟩ => ⟨S40000, .i32⟩
  | .hbm, ⟨3, _⟩ => ⟨S40000, .i32⟩
  | .hbm, ⟨4, _⟩ => ⟨S2048x38032, .f32⟩
  | .hbm, ⟨5, _⟩ => ⟨S2048, .f32⟩
  | .hbm, ⟨6, _⟩ => ⟨S1024x2048, .f32⟩
  | .hbm, ⟨7, _⟩ => ⟨S1024, .f32⟩
  | .hbm, ⟨8, _⟩ => ⟨S1x1024, .f32⟩
  | .hbm, ⟨9, _⟩ => ⟨S1, .f32⟩
  | .hbm, ⟨10, _⟩ => ⟨S_, .f32⟩
  | .hbm, ⟨11, _⟩ => ⟨S4000x19000, .f32⟩
  | .hbm, ⟨12, _⟩ => ⟨S_, .i32⟩
  | .hbm, ⟨13, _⟩ => ⟨S40000, .i32⟩
  | .hbm, ⟨14, _⟩ => ⟨S40000, .i1⟩
  | .hbm, ⟨15, _⟩ => ⟨S_, .i32⟩
  | .hbm, ⟨16, _⟩ => ⟨S40000, .i32⟩
  | .hbm, ⟨17, _⟩ => ⟨S40000, .i32⟩
  | .hbm, ⟨18, _⟩ => ⟨S40000, .i32⟩
  | .hbm, ⟨19, _⟩ => ⟨S_, .i32⟩
  | .hbm, ⟨20, _⟩ => ⟨S40000, .i32⟩
  | .hbm, ⟨21, _⟩ => ⟨S40000, .i1⟩
  | .hbm, ⟨22, _⟩ => ⟨S_, .i32⟩
  | .hbm, ⟨23, _⟩ => ⟨S40000, .i32⟩
  | .hbm, ⟨24, _⟩ => ⟨S40000, .i32⟩
  | .hbm, ⟨25, _⟩ => ⟨S40000, .i32⟩
  | .hbm, ⟨26, _⟩ => ⟨S40000x1, .i32⟩
  | .hbm, ⟨27, _⟩ => ⟨S40000x1, .i32⟩
  | .hbm, ⟨28, _⟩ => ⟨S40000x2, .i32⟩
  | .hbm, ⟨29, _⟩ => ⟨S_, .f32⟩
  | .hbm, ⟨30, _⟩ => ⟨S40000, .f32⟩
  | .hbm, ⟨31, _⟩ => ⟨S4000x19000, .f32⟩
  | .hbm, ⟨32, _⟩ => ⟨S4096x1, .i32⟩
  | .hbm, ⟨33, _⟩ => ⟨S4096, .i32⟩
  | .hbm, ⟨34, _⟩ => ⟨S_, .i32⟩
  | .hbm, ⟨35, _⟩ => ⟨S4096, .i32⟩
  | .hbm, ⟨36, _⟩ => ⟨S4096, .i1⟩
  | .hbm, ⟨37, _⟩ => ⟨S_, .i32⟩
  | .hbm, ⟨38, _⟩ => ⟨S4096, .i32⟩
  | .hbm, ⟨39, _⟩ => ⟨S4096, .i32⟩
  | .hbm, ⟨40, _⟩ => ⟨S4096, .i32⟩
  | .hbm, ⟨41, _⟩ => ⟨S4096x1, .i32⟩
  | .hbm, ⟨42, _⟩ => ⟨S4096x19000, .f32⟩
  | .hbm, ⟨43, _⟩ => ⟨S4096x1, .i32⟩
  | .hbm, ⟨44, _⟩ => ⟨S4096, .i32⟩
  | .hbm, ⟨45, _⟩ => ⟨S_, .i32⟩
  | .hbm, ⟨46, _⟩ => ⟨S4096, .i32⟩
  | .hbm, ⟨47, _⟩ => ⟨S4096, .i1⟩
  | .hbm, ⟨48, _⟩ => ⟨S_, .i32⟩
  | .hbm, ⟨49, _⟩ => ⟨S4096, .i32⟩
  | .hbm, ⟨50, _⟩ => ⟨S4096, .i32⟩
  | .hbm, ⟨51, _⟩ => ⟨S4096, .i32⟩
  | .hbm, ⟨52, _⟩ => ⟨S4096x1, .i32⟩
  | .hbm, ⟨53, _⟩ => ⟨S4096x19000, .f32⟩
  | .hbm, ⟨54, _⟩ => ⟨S4096x1, .i32⟩
  | .hbm, ⟨55, _⟩ => ⟨S1x16, .i32⟩
  | .hbm, ⟨56, _⟩ => ⟨S4096x16, .i32⟩
  | .hbm, ⟨57, _⟩ => ⟨S4096x16, .i32⟩
  | .hbm, ⟨58, _⟩ => ⟨S4096x16, .i1⟩
  | .hbm, ⟨59, _⟩ => ⟨S4096x16, .f32⟩
  | .hbm, ⟨60, _⟩ => ⟨S4096x19016, .f32⟩
  | .hbm, ⟨61, _⟩ => ⟨S4096x19016, .f32⟩
  | .hbm, ⟨62, _⟩ => ⟨S4096x38032, .f32⟩
  | .hbm, ⟨63, _⟩ => ⟨S4096x38032, .f32⟩
  | .hbm, ⟨64, _⟩ => ⟨S38032x2048, .f32⟩
  | .hbm, ⟨65, _⟩ => ⟨S4096x2048, .f32⟩
  | .hbm, ⟨66, _⟩ => ⟨S1x2048, .f32⟩
  | .hbm, ⟨67, _⟩ => ⟨S4096x2048, .f32⟩
  | .hbm, ⟨68, _⟩ => ⟨S4096x2048, .f32⟩
  | .hbm, ⟨69, _⟩ => ⟨S_, .f32⟩
  | .hbm, ⟨70, _⟩ => ⟨S4096x2048, .f32⟩
  | .hbm, ⟨71, _⟩ => ⟨S4096x2048, .f32⟩
  | .hbm, ⟨72, _⟩ => ⟨S2048x1024, .f32⟩
  | .hbm, ⟨73, _⟩ => ⟨S4096x1024, .f32⟩
  | .hbm, ⟨74, _⟩ => ⟨S1x1024, .f32⟩
  | .hbm, ⟨75, _⟩ => ⟨S4096x1024, .f32⟩
  | .hbm, ⟨76, _⟩ => ⟨S4096x1024, .f32⟩
  | .hbm, ⟨77, _⟩ => ⟨S_, .f32⟩
  | .hbm, ⟨78, _⟩ => ⟨S4096x1024, .f32⟩
  | .hbm, ⟨79, _⟩ => ⟨S4096x1024, .f32⟩
  | .hbm, ⟨80, _⟩ => ⟨S1024x1, .f32⟩
  | .hbm, ⟨81, _⟩ => ⟨S4096x1, .f32⟩
  | .hbm, ⟨82, _⟩ => ⟨S1x1, .f32⟩
  | .hbm, ⟨83, _⟩ => ⟨S4096x1, .f32⟩
  | .hbm, ⟨84, _⟩ => ⟨S4096x1, .f32⟩
  | .hbm, ⟨85, _⟩ => ⟨S38032x2048, .f32⟩
  | .hbm, ⟨86, _⟩ => ⟨S4096x2048, .f32⟩
  | .hbm, ⟨87, _⟩ => ⟨S1x2048, .f32⟩
  | .hbm, ⟨88, _⟩ => ⟨S4096x2048, .f32⟩
  | .hbm, ⟨89, _⟩ => ⟨S4096x2048, .f32⟩
  | .hbm, ⟨90, _⟩ => ⟨S_, .f32⟩
  | .hbm, ⟨91, _⟩ => ⟨S4096x2048, .f32⟩
  | .hbm, ⟨92, _⟩ => ⟨S4096x2048, .f32⟩
  | .hbm, ⟨93, _⟩ => ⟨S2048x1024, .f32⟩
  | .hbm, ⟨94, _⟩ => ⟨S4096x1024, .f32⟩
  | .hbm, ⟨95, _⟩ => ⟨S1x1024, .f32⟩
  | .hbm, ⟨96, _⟩ => ⟨S4096x1024, .f32⟩
  | .hbm, ⟨97, _⟩ => ⟨S4096x1024, .f32⟩
  | .hbm, ⟨98, _⟩ => ⟨S_, .f32⟩
  | .hbm, ⟨99, _⟩ => ⟨S4096x1024, .f32⟩
  | .hbm, ⟨100, _⟩ => ⟨S4096x1024, .f32⟩
  | .hbm, ⟨101, _⟩ => ⟨S1024x1, .f32⟩
  | .hbm, ⟨102, _⟩ => ⟨S4096x1, .f32⟩
  | .hbm, ⟨103, _⟩ => ⟨S1x1, .f32⟩
  | .hbm, ⟨104, _⟩ => ⟨S4096x1, .f32⟩
  | .hbm, ⟨105, _⟩ => ⟨S4096x1, .f32⟩
  | .hbm, ⟨106, _⟩ => ⟨S4096, .f32⟩
  | .hbm, ⟨107, _⟩ => ⟨S4096, .f32⟩
  | _, _ => ⟨S4096x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_c_1 : Ref sig .tc := ⟨.hbm, 19, rfl⟩
abbrev main_v6 : Ref sig .tc := ⟨.hbm, 20, rfl⟩
abbrev main_v7 : Ref sig .tc := ⟨.hbm, 21, rfl⟩
abbrev main_c_2 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_4 : Ref sig .tc := ⟨.hbm, 34, rfl⟩
abbrev main_v18 : Ref sig .tc := ⟨.hbm, 35, rfl⟩
abbrev main_v19 : Ref sig .tc := ⟨.hbm, 36, rfl⟩
abbrev main_c_5 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_c_7 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_call0_v0 : Ref sig .tc := ⟨.hbm, 54, rfl⟩
abbrev main_call0_v1 : Ref sig .tc := ⟨.hbm, 55, rfl⟩
abbrev main_call0_v2 : Ref sig .tc := ⟨.hbm, 56, rfl⟩
abbrev main_call0_v3 : Ref sig .tc := ⟨.hbm, 57, rfl⟩
abbrev main_call0_v4 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_call1_cst : Ref sig .tc := ⟨.hbm, 69, rfl⟩
abbrev main_call1_v0 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_call2_cst : Ref sig .tc := ⟨.hbm, 77, rfl⟩
abbrev main_call2_v0 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_call3_cst : Ref sig .tc := ⟨.hbm, 90, rfl⟩
abbrev main_call3_v0 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_call4_cst : Ref sig .tc := ⟨.hbm, 98, rfl⟩
abbrev main_call4_v0 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩

abbrev nD : Nat := 1
abbrev τ : Topo := Topo.v7x

variable {F : FTy → Type} [FloatOps F]

class Facts₀ : Prop where
  bcast_S_S4000x19000 : S_.BroadcastsInDim S4000x19000 (![] : Fin 0 → Fin S4000x19000.rank)
  bcast_S_S40000 : S_.BroadcastsInDim S40000 (![] : Fin 0 → Fin S40000.rank)
  bcast_S40000_S40000x1_0 : S40000.BroadcastsInDim S40000x1 (![0] : Fin 1 → Fin S40000x1.rank)
  concatenates_S40000x1_S40000x1_S40000x2_d1 : Shape.Concatenates [S40000x1, S40000x1] S40000x2 1
  slices_S4096x2_S4096x1_0_0 : S4096x2.Slices ![0, 0] S4096x1
  shapeCasts_S4096x1_S4096 : S4096x1.ShapeCasts S4096
  bcast_S_S4096 : S_.BroadcastsInDim S4096 (![] : Fin 0 → Fin S4096.rank)
  bcast_S4096_S4096x1_0 : S4096.BroadcastsInDim S4096x1 (![0] : Fin 1 → Fin S4096x1.rank)
  slices_S4096x2_S4096x1_0_1 : S4096x2.Slices ![0, 1] S4096x1
  bcast_S4096x1_S4096x16_0_1 : S4096x1.BroadcastsInDim S4096x16 (![0, 1] : Fin 2 → Fin S4096x16.rank)
  bcast_S1x16_S4096x16_0_1 : S1x16.BroadcastsInDim S4096x16 (![0, 1] : Fin 2 → Fin S4096x16.rank)
  concatenates_S4096x19000_S4096x16_S4096x19016_d1 : Shape.Concatenates [S4096x19000, S4096x16] S4096x19016 1
  concatenates_S4096x19016_S4096x19016_S4096x38032_d1 : Shape.Concatenates [S4096x19016, S4096x19016] S4096x38032 1
  transposes_S2048x38032_S38032x2048_1_0 : S2048x38032.Transposes [1, 0] S38032x2048
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  bcast_S_S4096x2048 : S_.BroadcastsInDim S4096x2048 (![] : Fin 0 → Fin S4096x2048.rank)
  transposes_S1024x2048_S2048x1024_1_0 : S1024x2048.Transposes [1, 0] S2048x1024
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  bcast_S_S4096x1024 : S_.BroadcastsInDim S4096x1024 (![] : Fin 0 → Fin S4096x1024.rank)
  transposes_S1x1024_S1024x1_1_0 : S1x1024.Transposes [1, 0] S1024x1
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  scatter_S4000x19000_S40000x2_S40000_n_01_01_1_wf : ScatterDims.WF S4000x19000 S40000x2 S40000 [] [0, 1] [0, 1] 1
  gather_S4000x19000_S4096x1_S4096x19000_1_0_n_n_0_1_119000_wf : GatherDims.WF S4000x19000 S4096x1 S4096x19000 [1] [0] [] [0] [] 1 ![1, 19000]
  dot_S4096x38032_S38032x2048_S4096x2048_1_0_0_1_n_n_wf : DotDims.WF S4096x38032 S38032x2048 S4096x2048 [1] [0] [0] [1] [] []
  dot_S4096x2048_S2048x1024_S4096x1024_1_0_0_1_n_n_wf : DotDims.WF S4096x2048 S2048x1024 S4096x1024 [1] [0] [0] [1] [] []
  dot_S4096x1024_S1024x1_S4096x1_1_0_0_1_n_n_wf : DotDims.WF S4096x1024 S1024x1 S4096x1 [1] [0] [0] [1] [] []

variable [Facts₀]

def scatter_S4000x19000_S40000x2_S40000_n_01_01_1 : ScatterDims S4000x19000 S40000x2 S40000 where
  updateWindowDims := []
  insertedWindowDims := [0, 1]
  scatterDimsToOperandDims := [0, 1]
  indexVectorDim := 1
  wf := scatter_S4000x19000_S40000x2_S40000_n_01_01_1_wf
def gather_S4000x19000_S4096x1_S4096x19000_1_0_n_n_0_1_119000 : GatherDims S4000x19000 S4096x1 S4096x19000 where
  offsetDims := [1]
  collapsedSliceDims := [0]
  operandBatchingDims := []
  startIndicesBatchingDims := []
  startIndexMap := [0]
  indexVectorDim := 1
  sliceSizes := ![1, 19000]
  wf := gather_S4000x19000_S4096x1_S4096x19000_1_0_n_n_0_1_119000_wf
def dot_S4096x38032_S38032x2048_S4096x2048_1_0_0_1_n_n : DotDims S4096x38032 S38032x2048 S4096x2048 where
  lhsContracting := [1]
  rhsContracting := [0]
  lhsNonContracting := [0]
  rhsNonContracting := [1]
  lhsBatch := []
  rhsBatch := []
  wf := dot_S4096x38032_S38032x2048_S4096x2048_1_0_0_1_n_n_wf
def dot_S4096x2048_S2048x1024_S4096x1024_1_0_0_1_n_n : DotDims S4096x2048 S2048x1024 S4096x1024 where
  lhsContracting := [1]
  rhsContracting := [0]
  lhsNonContracting := [0]
  rhsNonContracting := [1]
  lhsBatch := []
  rhsBatch := []
  wf := dot_S4096x2048_S2048x1024_S4096x1024_1_0_0_1_n_n_wf
def dot_S4096x1024_S1024x1_S4096x1_1_0_0_1_n_n : DotDims S4096x1024 S1024x1 S4096x1 where
  lhsContracting := [1]
  rhsContracting := [0]
  lhsNonContracting := [0]
  rhsNonContracting := [1]
  lhsBatch := []
  rhsBatch := []
  wf := dot_S4096x1024_S1024x1_S4096x1_1_0_0_1_n_n_wf

class Facts : Prop extends Facts₀ where

variable [Facts]
-- ==== Proof.LibHostPieces.lean ====
/-
  Two facts for reading a long line of host operations piece by piece.

  What a buffer holds after a line of host operations is a fold over the line. When the whole line's result is too
  large a term to compare in one step, the line can be cut at any point: the fold over a concatenation is the fold
  over the second part, started from what the first part leaves (`after_append`); with `List.take_append_drop` this
  cuts a line given as one list into stretches whose results are small terms, each read from any incoming contents.

  An operation spelt over typed references moves its operands from each buffer's own type to the tensor type it
  carries and its result back; these transports are identities, and a value moved to a buffer's type and back is the
  value (`ofBuf_toBuf`). Rewriting with it before comparing a stretch's result with a closed term removes the pairs
  of transports that otherwise stand between the two sides. Both facts hold for any topology, signature and element
  values.
-/
import Idealize.ShloMosaic.Lib.StableHlo.Run

namespace Idealize.ShloMosaic.HostPieces

open Idealize.ShloMosaic Idealize.ShloMosaic.StableHlo

variable {τ : Topo} {sig : RefSig} {Val : EltTy → Type}

/-- Running two stretches of operations one after the other is running their concatenation. -/
theorem after_append (l₁ l₂ : List (HloOp τ sig Val)) (V : Valuation τ sig Val) :
    after (l₁ ++ l₂) V = after l₂ (after l₁ V) := by
  induction l₁ generalizing V with
  | nil => rfl
  | cons op l ih => exact ih _

/-- A line of operations cut at position `n`: the part after `n` run from what the first `n` leave. -/
theorem after_take_drop (n : ℕ) (l : List (HloOp τ sig Val)) (V : Valuation τ sig Val) :
    after l V = after (l.drop n) (after (l.take n) V) := by
  rw [← after_append, List.take_append_drop]

/-- Contents moved to a buffer's own type and back are unchanged. -/
theorem ofBuf_toBuf {T : BufTy} (x : TRef sig T) (v : T.Contents Val) : x.ofBuf (x.toBuf v) = v := by
  obtain ⟨r, rfl, _, _⟩ := x
  rfl

end Idealize.ShloMosaic.HostPieces
-- ==== Proof.LibResultsRest.lean ====
/-
  A finishing step for reading a line of host operations.

  Reading what a buffer holds after a line of operations is a rewriting computation. Done as one simplification
  pass it does not reach the operands of a concatenation, which sit inside a list of (shape, array) pairs; what is
  left there — a short chain of results at an operand's reference — is finished here by rewriting with each
  operation's result at its own reference and at any other reference, one at a time.
-/
import Idealize.ShloMosaic.Lib.StableHlo.Run

namespace Idealize.ShloMosaic.StableHlo

/-- Rewrites every remaining operation result, at its own reference or at another one, until none is left. -/
macro "after_results_rest" : tactic =>
  `(tactic| repeat (first
      | rw [nullary_result] | rw [unary_result] | rw [binary_result] | rw [ternary_result] | rw [quaternary_result]
      | rw [reshape_result]
      | (rw [nullary_result_ne]; rotate_left; decide)
      | (rw [unary_result_ne]; rotate_left; decide)
      | (rw [binary_result_ne]; rotate_left; decide)
      | (rw [ternary_result_ne]; rotate_left; decide)
      | (rw [quaternary_result_ne]; rotate_left; decide)
      | (rw [reshape_result_ne]; rotate_left; decide)))

end Idealize.ShloMosaic.StableHlo
-- ==== Proof.KPieces.lean ====
/-
  What each control case of the kernel body leaves in the two accumulators it carries from one grid point to the next,
  and in the two output blocks at the last reduction step, as pure terms of the blocks the body loads: the stores of a
  case cover the buffer, so reading the buffer back gives the last store's value, and every load of a whole buffer
  gives its contents.
-/
import proofs.«148840_j45294725103836_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a <;> rfl

/-- A middle step adds half of (sum product + difference product) of the step's blocks to the first accumulator. -/
theorem sout0_B_0_eq (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x16 .bf16) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S2048x16 .bf16) (harg7 : arg7.IsWhole) (arg8 : Memref sig .tc .vmem S2048 .f32) (harg8 : arg8.IsWhole) (arg9 : Memref sig .tc .vmem S1024x2048 .bf16) (harg9 : arg9.IsWhole) (arg10 : Memref sig .tc .vmem S1024 .f32) (harg10 : arg10.IsWhole) (arg11 : Memref sig .tc .vmem S1x1024 .bf16) (harg11 : arg11.IsWhole) (arg12 : Memref sig .tc .vmem S1 .f32) (harg12 : arg12.IsWhole) (arg13 : Memref sig .tc .vmem S512 .f32) (harg13 : arg13.IsWhole) (arg14 : Memref sig .tc .vmem S512 .f32) (harg14 : arg14.IsWhole) (arg15 : Memref sig .tc .vmem S512x2048 .f32) (harg15 : arg15.IsWhole) (arg16 : Memref sig .tc .vmem S512x2048 .f32) (harg16 : arg16.IsWhole) (hc0 : ¬cond0_0 i) (hc1 : ¬cond0_1 i) (hc2 : ¬cond0_2 i)
    (x0 : Vec F S512x512 .bf16) (x1 : Vec F S512x512 .bf16) (x2 : Vec F S512x16 .bf16) (x3 : Vec F S2048x512 .bf16) (x4 : Vec F S2048x512 .bf16) (x5 : Vec F S2048x16 .bf16) (x6 : Vec F S2048 .f32) (x7 : Vec F S1024x2048 .bf16) (x8 : Vec F S1024 .f32) (x9 : Vec F S1x1024 .bf16) (x10 : Vec F S1 .f32) (xs0 : Vec F S512x2048 .f32) (xs1 : Vec F S512x2048 .f32) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 xs0 xs1 = k0_pay16 x0 x1 x3 x4 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 xs0 xs1)]
  unfold kernelRun0_B
  dsimp only
  sl_unfold_words
  rw [View.canon_unit_zero hz2]
  simp only [View.readCov_unit_zero (S := S512x2048) _ hz2, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S512x512) hz2, View.ld_unit_zero (S := S512x16) hz2, View.ld_unit_zero (S := S2048x512) hz2, View.ld_unit_zero (S := S2048x16) hz2, View.ld_unit_zero (S := S1024x2048) hz2, View.ld_unit_zero (S := S1x1024) hz2, View.ld_unit_zero (S := S512x2048) hz2, View.ld_unit_zero (S := S2048) hz1, View.ld_unit_zero (S := S1024) hz1, View.ld_unit_zero (S := S1) hz1, View.ld_unit_zero (S := S512) hz1]

/-- A middle step adds half of (sum product − difference product) to the second accumulator. -/
theorem sout0_B_1_eq (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x16 .bf16) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S2048x16 .bf16) (harg7 : arg7.IsWhole) (arg8 : Memref sig .tc .vmem S2048 .f32) (harg8 : arg8.IsWhole) (arg9 : Memref sig .tc .vmem S1024x2048 .bf16) (harg9 : arg9.IsWhole) (arg10 : Memref sig .tc .vmem S1024 .f32) (harg10 : arg10.IsWhole) (arg11 : Memref sig .tc .vmem S1x1024 .bf16) (harg11 : arg11.IsWhole) (arg12 : Memref sig .tc .vmem S1 .f32) (harg12 : arg12.IsWhole) (arg13 : Memref sig .tc .vmem S512 .f32) (harg13 : arg13.IsWhole) (arg14 : Memref sig .tc .vmem S512 .f32) (harg14 : arg14.IsWhole) (arg15 : Memref sig .tc .vmem S512x2048 .f32) (harg15 : arg15.IsWhole) (arg16 : Memref sig .tc .vmem S512x2048 .f32) (harg16 : arg16.IsWhole) (hc0 : ¬cond0_0 i) (hc1 : ¬cond0_1 i) (hc2 : ¬cond0_2 i)
    (x0 : Vec F S512x512 .bf16) (x1 : Vec F S512x512 .bf16) (x2 : Vec F S512x16 .bf16) (x3 : Vec F S2048x512 .bf16) (x4 : Vec F S2048x512 .bf16) (x5 : Vec F S2048x16 .bf16) (x6 : Vec F S2048 .f32) (x7 : Vec F S1024x2048 .bf16) (x8 : Vec F S1024 .f32) (x9 : Vec F S1x1024 .bf16) (x10 : Vec F S1 .f32) (xs0 : Vec F S512x2048 .f32) (xs1 : Vec F S512x2048 .f32) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 xs0 xs1 = k0_pay17 x0 x1 x3 x4 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 xs0 xs1)]
  unfold kernelRun0_B
  dsimp only
  sl_unfold_words
  rw [View.canon_unit_zero hz2]
  simp only [View.readCov_unit_zero (S := S512x2048) _ hz2, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S512x512) hz2, View.ld_unit_zero (S := S512x16) hz2, View.ld_unit_zero (S := S2048x512) hz2, View.ld_unit_zero (S := S2048x16) hz2, View.ld_unit_zero (S := S1024x2048) hz2, View.ld_unit_zero (S := S1x1024) hz2, View.ld_unit_zero (S := S512x2048) hz2, View.ld_unit_zero (S := S2048) hz1, View.ld_unit_zero (S := S1024) hz1, View.ld_unit_zero (S := S1) hz1, View.ld_unit_zero (S := S512) hz1]

/-- The first step of a run stores zero, adds its own half-sum, and then the cell-line product: first accumulator. -/
theorem sout0_A_0_eq (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x16 .bf16) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S2048x16 .bf16) (harg7 : arg7.IsWhole) (arg8 : Memref sig .tc .vmem S2048 .f32) (harg8 : arg8.IsWhole) (arg9 : Memref sig .tc .vmem S1024x2048 .bf16) (harg9 : arg9.IsWhole) (arg10 : Memref sig .tc .vmem S1024 .f32) (harg10 : arg10.IsWhole) (arg11 : Memref sig .tc .vmem S1x1024 .bf16) (harg11 : arg11.IsWhole) (arg12 : Memref sig .tc .vmem S1 .f32) (harg12 : arg12.IsWhole) (arg13 : Memref sig .tc .vmem S512 .f32) (harg13 : arg13.IsWhole) (arg14 : Memref sig .tc .vmem S512 .f32) (harg14 : arg14.IsWhole) (arg15 : Memref sig .tc .vmem S512x2048 .f32) (harg15 : arg15.IsWhole) (arg16 : Memref sig .tc .vmem S512x2048 .f32) (harg16 : arg16.IsWhole) (hc0 : cond0_0 i) (hc1 : cond0_1 i) (hc2 : ¬cond0_2 i)
    (x0 : Vec F S512x512 .bf16) (x1 : Vec F S512x512 .bf16) (x2 : Vec F S512x16 .bf16) (x3 : Vec F S2048x512 .bf16) (x4 : Vec F S2048x512 .bf16) (x5 : Vec F S2048x16 .bf16) (x6 : Vec F S2048 .f32) (x7 : Vec F S1024x2048 .bf16) (x8 : Vec F S1024 .f32) (x9 : Vec F S1x1024 .bf16) (x10 : Vec F S1 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 = k0_pay2 x2 x5 (k0_pay16 x0 x1 x3 x4 k0_pay10) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10)]
  unfold kernelRun0_A
  dsimp only
  sl_unfold_words
  rw [View.canon_cons_unit_zero (S := S512x2048) hz2]
  simp only [View.readCov_unit_zero (S := S512x2048) _ hz2, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S512x512) hz2, View.ld_unit_zero (S := S512x16) hz2, View.ld_unit_zero (S := S2048x512) hz2, View.ld_unit_zero (S := S2048x16) hz2, View.ld_unit_zero (S := S1024x2048) hz2, View.ld_unit_zero (S := S1x1024) hz2, View.ld_unit_zero (S := S512x2048) hz2, View.ld_unit_zero (S := S2048) hz1, View.ld_unit_zero (S := S1024) hz1, View.ld_unit_zero (S := S1) hz1, View.ld_unit_zero (S := S512) hz1]
  rw [View.readCov_cons_toLoadRect]

/-- The first step of a run, second accumulator. -/
theorem sout0_A_1_eq (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x16 .bf16) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S2048x16 .bf16) (harg7 : arg7.IsWhole) (arg8 : Memref sig .tc .vmem S2048 .f32) (harg8 : arg8.IsWhole) (arg9 : Memref sig .tc .vmem S1024x2048 .bf16) (harg9 : arg9.IsWhole) (arg10 : Memref sig .tc .vmem S1024 .f32) (harg10 : arg10.IsWhole) (arg11 : Memref sig .tc .vmem S1x1024 .bf16) (harg11 : arg11.IsWhole) (arg12 : Memref sig .tc .vmem S1 .f32) (harg12 : arg12.IsWhole) (arg13 : Memref sig .tc .vmem S512 .f32) (harg13 : arg13.IsWhole) (arg14 : Memref sig .tc .vmem S512 .f32) (harg14 : arg14.IsWhole) (arg15 : Memref sig .tc .vmem S512x2048 .f32) (harg15 : arg15.IsWhole) (arg16 : Memref sig .tc .vmem S512x2048 .f32) (harg16 : arg16.IsWhole) (hc0 : cond0_0 i) (hc1 : cond0_1 i) (hc2 : ¬cond0_2 i)
    (x0 : Vec F S512x512 .bf16) (x1 : Vec F S512x512 .bf16) (x2 : Vec F S512x16 .bf16) (x3 : Vec F S2048x512 .bf16) (x4 : Vec F S2048x512 .bf16) (x5 : Vec F S2048x16 .bf16) (x6 : Vec F S2048 .f32) (x7 : Vec F S1024x2048 .bf16) (x8 : Vec F S1024 .f32) (x9 : Vec F S1x1024 .bf16) (x10 : Vec F S1 .f32) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 = k0_pay3 x2 x5 (k0_pay17 x0 x1 x3 x4 k0_pay11) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10)]
  unfold kernelRun0_A
  dsimp only
  sl_unfold_words
  rw [View.canon_cons_unit_zero (S := S512x2048) hz2]
  simp only [View.readCov_unit_zero (S := S512x2048) _ hz2, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S512x512) hz2, View.ld_unit_zero (S := S512x16) hz2, View.ld_unit_zero (S := S2048x512) hz2, View.ld_unit_zero (S := S2048x16) hz2, View.ld_unit_zero (S := S1024x2048) hz2, View.ld_unit_zero (S := S1x1024) hz2, View.ld_unit_zero (S := S512x2048) hz2, View.ld_unit_zero (S := S2048) hz1, View.ld_unit_zero (S := S1024) hz1, View.ld_unit_zero (S := S1) hz1, View.ld_unit_zero (S := S512) hz1]
  rw [View.readCov_cons_toLoadRect]

/-- The last step of a run adds its own half-sum to the first accumulator like a middle step … -/
theorem sout0_C_0_eq (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x16 .bf16) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S2048x16 .bf16) (harg7 : arg7.IsWhole) (arg8 : Memref sig .tc .vmem S2048 .f32) (harg8 : arg8.IsWhole) (arg9 : Memref sig .tc .vmem S1024x2048 .bf16) (harg9 : arg9.IsWhole) (arg10 : Memref sig .tc .vmem S1024 .f32) (harg10 : arg10.IsWhole) (arg11 : Memref sig .tc .vmem S1x1024 .bf16) (harg11 : arg11.IsWhole) (arg12 : Memref sig .tc .vmem S1 .f32) (harg12 : arg12.IsWhole) (arg13 : Memref sig .tc .vmem S512 .f32) (harg13 : arg13.IsWhole) (arg14 : Memref sig .tc .vmem S512 .f32) (harg14 : arg14.IsWhole) (arg15 : Memref sig .tc .vmem S512x2048 .f32) (harg15 : arg15.IsWhole) (arg16 : Memref sig .tc .vmem S512x2048 .f32) (harg16 : arg16.IsWhole) (hc0 : ¬cond0_0 i) (hc1 : ¬cond0_1 i) (hc2 : cond0_2 i)
    (x0 : Vec F S512x512 .bf16) (x1 : Vec F S512x512 .bf16) (x2 : Vec F S512x16 .bf16) (x3 : Vec F S2048x512 .bf16) (x4 : Vec F S2048x512 .bf16) (x5 : Vec F S2048x16 .bf16) (x6 : Vec F S2048 .f32) (x7 : Vec F S1024x2048 .bf16) (x8 : Vec F S1024 .f32) (x9 : Vec F S1x1024 .bf16) (x10 : Vec F S1 .f32) (xs0 : Vec F S512x2048 .f32) (xs1 : Vec F S512x2048 .f32) :
    sout0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 xs0 xs1 = k0_pay16 x0 x1 x3 x4 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 xs0 xs1)]
  unfold kernelRun0_C
  dsimp only
  sl_unfold_words
  rw [View.canon_unit_zero hz2]
  simp only [View.readCov_unit_zero (S := S512x2048) _ hz2, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S512x512) hz2, View.ld_unit_zero (S := S512x16) hz2, View.ld_unit_zero (S := S2048x512) hz2, View.ld_unit_zero (S := S2048x16) hz2, View.ld_unit_zero (S := S1024x2048) hz2, View.ld_unit_zero (S := S1x1024) hz2, View.ld_unit_zero (S := S512x2048) hz2, View.ld_unit_zero (S := S2048) hz1, View.ld_unit_zero (S := S1024) hz1, View.ld_unit_zero (S := S1) hz1, View.ld_unit_zero (S := S512) hz1]

/-- … and to the second. -/
theorem sout0_C_1_eq (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x16 .bf16) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S2048x16 .bf16) (harg7 : arg7.IsWhole) (arg8 : Memref sig .tc .vmem S2048 .f32) (harg8 : arg8.IsWhole) (arg9 : Memref sig .tc .vmem S1024x2048 .bf16) (harg9 : arg9.IsWhole) (arg10 : Memref sig .tc .vmem S1024 .f32) (harg10 : arg10.IsWhole) (arg11 : Memref sig .tc .vmem S1x1024 .bf16) (harg11 : arg11.IsWhole) (arg12 : Memref sig .tc .vmem S1 .f32) (harg12 : arg12.IsWhole) (arg13 : Memref sig .tc .vmem S512 .f32) (harg13 : arg13.IsWhole) (arg14 : Memref sig .tc .vmem S512 .f32) (harg14 : arg14.IsWhole) (arg15 : Memref sig .tc .vmem S512x2048 .f32) (harg15 : arg15.IsWhole) (arg16 : Memref sig .tc .vmem S512x2048 .f32) (harg16 : arg16.IsWhole) (hc0 : ¬cond0_0 i) (hc1 : ¬cond0_1 i) (hc2 : cond0_2 i)
    (x0 : Vec F S512x512 .bf16) (x1 : Vec F S512x512 .bf16) (x2 : Vec F S512x16 .bf16) (x3 : Vec F S2048x512 .bf16) (x4 : Vec F S2048x512 .bf16) (x5 : Vec F S2048x16 .bf16) (x6 : Vec F S2048 .f32) (x7 : Vec F S1024x2048 .bf16) (x8 : Vec F S1024 .f32) (x9 : Vec F S1x1024 .bf16) (x10 : Vec F S1 .f32) (xs0 : Vec F S512x2048 .f32) (xs1 : Vec F S512x2048 .f32) :
    sout0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 xs0 xs1 = k0_pay17 x0 x1 x3 x4 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 xs0 xs1)]
  unfold kernelRun0_C
  dsimp only
  sl_unfold_words
  rw [View.canon_unit_zero hz2]
  simp only [View.readCov_unit_zero (S := S512x2048) _ hz2, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S512x512) hz2, View.ld_unit_zero (S := S512x16) hz2, View.ld_unit_zero (S := S2048x512) hz2, View.ld_unit_zero (S := S2048x16) hz2, View.ld_unit_zero (S := S1024x2048) hz2, View.ld_unit_zero (S := S1x1024) hz2, View.ld_unit_zero (S := S512x2048) hz2, View.ld_unit_zero (S := S2048) hz1, View.ld_unit_zero (S := S1024) hz1, View.ld_unit_zero (S := S1) hz1, View.ld_unit_zero (S := S512) hz1]

/-- The last step of a run then applies the two later layers to the finished first accumulator: the first output block. -/
theorem out0_C_11_eq (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x16 .bf16) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S2048x16 .bf16) (harg7 : arg7.IsWhole) (arg8 : Memref sig .tc .vmem S2048 .f32) (harg8 : arg8.IsWhole) (arg9 : Memref sig .tc .vmem S1024x2048 .bf16) (harg9 : arg9.IsWhole) (arg10 : Memref sig .tc .vmem S1024 .f32) (harg10 : arg10.IsWhole) (arg11 : Memref sig .tc .vmem S1x1024 .bf16) (harg11 : arg11.IsWhole) (arg12 : Memref sig .tc .vmem S1 .f32) (harg12 : arg12.IsWhole) (arg13 : Memref sig .tc .vmem S512 .f32) (harg13 : arg13.IsWhole) (arg14 : Memref sig .tc .vmem S512 .f32) (harg14 : arg14.IsWhole) (arg15 : Memref sig .tc .vmem S512x2048 .f32) (harg15 : arg15.IsWhole) (arg16 : Memref sig .tc .vmem S512x2048 .f32) (harg16 : arg16.IsWhole) (hc0 : ¬cond0_0 i) (hc1 : ¬cond0_1 i) (hc2 : cond0_2 i)
    (x0 : Vec F S512x512 .bf16) (x1 : Vec F S512x512 .bf16) (x2 : Vec F S512x16 .bf16) (x3 : Vec F S2048x512 .bf16) (x4 : Vec F S2048x512 .bf16) (x5 : Vec F S2048x16 .bf16) (x6 : Vec F S2048 .f32) (x7 : Vec F S1024x2048 .bf16) (x8 : Vec F S1024 .f32) (x9 : Vec F S1x1024 .bf16) (x10 : Vec F S1 .f32) (xs0 : Vec F S512x2048 .f32) (xs1 : Vec F S512x2048 .f32) :
    out0_C_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 xs0 xs1 = k0_pay4 (k0_pay9 x6 (k0_pay16 x0 x1 x3 x4 xs0) x7 x8 x9 x10) := by
  unfold out0_C_11
  rw [View.read_writes_eq_canon _ _ _ (cover0_C_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 xs0 xs1)]
  unfold kernelRun0_C
  dsimp only
  sl_unfold_words
  rw [View.canon_unit_zero hz1]
  simp only [View.readCov_unit_zero (S := S512x2048) _ hz2, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S512x512) hz2, View.ld_unit_zero (S := S512x16) hz2, View.ld_unit_zero (S := S2048x512) hz2, View.ld_unit_zero (S := S2048x16) hz2, View.ld_unit_zero (S := S1024x2048) hz2, View.ld_unit_zero (S := S1x1024) hz2, View.ld_unit_zero (S := S512x2048) hz2, View.ld_unit_zero (S := S2048) hz1, View.ld_unit_zero (S := S1024) hz1, View.ld_unit_zero (S := S1) hz1, View.ld_unit_zero (S := S512) hz1]

/-- The second output block, from the finished second accumulator. -/
theorem out0_C_12_eq (c : Dev nD) (i : grid0.Coords) (arg2 : Memref sig .tc .vmem S512x512 .bf16) (harg2 : arg2.IsWhole) (arg3 : Memref sig .tc .vmem S512x512 .bf16) (harg3 : arg3.IsWhole) (arg4 : Memref sig .tc .vmem S512x16 .bf16) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S2048x16 .bf16) (harg7 : arg7.IsWhole) (arg8 : Memref sig .tc .vmem S2048 .f32) (harg8 : arg8.IsWhole) (arg9 : Memref sig .tc .vmem S1024x2048 .bf16) (harg9 : arg9.IsWhole) (arg10 : Memref sig .tc .vmem S1024 .f32) (harg10 : arg10.IsWhole) (arg11 : Memref sig .tc .vmem S1x1024 .bf16) (harg11 : arg11.IsWhole) (arg12 : Memref sig .tc .vmem S1 .f32) (harg12 : arg12.IsWhole) (arg13 : Memref sig .tc .vmem S512 .f32) (harg13 : arg13.IsWhole) (arg14 : Memref sig .tc .vmem S512 .f32) (harg14 : arg14.IsWhole) (arg15 : Memref sig .tc .vmem S512x2048 .f32) (harg15 : arg15.IsWhole) (arg16 : Memref sig .tc .vmem S512x2048 .f32) (harg16 : arg16.IsWhole) (hc0 : ¬cond0_0 i) (hc1 : ¬cond0_1 i) (hc2 : cond0_2 i)
    (x0 : Vec F S512x512 .bf16) (x1 : Vec F S512x512 .bf16) (x2 : Vec F S512x16 .bf16) (x3 : Vec F S2048x512 .bf16) (x4 : Vec F S2048x512 .bf16) (x5 : Vec F S2048x16 .bf16) (x6 : Vec F S2048 .f32) (x7 : Vec F S1024x2048 .bf16) (x8 : Vec F S1024 .f32) (x9 : Vec F S1x1024 .bf16) (x10 : Vec F S1 .f32) (xs0 : Vec F S512x2048 .f32) (xs1 : Vec F S512x2048 .f32) :
    out0_C_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 xs0 xs1 = k0_pay5 (k0_pay7 x6 (k0_pay17 x0 x1 x3 x4 xs1) x7 x8) (k0_pay8 x9) x10 := by
  unfold out0_C_12
  rw [View.read_writes_eq_canon _ _ _ (cover0_C_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 xs0 xs1)]
  unfold kernelRun0_C
  dsimp only
  sl_unfold_words
  rw [View.canon_unit_zero hz1]
  simp only [View.readCov_unit_zero (S := S512x2048) _ hz2, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, View.ld_unit_zero (S := S512x512) hz2, View.ld_unit_zero (S := S512x16) hz2, View.ld_unit_zero (S := S2048x512) hz2, View.ld_unit_zero (S := S2048x16) hz2, View.ld_unit_zero (S := S1024x2048) hz2, View.ld_unit_zero (S := S1x1024) hz2, View.ld_unit_zero (S := S512x2048) hz2, View.ld_unit_zero (S := S2048) hz1, View.ld_unit_zero (S := S1024) hz1, View.ld_unit_zero (S := S1) hz1, View.ld_unit_zero (S := S512) hz1]

end Cert.KernelIdeal.Pieces

end
-- ==== Proof.KSpec.lean ====
/-
  The arithmetic of the fused kernel, as pure functions on extended reals (no program is mentioned here).

  One reduction step of the first layer works on a block of 512 columns: with the two 0/1 rows p, q of a sample and the
  rows s, d of the summed and the differenced weights for one hidden unit, it contributes
  half of ((p + q)·s + (p − q)·d) to the first accumulator and half of ((p + q)·s − (p − q)·d) to the second. After
  the last step the two later layers are applied to a row of accumulated first-layer values.
-/
import Idealize.ShloMosaic.PureOps.Ideal
import Mathlib.Algebra.BigOperators.Fin

noncomputable section

open scoped BigOperators

namespace Cert.KSpec

open Idealize.ShloMosaic

/-- One half, as the kernel's constant. -/
abbrev half : EReal := Ideal.ofBits .f32 0x3F000000#32

/-- The product of the summed rows over one block of T columns. -/
def sProd {T : ℕ} (p q s : Fin T → EReal) : EReal := ∑ t : Fin T, (p t + q t) * s t
/-- The product of the differenced rows over one block of T columns. -/
def dProd {T : ℕ} (p q d : Fin T → EReal) : EReal := ∑ t : Fin T, (p t - q t) * d t

/-- What one reduction step adds to the first accumulator. -/
def step1 {T : ℕ} (p q s d : Fin T → EReal) : EReal := half * (sProd p q s + dProd p q d)
/-- What one reduction step adds to the second accumulator. -/
def step2 {T : ℕ} (p q s d : Fin T → EReal) : EReal := half * (sProd p q s - dProd p q d)

/-- The cell-line term: the one-hot row against the summed cell-line weights of one hidden unit. -/
def cellTerm (o w : Fin 16 → EReal) : EReal := ∑ c : Fin 16, o c * w c

/-- The two later layers on one sample: a is the row of accumulated first-layer values. -/
def tail (a b0 : Fin 2048 → EReal) (w1 : Fin 1024 → Fin 2048 → EReal) (b1 : Fin 1024 → EReal)
    (w2 : Fin 1024 → EReal) (b2 : EReal) : EReal :=
  (∑ j : Fin 1024, max ((∑ i : Fin 2048, max (a i + b0 i) 0 * w1 j i) + b1 j) 0 * w2 j) + b2

/-- Column 512·s + t of the padded tables: the t-th column of the s-th block of columns. -/
def colOf (s : Fin 38) (t : Fin 512) : Fin 19456 := ⟨512 * s.val + t.val, by have := s.isLt; have := t.isLt; omega⟩

/-- The first accumulator after all 38 reduction steps, for one sample and one hidden unit: p, q the sample's two padded
    0/1 rows, sW, dW the unit's summed and differenced padded weight rows, o the one-hot row, w the summed cell-line weights. -/
def acc1 (p q sW dW : Fin 19456 → EReal) (o w : Fin 16 → EReal) : EReal :=
  cellTerm o w + ∑ s : Fin 38, step1 (fun t => p (colOf s t)) (fun t => q (colOf s t)) (fun t => sW (colOf s t)) (fun t => dW (colOf s t))

/-- The second accumulator after all 38 reduction steps. -/
def acc2 (p q sW dW : Fin 19456 → EReal) (o w : Fin 16 → EReal) : EReal :=
  cellTerm o w + ∑ s : Fin 38, step2 (fun t => p (colOf s t)) (fun t => q (colOf s t)) (fun t => sW (colOf s t)) (fun t => dW (colOf s t))

/-- The kernel's first result for sample b, from the arrays its windows stage. -/
def out1 (P Q : Fin 4096 → Fin 19456 → EReal) (O : Fin 4096 → Fin 16 → EReal) (WS WD : Fin 2048 → Fin 19456 → EReal)
    (WC : Fin 2048 → Fin 16 → EReal) (b0 : Fin 2048 → EReal) (w1 : Fin 1024 → Fin 2048 → EReal) (b1 : Fin 1024 → EReal)
    (w2 : Fin 1024 → EReal) (b2 : EReal) (b : Fin 4096) : EReal :=
  tail (fun i => acc1 (P b) (Q b) (WS i) (WD i) (O b) (WC i)) b0 w1 b1 w2 b2

/-- The kernel's second result for sample b. -/
def out2 (P Q : Fin 4096 → Fin 19456 → EReal) (O : Fin 4096 → Fin 16 → EReal) (WS WD : Fin 2048 → Fin 19456 → EReal)
    (WC : Fin 2048 → Fin 16 → EReal) (b0 : Fin 2048 → EReal) (w1 : Fin 1024 → Fin 2048 → EReal) (b1 : Fin 1024 → EReal)
    (w2 : Fin 1024 → EReal) (b2 : EReal) (b : Fin 4096) : EReal :=
  tail (fun i => acc2 (P b) (Q b) (WS i) (WD i) (O b) (WC i)) b0 w1 b1 w2 b2

end Cert.KSpec

end
-- ==== Proof.LibMatmulPlain.lean ====
/-
  A plain matrix product read at an index, over the extended reals.

  For the dimension numbers of an [M, K] by [K, N] product with no batch axis (the left operand contracted on its
  second axis, the right operand on its first), the matrix unit's product at the entry (p, q) is the accumulator's
  entry plus the sum over k < K of A (p, k) * B (k, q); into a zero accumulator it is that sum alone. The extents
  M, K, N are arbitrary, and so are the operands' float formats (a change of format is the identity here).
-/
import Idealize.ShloMosaic.PureOps.Ideal.Laws
import Idealize.ShloMosaic.Lib.ValueIdx

noncomputable section

open scoped BigOperators

namespace Idealize.ShloMosaic.MatmulPlain

open Idealize.ShloMosaic Idealize.ShloMosaic.ValueIdx

variable {M K N : Nat}

/-- The contraction of a plain product has one axis, -/
theorem contr_rank : (DotDims.plain M K N).contr.rank = 1 := rfl
/-- of extent K. -/
theorem contr_size : (DotDims.plain M K N).contr.size ⟨0, by rw [contr_rank]; exact Nat.one_pos⟩ = K := rfl

/-- The left operand is read at row `j 0` and at the contraction position as its column. -/
theorem lhsIdx_eq (j : (⟨2, ![M, N]⟩ : Shape).Idx) (k : Fin K) :
    (DotDims.plain M K N).lhsIdx j ((contrEquiv1 (DotDims.plain M K N) K contr_rank contr_size).symm k) = ix2 (j 0) k := by
  funext a
  apply Fin.ext
  match a with
  | ⟨0, _⟩ => rfl
  | ⟨1, _⟩ =>
    refine ((DotDims.plain M K N).lhsIdx_val_of_single (cl := 1) rfl j _).trans ?_
    exact contrEquiv1_symm_val (DotDims.plain M K N) K contr_rank contr_size k

/-- The right operand is read at the contraction position as its row and at column `j 1`. -/
theorem rhsIdx_eq (j : (⟨2, ![M, N]⟩ : Shape).Idx) (k : Fin K) :
    (DotDims.plain M K N).rhsIdx j ((contrEquiv1 (DotDims.plain M K N) K contr_rank contr_size).symm k) = ix2 k (j 1) := by
  funext a
  apply Fin.ext
  match a with
  | ⟨0, _⟩ =>
    refine ((DotDims.plain M K N).rhsIdx_val_of_single (cr := 0) rfl j _).trans ?_
    exact contrEquiv1_symm_val (DotDims.plain M K N) K contr_rank contr_size k
  | ⟨1, _⟩ => rfl

/-- A plain product into any accumulator, at an entry: the accumulator's entry plus the row-by-column sum. -/
theorem matmul_apply {φ₁ φ₂ : FTy} (prec : Option ContractPrecision) (A : FVec Ideal ⟨2, ![M, K]⟩ φ₁)
    (B : FVec Ideal ⟨2, ![K, N]⟩ φ₂) (acc : FVec Ideal ⟨2, ![M, N]⟩ .f32) (j : (⟨2, ![M, N]⟩ : Shape).Idx) :
    matmul (DotDims.plain M K N) prec A B acc j = acc j + ∑ k : Fin K, A (ix2 (j 0) k) * B (ix2 k (j 1)) := by
  refine (Ideal.matmul_apply (DotDims.plain M K N) prec A B acc j).trans ?_
  congr 1
  rw [← Equiv.sum_comp (contrEquiv1 (DotDims.plain M K N) K contr_rank contr_size).symm]
  exact Finset.sum_congr rfl fun k _ => by rw [lhsIdx_eq, rhsIdx_eq]; rfl

/-- Into the zero accumulator: the row-by-column sum alone. -/
theorem matmul_zero_apply {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    matmul (DotDims.plain M K N) prec A B (constant (F := Ideal) ⟨2, ![M, N]⟩ .f32 0x00000000#32) j
      = ∑ k : Fin K, A (ix2 (j 0) k) * B (ix2 k (j 1)) := by
  rw [matmul_apply]
  show Ideal.ofBits .f32 0x00000000#32 + _ = _
  rw [Ideal.ofBits_zero_f32, zero_add]

end Idealize.ShloMosaic.MatmulPlain

end
-- ==== Proof.KPay.lean ====
/-
  The kernel body's stored values read entry by entry over the extended reals: every matrix product of the body is a
  plain row-by-column sum (the right operand is transposed first), the bias rows are broadcast over the 512 samples of a
  block, and a change of float format is the identity.
-/
import proofs.«148840_j45294725103836_2_alg».proof.Proof.Gen.KernelIdeal.Skeleton
import proofs.«148840_j45294725103836_2_alg».proof.Proof.KSpec
import proofs.«148840_j45294725103836_2_alg».proof.Proof.LibMatmulPlain
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.ShloMosaic.ValueIdx
open scoped BigOperators

namespace Cert.KernelIdeal.Pay

open Cert.KernelIdeal Cert.KernelIdeal.Gen Cert.KSpec

theorem dotA : dot_S512x512_S512x2048_S512x2048_1_0_0_1_n_n = DotDims.plain 512 512 2048 := rfl
theorem dotB : dot_S512x16_S16x2048_S512x2048_1_0_0_1_n_n = DotDims.plain 512 16 2048 := rfl
theorem dotC : dot_S512x2048_S2048x1024_S512x1024_1_0_0_1_n_n = DotDims.plain 512 2048 1024 := rfl
theorem dotD : dot_S512x1024_S1024x1_S512x1_1_0_0_1_n_n = DotDims.plain 512 1024 1 := rfl

/-- The product of the summed sample rows with the summed weights, one entry. -/
theorem pay14_apply (v3 v5 : Vec Ideal S512x512 .bf16) (v7 : Vec Ideal S2048x512 .bf16) (r : Fin 512) (i : Fin 2048) :
    k0_pay14 (F := Ideal) v3 v5 v7 (ix2 r i)
      = sProd (fun t => v3 (ix2 r t)) (fun t => v5 (ix2 r t)) (fun t => v7 (ix2 i t)) := by
  unfold k0_pay14 k0_pay12 k0_pay13 sProd
  try dsimp only
  rw [dotA]
  refine (MatmulPlain.matmul_zero_apply none _ _ (ix2 r i)).trans ?_
  refine Finset.sum_congr rfl fun t _ => ?_
  rw [transpose_ix2_apply]
  simp only [shapeCast_self]
  rfl

/-- The product of the differenced sample rows with the differenced weights, one entry. -/
theorem pay15_apply (v3 v5 : Vec Ideal S512x512 .bf16) (v9 : Vec Ideal S2048x512 .bf16) (r : Fin 512) (i : Fin 2048) :
    k0_pay15 (F := Ideal) v3 v5 v9 (ix2 r i)
      = dProd (fun t => v3 (ix2 r t)) (fun t => v5 (ix2 r t)) (fun t => v9 (ix2 i t)) := by
  unfold k0_pay15 k0_pay12 k0_pay13 dProd
  try dsimp only
  rw [dotA]
  refine (MatmulPlain.matmul_zero_apply none _ _ (ix2 r i)).trans ?_
  refine Finset.sum_congr rfl fun t _ => ?_
  rw [transpose_ix2_apply]
  simp only [shapeCast_self]
  rfl

/-- A reduction step on the first accumulator, one entry. -/
theorem pay16_apply (v3 v5 : Vec Ideal S512x512 .bf16) (v7 v9 : Vec Ideal S2048x512 .bf16) (v17 : Vec Ideal S512x2048 .f32)
    (r : Fin 512) (i : Fin 2048) :
    k0_pay16 (F := Ideal) v3 v5 v7 v9 v17 (ix2 r i)
      = v17 (ix2 r i) + step1 (fun t => v3 (ix2 r t)) (fun t => v5 (ix2 r t)) (fun t => v7 (ix2 i t)) (fun t => v9 (ix2 i t)) := by
  unfold step1
  rw [← pay14_apply, ← pay15_apply]
  unfold k0_pay16
  try dsimp only
  simp only [shapeCast_self]
  rfl

/-- A reduction step on the second accumulator, one entry. -/
theorem pay17_apply (v3 v5 : Vec Ideal S512x512 .bf16) (v7 v9 : Vec Ideal S2048x512 .bf16) (v25 : Vec Ideal S512x2048 .f32)
    (r : Fin 512) (i : Fin 2048) :
    k0_pay17 (F := Ideal) v3 v5 v7 v9 v25 (ix2 r i)
      = v25 (ix2 r i) + step2 (fun t => v3 (ix2 r t)) (fun t => v5 (ix2 r t)) (fun t => v7 (ix2 i t)) (fun t => v9 (ix2 i t)) := by
  unfold step2
  rw [← pay14_apply, ← pay15_apply]
  unfold k0_pay17
  try dsimp only
  simp only [shapeCast_self]
  rfl

/-- The cell-line product, one entry. -/
theorem pay1_apply (v39 : Vec Ideal S512x16 .bf16) (v41 : Vec Ideal S2048x16 .bf16) (r : Fin 512) (i : Fin 2048) :
    k0_pay1 (F := Ideal) v39 v41 (ix2 r i) = cellTerm (fun c => v39 (ix2 r c)) (fun c => v41 (ix2 i c)) := by
  unfold k0_pay1 cellTerm
  try dsimp only
  rw [dotB]
  refine (MatmulPlain.matmul_zero_apply none _ _ (ix2 r i)).trans ?_
  refine Finset.sum_congr rfl fun t _ => ?_
  rw [transpose_ix2_apply]
  simp only [shapeCast_self]

theorem pay2_apply (v39 : Vec Ideal S512x16 .bf16) (v41 : Vec Ideal S2048x16 .bf16) (v45 : Vec Ideal S512x2048 .f32) (r : Fin 512) (i : Fin 2048) :
    k0_pay2 (F := Ideal) v39 v41 v45 (ix2 r i) = v45 (ix2 r i) + cellTerm (fun c => v39 (ix2 r c)) (fun c => v41 (ix2 i c)) := by
  rw [← pay1_apply]
  unfold k0_pay2
  try dsimp only
  simp only [shapeCast_self]
  rfl

theorem pay3_apply (v39 : Vec Ideal S512x16 .bf16) (v41 : Vec Ideal S2048x16 .bf16) (v50 : Vec Ideal S512x2048 .f32) (r : Fin 512) (i : Fin 2048) :
    k0_pay3 (F := Ideal) v39 v41 v50 (ix2 r i) = v50 (ix2 r i) + cellTerm (fun c => v39 (ix2 r c)) (fun c => v41 (ix2 i c)) := by
  rw [← pay1_apply]
  unfold k0_pay3
  try dsimp only
  simp only [shapeCast_self]
  rfl

/-- The reset value of either accumulator is zero everywhere. -/
theorem pay10_apply (j : S512x2048.Idx) : k0_pay10 (F := Ideal) j = 0 := by
  unfold k0_pay10
  try dsimp only
  simp only [shapeCast_self]
  exact Ideal.ofBits_zero_f32

theorem pay11_apply (j : S512x2048.Idx) : k0_pay11 (F := Ideal) j = 0 := by
  unfold k0_pay11
  try dsimp only
  simp only [shapeCast_self]
  exact Ideal.ofBits_zero_f32

/-- The kernel's zero constant. -/
theorem szero : Scalar.ofBits (F := Ideal) .f32 0x00000000#32 = (0 : EReal) := Ideal.ofBits_zero_f32

/-- A bias vector laid out as one row and broadcast over the 512 samples of a block reads, at (r, i), the bias at i. -/
theorem bias_apply {N : ℕ} (v : (⟨1, ![N]⟩ : Shape).Idx → EReal) (h1 : (⟨1, ![N]⟩ : Shape).ShapeCasts ⟨2, ![1, N]⟩)
    (h2 : (⟨2, ![1, N]⟩ : Shape).Broadcasts ⟨2, ![512, N]⟩) (r : Fin 512) (i : Fin N) :
    broadcastTo ⟨2, ![512, N]⟩ (shapeCast ⟨2, ![1, N]⟩ v h1) h2 (ix2 r i) = v (ix1 i) :=
  (broadcastTo_1b_ab_apply _ h2 r i).trans (shapeCast_a_1a_apply v h1 0 i)

/-- The second layer on a block: entry (r, j). The first layer's activation is the bias added and negative values cut to
    zero; the format change after it is the identity. -/
theorem pay7_apply (v39 : Vec Ideal S2048 .f32) (v47 : Vec Ideal S512x2048 .f32) (v54 : Vec Ideal S1024x2048 .bf16)
    (v56 : Vec Ideal S1024 .f32) (r : Fin 512) (j : Fin 1024) :
    k0_pay7 (F := Ideal) v39 v47 v54 v56 (ix2 r j)
      = max ((∑ i : Fin 2048, max (v47 (ix2 r i) + v39 (ix1 i)) 0 * v54 (ix2 j i)) + v56 (ix1 j)) 0 := by
  unfold k0_pay7 k0_pay6
  simp only [shapeCast_self]
  try dsimp only
  rw [dotC]
  show max (matmul (DotDims.plain 512 2048 1024) none _ _ (constant (F := Ideal) S512x1024 .f32 0x00000000#32) (ix2 r j)
      + broadcastTo S512x1024 (shapeCast S1x1024 v56 shapeCasts_S1024_S1x1024) broadcasts_S1x1024_S512x1024 (ix2 r j))
      (Scalar.ofBits (F := Ideal) .f32 0x00000000#32) = _
  rw [szero, bias_apply, MatmulPlain.matmul_zero_apply]
  refine congrArg (fun s => max (s + v56 (ix1 j)) 0) (Finset.sum_congr rfl fun i _ => ?_)
  rw [transpose_ix2_apply]
  refine congrArg (· * v54 (ix2 j i)) ?_
  show max (v47 (ix2 r i) + broadcastTo S512x2048 (shapeCast S1x2048 v39 shapeCasts_S2048_S1x2048) broadcasts_S1x2048_S512x2048 (ix2 r i))
      (0 : EReal) = _
  rw [bias_apply]

/-- The last layer on a block of second-layer activations: entry r. -/
theorem pay5_apply (v72 : FVec Ideal S512x1024 .bf16) (v74 : FVec Ideal S1x1024 .bf16) (v75 : Vec Ideal S1 .f32) (r : Fin 512) :
    k0_pay5 (F := Ideal) v72 v74 v75 (ix1 r) = (∑ j : Fin 1024, v72 (ix2 r j) * v74 (ix2 0 j)) + v75 (ix1 0) := by
  unfold k0_pay5
  try dsimp only
  rw [dotD]
  refine (shapeCast_apply _ _ (ix1 r) (ix2 r (0 : Fin 1)) (by
    rw [Shape.rowMajor_val_two, Shape.rowMajor_val_one]; show r.val * 1 + 0 = r.val; omega)).trans ?_
  show matmul (DotDims.plain 512 1024 1) none _ _ (constant (F := Ideal) S512x1 .f32 0x00000000#32) (ix2 r 0)
      + broadcastTo S512x1 (shapeCast S1x1 v75 shapeCasts_S1_S1x1) broadcasts_S1x1_S512x1 (ix2 r 0) = _
  rw [bias_apply, MatmulPlain.matmul_zero_apply]
  refine congrArg (· + v75 (ix1 0)) (Finset.sum_congr rfl fun j _ => ?_)
  rw [transpose_ix2_apply]

/-- Both later layers from the first accumulator's block: entry (r, 0) is the later layers of row r. -/
theorem pay9_apply (v39 : Vec Ideal S2048 .f32) (v40 : Vec Ideal S512x2048 .f32) (v54 : Vec Ideal S1024x2048 .bf16)
    (v56 : Vec Ideal S1024 .f32) (v73 : Vec Ideal S1x1024 .bf16) (v75 : Vec Ideal S1 .f32) (r : Fin 512) :
    k0_pay9 (F := Ideal) v39 v40 v54 v56 v73 v75 (ix2 r (0 : Fin 1))
      = tail (fun i => v40 (ix2 r i)) (fun i => v39 (ix1 i)) (fun j i => v54 (ix2 j i)) (fun j => v56 (ix1 j))
          (fun j => v73 (ix2 0 j)) (v75 (ix1 0)) := by
  unfold k0_pay9 k0_pay6 k0_pay8 tail
  simp only [shapeCast_self]
  try dsimp only
  rw [dotC, dotD]
  show matmul (DotDims.plain 512 1024 1) none _ _ (constant (F := Ideal) S512x1 .f32 0x00000000#32) (ix2 r 0)
      + broadcastTo S512x1 (shapeCast S1x1 v75 shapeCasts_S1_S1x1) broadcasts_S1x1_S512x1 (ix2 r 0) = _
  rw [bias_apply, MatmulPlain.matmul_zero_apply]
  refine congrArg (· + v75 (ix1 0)) (Finset.sum_congr rfl fun j _ => ?_)
  rw [transpose_ix2_apply]
  refine congrArg (· * v73 (ix2 0 j)) ?_
  show max (matmul (DotDims.plain 512 2048 1024) none _ _ (constant (F := Ideal) S512x1024 .f32 0x00000000#32) (ix2 r j)
      + broadcastTo S512x1024 (shapeCast S1x1024 v56 shapeCasts_S1024_S1x1024) broadcasts_S1x1024_S512x1024 (ix2 r j))
      (Scalar.ofBits (F := Ideal) .f32 0x00000000#32) = _
  rw [szero, bias_apply, MatmulPlain.matmul_zero_apply]
  refine congrArg (fun s => max (s + v56 (ix1 j)) 0) (Finset.sum_congr rfl fun i _ => ?_)
  rw [transpose_ix2_apply]
  refine congrArg (· * v54 (ix2 j i)) ?_
  show max (v40 (ix2 r i) + broadcastTo S512x2048 (shapeCast S1x2048 v39 shapeCasts_S2048_S1x2048) broadcasts_S1x2048_S512x2048 (ix2 r i))
      (0 : EReal) = _
  rw [bias_apply]

/-- The column of results laid out as a vector. -/
theorem pay4_apply (v80 : FVec Ideal S512x1 .f32) (r : Fin 512) : k0_pay4 (F := Ideal) v80 (ix1 r) = v80 (ix2 r (0 : Fin 1)) := by
  unfold k0_pay4
  try dsimp only
  exact shapeCast_apply _ _ (ix1 r) (ix2 r (0 : Fin 1)) (by
    rw [Shape.rowMajor_val_two, Shape.rowMajor_val_one]; show r.val * 1 + 0 = r.val; omega)

/-- The second output: the later layers of row r of the second accumulator's block. -/
theorem out2_apply (v39 : Vec Ideal S2048 .f32) (v47 : Vec Ideal S512x2048 .f32) (v54 : Vec Ideal S1024x2048 .bf16)
    (v56 : Vec Ideal S1024 .f32) (v73 : Vec Ideal S1x1024 .bf16) (v75 : Vec Ideal S1 .f32) (r : Fin 512) :
    k0_pay5 (F := Ideal) (k0_pay7 v39 v47 v54 v56) (k0_pay8 v73) v75 (ix1 r)
      = tail (fun i => v47 (ix2 r i)) (fun i => v39 (ix1 i)) (fun j i => v54 (ix2 j i)) (fun j => v56 (ix1 j))
          (fun j => v73 (ix2 0 j)) (v75 (ix1 0)) := by
  rw [pay5_apply]
  unfold tail k0_pay8
  simp only [shapeCast_self]
  refine congrArg (· + v75 (ix1 0)) (Finset.sum_congr rfl fun j _ => ?_)
  rw [pay7_apply]

end Cert.KernelIdeal.Pay

end
-- ==== Proof.KAcc.lean ====
/-
  What one grid point does to the two accumulators and to the two output blocks, entry by entry. The grid runs over
  8 blocks of 512 samples, and for each over 38 blocks of 512 columns; point t = 38·q + s is step s of sample block q.
  Step 0 resets both accumulators, adds its own term and then the cell-line term; every later step adds its own term;
  the last step (s = 37) then applies the two later layers to the finished accumulators and stores the two results.
-/
import proofs.«148840_j45294725103836_2_alg».proof.Proof.Gen.KernelIdeal.Value
import proofs.«148840_j45294725103836_2_alg».proof.Proof.KPieces
import proofs.«148840_j45294725103836_2_alg».proof.Proof.KPay
import proofs.«148840_j45294725103836_2_alg».proof.Proof.KSpec

set_option maxRecDepth 16384

noncomputable section

open Idealize.ShloMosaic Idealize.ShloMosaic.TcCoe Idealize.SL.Sem Idealize.ShloMosaic.ValueIdx

namespace Cert.KernelIdeal.Acc

open Cert.KernelIdeal Cert.KernelIdeal.Gen Cert.KSpec

variable (m : (ℓ : Loc nD τ sig) → Buf (Elt Ideal) ℓ)

/-- The first point of a run: accumulator 1 ends at the step's term plus the cell-line term. -/
theorem sc0_A (c : Dev nD) (t : Fin cfg0.N) (h0 : t.val % 38 = 0) (h1 : t.val % 38 = 0) (h2 : ¬t.val % 38 = 37) (r : Fin 512) (i : Fin 2048) :
    (outsAt0 m c t.val t.isLt).2.2.1 (ix2 r i)
      = (0 + step1 (fun t' => (iblk m c 0 t : Vec Ideal S512x512 .bf16) (ix2 r t')) (fun t' => (iblk m c 1 t : Vec Ideal S512x512 .bf16) (ix2 r t')) (fun t' => (iblk m c 3 t : Vec Ideal S2048x512 .bf16) (ix2 i t')) (fun t' => (iblk m c 4 t : Vec Ideal S2048x512 .bf16) (ix2 i t'))) + cellTerm (fun k => (iblk m c 2 t : Vec Ideal S512x16 .bf16) (ix2 r k)) (fun k => (iblk m c 5 t : Vec Ideal S2048x16 .bf16) (ix2 i k)) := by
  rw [outsAt0_A m c t h0 h1 h2]
  dsimp only
  rw [Pieces.sout0_A_0_eq]
  rw [Pay.pay2_apply, Pay.pay16_apply, Pay.pay10_apply]

/-- A middle point of a run: accumulator 1 gains the step's term. -/
theorem sc0_B (c : Dev nD) (t : Fin cfg0.N) (h0 : ¬t.val % 38 = 0) (h1 : ¬t.val % 38 = 0) (h2 : ¬t.val % 38 = 37) (r : Fin 512) (i : Fin 2048) :
    (outsAt0 m c t.val t.isLt).2.2.1 (ix2 r i)
      = (outsAt0 m c (t.val - 1) (Nat.lt_of_le_of_lt (Nat.sub_le _ _) t.isLt)).2.2.1 (ix2 r i) + step1 (fun t' => (iblk m c 0 t : Vec Ideal S512x512 .bf16) (ix2 r t')) (fun t' => (iblk m c 1 t : Vec Ideal S512x512 .bf16) (ix2 r t')) (fun t' => (iblk m c 3 t : Vec Ideal S2048x512 .bf16) (ix2 i t')) (fun t' => (iblk m c 4 t : Vec Ideal S2048x512 .bf16) (ix2 i t')) := by
  rw [outsAt0_B m c t h0 h1 h2]
  dsimp only
  rw [Pieces.sout0_B_0_eq]
  exact Pay.pay16_apply (iblk m c 0 t) (iblk m c 1 t) (iblk m c 3 t) (iblk m c 4 t) (outsAt0 m c (t.val - 1) (Nat.lt_of_le_of_lt (Nat.sub_le _ _) t.isLt)).2.2.1 r i

/-- The last point of a run: accumulator 1 gains the step's term. -/
theorem sc0_C (c : Dev nD) (t : Fin cfg0.N) (h0 : ¬t.val % 38 = 0) (h1 : ¬t.val % 38 = 0) (h2 : t.val % 38 = 37) (r : Fin 512) (i : Fin 2048) :
    (outsAt0 m c t.val t.isLt).2.2.1 (ix2 r i)
      = (outsAt0 m c (t.val - 1) (Nat.lt_of_le_of_lt (Nat.sub_le _ _) t.isLt)).2.2.1 (ix2 r i) + step1 (fun t' => (iblk m c 0 t : Vec Ideal S512x512 .bf16) (ix2 r t')) (fun t' => (iblk m c 1 t : Vec Ideal S512x512 .bf16) (ix2 r t')) (fun t' => (iblk m c 3 t : Vec Ideal S2048x512 .bf16) (ix2 i t')) (fun t' => (iblk m c 4 t : Vec Ideal S2048x512 .bf16) (ix2 i t')) := by
  rw [outsAt0_C m c t h0 h1 h2]
  dsimp only
  rw [Pieces.sout0_C_0_eq]
  exact Pay.pay16_apply (iblk m c 0 t) (iblk m c 1 t) (iblk m c 3 t) (iblk m c 4 t) (outsAt0 m c (t.val - 1) (Nat.lt_of_le_of_lt (Nat.sub_le _ _) t.isLt)).2.2.1 r i

/-- The first point of a run: accumulator 2 ends at the step's term plus the cell-line term. -/
theorem sc1_A (c : Dev nD) (t : Fin cfg0.N) (h0 : t.val % 38 = 0) (h1 : t.val % 38 = 0) (h2 : ¬t.val % 38 = 37) (r : Fin 512) (i : Fin 2048) :
    (outsAt0 m c t.val t.isLt).2.2.2 (ix2 r i)
      = (0 + step2 (fun t' => (iblk m c 0 t : Vec Ideal S512x512 .bf16) (ix2 r t')) (fun t' => (iblk m c 1 t : Vec Ideal S512x512 .bf16) (ix2 r t')) (fun t' => (iblk m c 3 t : Vec Ideal S2048x512 .bf16) (ix2 i t')) (fun t' => (iblk m c 4 t : Vec Ideal S2048x512 .bf16) (ix2 i t'))) + cellTerm (fun k => (iblk m c 2 t : Vec Ideal S512x16 .bf16) (ix2 r k)) (fun k => (iblk m c 5 t : Vec Ideal S2048x16 .bf16) (ix2 i k)) := by
  rw [outsAt0_A m c t h0 h1 h2]
  dsimp only
  rw [Pieces.sout0_A_1_eq]
  rw [Pay.pay3_apply, Pay.pay17_apply, Pay.pay11_apply]

/-- A middle point of a run: accumulator 2 gains the step's term. -/
theorem sc1_B (c : Dev nD) (t : Fin cfg0.N) (h0 : ¬t.val % 38 = 0) (h1 : ¬t.val % 38 = 0) (h2 : ¬t.val % 38 = 37) (r : Fin 512) (i : Fin 2048) :
    (outsAt0 m c t.val t.isLt).2.2.2 (ix2 r i)
      = (outsAt0 m c (t.val - 1) (Nat.lt_of_le_of_lt (Nat.sub_le _ _) t.isLt)).2.2.2 (ix2 r i) + step2 (fun t' => (iblk m c 0 t : Vec Ideal S512x512 .bf16) (ix2 r t')) (fun t' => (iblk m c 1 t : Vec Ideal S512x512 .bf16) (ix2 r t')) (fun t' => (iblk m c 3 t : Vec Ideal S2048x512 .bf16) (ix2 i t')) (fun t' => (iblk m c 4 t : Vec Ideal S2048x512 .bf16) (ix2 i t')) := by
  rw [outsAt0_B m c t h0 h1 h2]
  dsimp only
  rw [Pieces.sout0_B_1_eq]
  exact Pay.pay17_apply (iblk m c 0 t) (iblk m c 1 t) (iblk m c 3 t) (iblk m c 4 t) (outsAt0 m c (t.val - 1) (Nat.lt_of_le_of_lt (Nat.sub_le _ _) t.isLt)).2.2.2 r i

/-- The last point of a run: accumulator 2 gains the step's term. -/
theorem sc1_C (c : Dev nD) (t : Fin cfg0.N) (h0 : ¬t.val % 38 = 0) (h1 : ¬t.val % 38 = 0) (h2 : t.val % 38 = 37) (r : Fin 512) (i : Fin 2048) :
    (outsAt0 m c t.val t.isLt).2.2.2 (ix2 r i)
      = (outsAt0 m c (t.val - 1) (Nat.lt_of_le_of_lt (Nat.sub_le _ _) t.isLt)).2.2.2 (ix2 r i) + step2 (fun t' => (iblk m c 0 t : Vec Ideal S512x512 .bf16) (ix2 r t')) (fun t' => (iblk m c 1 t : Vec Ideal S512x512 .bf16) (ix2 r t')) (fun t' => (iblk m c 3 t : Vec Ideal S2048x512 .bf16) (ix2 i t')) (fun t' => (iblk m c 4 t : Vec Ideal S2048x512 .bf16) (ix2 i t')) := by
  rw [outsAt0_C m c t h0 h1 h2]
  dsimp only
  rw [Pieces.sout0_C_1_eq]
  exact Pay.pay17_apply (iblk m c 0 t) (iblk m c 1 t) (iblk m c 3 t) (iblk m c 4 t) (outsAt0 m c (t.val - 1) (Nat.lt_of_le_of_lt (Nat.sub_le _ _) t.isLt)).2.2.2 r i

/-- The last point of a run: output 1's block is the two later layers of the finished accumulator 1. -/
theorem out0_C (c : Dev nD) (t : Fin cfg0.N) (h0 : ¬t.val % 38 = 0) (h1 : ¬t.val % 38 = 0) (h2 : t.val % 38 = 37) (r : Fin 512) :
    (outsAt0 m c t.val t.isLt).1 (ix1 r)
      = tail (fun i => (outsAt0 m c (t.val - 1) (Nat.lt_of_le_of_lt (Nat.sub_le _ _) t.isLt)).2.2.1 (ix2 r i) + step1 (fun t' => (iblk m c 0 t : Vec Ideal S512x512 .bf16) (ix2 r t')) (fun t' => (iblk m c 1 t : Vec Ideal S512x512 .bf16) (ix2 r t')) (fun t' => (iblk m c 3 t : Vec Ideal S2048x512 .bf16) (ix2 i t')) (fun t' => (iblk m c 4 t : Vec Ideal S2048x512 .bf16) (ix2 i t')))
          (fun i => (iblk m c 6 t : Vec Ideal S2048 .f32) (ix1 i)) (fun j i => (iblk m c 7 t : Vec Ideal S1024x2048 .bf16) (ix2 j i))
          (fun j => (iblk m c 8 t : Vec Ideal S1024 .f32) (ix1 j)) (fun j => (iblk m c 9 t : Vec Ideal S1x1024 .bf16) (ix2 0 j))
          ((iblk m c 10 t : Vec Ideal S1 .f32) (ix1 0)) := by
  refine (congrFun (congrArg (fun p => p.1) (outsAt0_C m c t h0 h1 h2)) (ix1 r)).trans ?_
  refine (congrFun (Pieces.out0_C_11_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.1 (outsAt0 m c (t.val - 1) (Nat.lt_of_le_of_lt (Nat.sub_le _ _) t.isLt)).2.2.2) (ix1 r)).trans ?_
  refine (Pay.pay4_apply (k0_pay9 (iblk m c 6 t) (k0_pay16 (iblk m c 0 t) (iblk m c 1 t) (iblk m c 3 t) (iblk m c 4 t) (outsAt0 m c (t.val - 1) (Nat.lt_of_le_of_lt (Nat.sub_le _ _) t.isLt)).2.2.1) (iblk m c 7 t) (iblk m c 8 t) (iblk m c 9 t) (iblk m c 10 t)) r).trans ?_
  refine (Pay.pay9_apply (iblk m c 6 t) (k0_pay16 (iblk m c 0 t) (iblk m c 1 t) (iblk m c 3 t) (iblk m c 4 t) (outsAt0 m c (t.val - 1) (Nat.lt_of_le_of_lt (Nat.sub_le _ _) t.isLt)).2.2.1) (iblk m c 7 t) (iblk m c 8 t) (iblk m c 9 t) (iblk m c 10 t) r).trans ?_
  refine congrArg (fun a => tail a (fun i => (iblk m c 6 t : Vec Ideal S2048 .f32) (ix1 i)) (fun j i => (iblk m c 7 t : Vec Ideal S1024x2048 .bf16) (ix2 j i))
          (fun j => (iblk m c 8 t : Vec Ideal S1024 .f32) (ix1 j)) (fun j => (iblk m c 9 t : Vec Ideal S1x1024 .bf16) (ix2 0 j))
          ((iblk m c 10 t : Vec Ideal S1 .f32) (ix1 0))) (funext fun i => ?_)
  exact Pay.pay16_apply (iblk m c 0 t) (iblk m c 1 t) (iblk m c 3 t) (iblk m c 4 t) (outsAt0 m c (t.val - 1) (Nat.lt_of_le_of_lt (Nat.sub_le _ _) t.isLt)).2.2.1 r i

/-- The last point of a run: output 2's block is the two later layers of the finished accumulator 2. -/
theorem out1_C (c : Dev nD) (t : Fin cfg0.N) (h0 : ¬t.val % 38 = 0) (h1 : ¬t.val % 38 = 0) (h2 : t.val % 38 = 37) (r : Fin 512) :
    (outsAt0 m c t.val t.isLt).2.1 (ix1 r)
      = tail (fun i => (outsAt0 m c (t.val - 1) (Nat.lt_of_le_of_lt (Nat.sub_le _ _) t.isLt)).2.2.2 (ix2 r i) + step2 (fun t' => (iblk m c 0 t : Vec Ideal S512x512 .bf16) (ix2 r t')) (fun t' => (iblk m c 1 t : Vec Ideal S512x512 .bf16) (ix2 r t')) (fun t' => (iblk m c 3 t : Vec Ideal S2048x512 .bf16) (ix2 i t')) (fun t' => (iblk m c 4 t : Vec Ideal S2048x512 .bf16) (ix2 i t')))
          (fun i => (iblk m c 6 t : Vec Ideal S2048 .f32) (ix1 i)) (fun j i => (iblk m c 7 t : Vec Ideal S1024x2048 .bf16) (ix2 j i))
          (fun j => (iblk m c 8 t : Vec Ideal S1024 .f32) (ix1 j)) (fun j => (iblk m c 9 t : Vec Ideal S1x1024 .bf16) (ix2 0 j))
          ((iblk m c 10 t : Vec Ideal S1 .f32) (ix1 0)) := by
  refine (congrFun (congrArg (fun p => p.2.1) (outsAt0_C m c t h0 h1 h2)) (ix1 r)).trans ?_
  refine (congrFun (Pieces.out0_C_12_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.1 (outsAt0 m c (t.val - 1) (Nat.lt_of_le_of_lt (Nat.sub_le _ _) t.isLt)).2.2.2) (ix1 r)).trans ?_
  refine (Pay.out2_apply (iblk m c 6 t) (k0_pay17 (iblk m c 0 t) (iblk m c 1 t) (iblk m c 3 t) (iblk m c 4 t) (outsAt0 m c (t.val - 1) (Nat.lt_of_le_of_lt (Nat.sub_le _ _) t.isLt)).2.2.2) (iblk m c 7 t) (iblk m c 8 t) (iblk m c 9 t) (iblk m c 10 t) r).trans ?_
  refine congrArg (fun a => tail a (fun i => (iblk m c 6 t : Vec Ideal S2048 .f32) (ix1 i)) (fun j i => (iblk m c 7 t : Vec Ideal S1024x2048 .bf16) (ix2 j i))
          (fun j => (iblk m c 8 t : Vec Ideal S1024 .f32) (ix1 j)) (fun j => (iblk m c 9 t : Vec Ideal S1x1024 .bf16) (ix2 0 j))
          ((iblk m c 10 t : Vec Ideal S1 .f32) (ix1 0))) (funext fun i => ?_)
  exact Pay.pay17_apply (iblk m c 0 t) (iblk m c 1 t) (iblk m c 3 t) (iblk m c 4 t) (outsAt0 m c (t.val - 1) (Nat.lt_of_le_of_lt (Nat.sub_le _ _) t.isLt)).2.2.2 r i

end Cert.KernelIdeal.Acc

end
-- ==== Proof.KBlocks.lean ====
/-
  Each input block of the fused kernel, at a grid point, is a rectangle of the array its window stages: the sample rows
  512·(t / 38) … of the two protein tables and of the one-hot table, the columns 512·(t mod 38) … of the tables and of the
  summed and differenced weights, and the whole of every other operand.
-/
import proofs.«148840_j45294725103836_2_alg».proof.Proof.Gen.KernelIdeal.Frame
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx

namespace Cert.KernelIdeal.Blocks

open Cert.KernelIdeal Cert.KernelIdeal.Gen

variable (m : (ℓ : Loc nD τ sig) → Buf (Elt Ideal) ℓ)

/-- Where window 0's block sits at each grid point. -/
theorem index0 : ∀ t : Fin grid0.N, win0_0.index t 0 = t.val / 38 ∧ win0_0.index t 1 = t.val % 38 := by decide +kernel

/-- An entry of window 0's block at point t is the entry of its array at the block's offset plus the coordinate. -/
theorem blk0_apply (c : Dev nD) (t : Fin cfg0.N) (x : S512x512.Idx) (k : S4096x19456.Idx)
    (hk0 : (k 0).val = (t.val / 38) * 512 + (x 0).val) (hk1 : (k 1).val = (t.val % 38) * 512 + (x 1).val) :
    (iblk m c 0 t : Vec Ideal S512x512 .bf16) x = (V m c main_v24 : S4096x19456.Idx → Elt Ideal .bf16) k := by
  have hi := index0 t
  unfold iblk
  rw [View.read_apply]
  show V m c main_v24 _ = V m c main_v24 _
  congr 1
  funext a
  apply Fin.ext
  match a with
  | ⟨0, _⟩ => show win0_0.index t 0 * 512 + 1 * (x 0).val = (k 0).val; rw [hi.1, hk0]; omega
  | ⟨1, _⟩ => show win0_0.index t 1 * 512 + 1 * (x 1).val = (k 1).val; rw [hi.2, hk1]; omega

/-- Where window 1's block sits at each grid point. -/
theorem index1 : ∀ t : Fin grid0.N, win0_1.index t 0 = t.val / 38 ∧ win0_1.index t 1 = t.val % 38 := by decide +kernel

/-- An entry of window 1's block at point t is the entry of its array at the block's offset plus the coordinate. -/
theorem blk1_apply (c : Dev nD) (t : Fin cfg0.N) (x : S512x512.Idx) (k : S4096x19456.Idx)
    (hk0 : (k 0).val = (t.val / 38) * 512 + (x 0).val) (hk1 : (k 1).val = (t.val % 38) * 512 + (x 1).val) :
    (iblk m c 1 t : Vec Ideal S512x512 .bf16) x = (V m c main_v33 : S4096x19456.Idx → Elt Ideal .bf16) k := by
  have hi := index1 t
  unfold iblk
  rw [View.read_apply]
  show V m c main_v33 _ = V m c main_v33 _
  congr 1
  funext a
  apply Fin.ext
  match a with
  | ⟨0, _⟩ => show win0_1.index t 0 * 512 + 1 * (x 0).val = (k 0).val; rw [hi.1, hk0]; omega
  | ⟨1, _⟩ => show win0_1.index t 1 * 512 + 1 * (x 1).val = (k 1).val; rw [hi.2, hk1]; omega

/-- Where window 2's block sits at each grid point. -/
theorem index2 : ∀ t : Fin grid0.N, win0_2.index t 0 = t.val / 38 ∧ win0_2.index t 1 = 0 := by decide +kernel

/-- An entry of window 2's block at point t is the entry of its array at the block's offset plus the coordinate. -/
theorem blk2_apply (c : Dev nD) (t : Fin cfg0.N) (x : S512x16.Idx) (k : S4096x16.Idx)
    (hk0 : (k 0).val = (t.val / 38) * 512 + (x 0).val) (hk1 : (k 1).val = (0) * 16 + (x 1).val) :
    (iblk m c 2 t : Vec Ideal S512x16 .bf16) x = (V m c main_v34 : S4096x16.Idx → Elt Ideal .bf16) k := by
  have hi := index2 t
  unfold iblk
  rw [View.read_apply]
  show V m c main_v34 _ = V m c main_v34 _
  congr 1
  funext a
  apply Fin.ext
  match a with
  | ⟨0, _⟩ => show win0_2.index t 0 * 512 + 1 * (x 0).val = (k 0).val; rw [hi.1, hk0]; omega
  | ⟨1, _⟩ => show win0_2.index t 1 * 16 + 1 * (x 1).val = (k 1).val; rw [hi.2, hk1]; omega

/-- Where window 3's block sits at each grid point. -/
theorem index3 : ∀ t : Fin grid0.N, win0_3.index t 0 = 0 ∧ win0_3.index t 1 = t.val % 38 := by decide +kernel

/-- An entry of window 3's block at point t is the entry of its array at the block's offset plus the coordinate. -/
theorem blk3_apply (c : Dev nD) (t : Fin cfg0.N) (x : S2048x512.Idx) (k : S2048x19456.Idx)
    (hk0 : (k 0).val = (0) * 2048 + (x 0).val) (hk1 : (k 1).val = (t.val % 38) * 512 + (x 1).val) :
    (iblk m c 3 t : Vec Ideal S2048x512 .bf16) x = (V m c main_v44 : S2048x19456.Idx → Elt Ideal .bf16) k := by
  have hi := index3 t
  unfold iblk
  rw [View.read_apply]
  show V m c main_v44 _ = V m c main_v44 _
  congr 1
  funext a
  apply Fin.ext
  match a with
  | ⟨0, _⟩ => show win0_3.index t 0 * 2048 + 1 * (x 0).val = (k 0).val; rw [hi.1, hk0]; omega
  | ⟨1, _⟩ => show win0_3.index t 1 * 512 + 1 * (x 1).val = (k 1).val; rw [hi.2, hk1]; omega

/-- Where window 4's block sits at each grid point. -/
theorem index4 : ∀ t : Fin grid0.N, win0_4.index t 0 = 0 ∧ win0_4.index t 1 = t.val % 38 := by decide +kernel

/-- An entry of window 4's block at point t is the entry of its array at the block's offset plus the coordinate. -/
theorem blk4_apply (c : Dev nD) (t : Fin cfg0.N) (x : S2048x512.Idx) (k : S2048x19456.Idx)
    (hk0 : (k 0).val = (0) * 2048 + (x 0).val) (hk1 : (k 1).val = (t.val % 38) * 512 + (x 1).val) :
    (iblk m c 4 t : Vec Ideal S2048x512 .bf16) x = (V m c main_v46 : S2048x19456.Idx → Elt Ideal .bf16) k := by
  have hi := index4 t
  unfold iblk
  rw [View.read_apply]
  show V m c main_v46 _ = V m c main_v46 _
  congr 1
  funext a
  apply Fin.ext
  match a with
  | ⟨0, _⟩ => show win0_4.index t 0 * 2048 + 1 * (x 0).val = (k 0).val; rw [hi.1, hk0]; omega
  | ⟨1, _⟩ => show win0_4.index t 1 * 512 + 1 * (x 1).val = (k 1).val; rw [hi.2, hk1]; omega

/-- Where window 5's block sits at each grid point. -/
theorem index5 : ∀ t : Fin grid0.N, win0_5.index t 0 = 0 ∧ win0_5.index t 1 = 0 := by decide +kernel

/-- An entry of window 5's block at point t is the entry of its array at the block's offset plus the coordinate. -/
theorem blk5_apply (c : Dev nD) (t : Fin cfg0.N) (x : S2048x16.Idx) (k : S2048x16.Idx)
    (hk0 : (k 0).val = (0) * 2048 + (x 0).val) (hk1 : (k 1).val = (0) * 16 + (x 1).val) :
    (iblk m c 5 t : Vec Ideal S2048x16 .bf16) x = (V m c main_v42 : S2048x16.Idx → Elt Ideal .bf16) k := by
  have hi := index5 t
  unfold iblk
  rw [View.read_apply]
  show V m c main_v42 _ = V m c main_v42 _
  congr 1
  funext a
  apply Fin.ext
  match a with
  | ⟨0, _⟩ => show win0_5.index t 0 * 2048 + 1 * (x 0).val = (k 0).val; rw [hi.1, hk0]; omega
  | ⟨1, _⟩ => show win0_5.index t 1 * 16 + 1 * (x 1).val = (k 1).val; rw [hi.2, hk1]; omega

/-- Where window 6's block sits at each grid point. -/
theorem index6 : ∀ t : Fin grid0.N, win0_6.index t 0 = 0 := by decide +kernel

/-- An entry of window 6's block at point t is the entry of its array at the block's offset plus the coordinate. -/
theorem blk6_apply (c : Dev nD) (t : Fin cfg0.N) (x : S2048.Idx) (k : S2048.Idx)
    (hk0 : (k 0).val = (0) * 2048 + (x 0).val) :
    (iblk m c 6 t : Vec Ideal S2048 .f32) x = (V m c main_arg5 : S2048.Idx → Elt Ideal .f32) k := by
  have hi := index6 t
  unfold iblk
  rw [View.read_apply]
  show V m c main_arg5 _ = V m c main_arg5 _
  congr 1
  funext a
  apply Fin.ext
  match a with
  | ⟨0, _⟩ => show win0_6.index t 0 * 2048 + 1 * (x 0).val = (k 0).val; rw [hi, hk0]; omega

/-- Where window 7's block sits at each grid point. -/
theorem index7 : ∀ t : Fin grid0.N, win0_7.index t 0 = 0 ∧ win0_7.index t 1 = 0 := by decide +kernel

/-- An entry of window 7's block at point t is the entry of its array at the block's offset plus the coordinate. -/
theorem blk7_apply (c : Dev nD) (t : Fin cfg0.N) (x : S1024x2048.Idx) (k : S1024x2048.Idx)
    (hk0 : (k 0).val = (0) * 1024 + (x 0).val) (hk1 : (k 1).val = (0) * 2048 + (x 1).val) :
    (iblk m c 7 t : Vec Ideal S1024x2048 .bf16) x = (V m c main_v47 : S1024x2048.Idx → Elt Ideal .bf16) k := by
  have hi := index7 t
  unfold iblk
  rw [View.read_apply]
  show V m c main_v47 _ = V m c main_v47 _
  congr 1
  funext a
  apply Fin.ext
  match a with
  | ⟨0, _⟩ => show win0_7.index t 0 * 1024 + 1 * (x 0).val = (k 0).val; rw [hi.1, hk0]; omega
  | ⟨1, _⟩ => show win0_7.index t 1 * 2048 + 1 * (x 1).val = (k 1).val; rw [hi.2, hk1]; omega

/-- Where window 8's block sits at each grid point. -/
theorem index8 : ∀ t : Fin grid0.N, win0_8.index t 0 = 0 := by decide +kernel

/-- An entry of window 8's block at point t is the entry of its array at the block's offset plus the coordinate. -/
theorem blk8_apply (c : Dev nD) (t : Fin cfg0.N) (x : S1024.Idx) (k : S1024.Idx)
    (hk0 : (k 0).val = (0) * 1024 + (x 0).val) :
    (iblk m c 8 t : Vec Ideal S1024 .f32) x = (V m c main_arg7 : S1024.Idx → Elt Ideal .f32) k := by
  have hi := index8 t
  unfold iblk
  rw [View.read_apply]
  show V m c main_arg7 _ = V m c main_arg7 _
  congr 1
  funext a
  apply Fin.ext
  match a with
  | ⟨0, _⟩ => show win0_8.index t 0 * 1024 + 1 * (x 0).val = (k 0).val; rw [hi, hk0]; omega

/-- Where window 9's block sits at each grid point. -/
theorem index9 : ∀ t : Fin grid0.N, win0_9.index t 0 = 0 ∧ win0_9.index t 1 = 0 := by decide +kernel

/-- An entry of window 9's block at point t is the entry of its array at the block's offset plus the coordinate. -/
theorem blk9_apply (c : Dev nD) (t : Fin cfg0.N) (x : S1x1024.Idx) (k : S1x1024.Idx)
    (hk0 : (k 0).val = (0) * 1 + (x 0).val) (hk1 : (k 1).val = (0) * 1024 + (x 1).val) :
    (iblk m c 9 t : Vec Ideal S1x1024 .bf16) x = (V m c main_v48 : S1x1024.Idx → Elt Ideal .bf16) k := by
  have hi := index9 t
  unfold iblk
  rw [View.read_apply]
  show V m c main_v48 _ = V m c main_v48 _
  congr 1
  funext a
  apply Fin.ext
  match a with
  | ⟨0, _⟩ => show win0_9.index t 0 * 1 + 1 * (x 0).val = (k 0).val; rw [hi.1, hk0]; omega
  | ⟨1, _⟩ => show win0_9.index t 1 * 1024 + 1 * (x 1).val = (k 1).val; rw [hi.2, hk1]; omega

/-- Where window 10's block sits at each grid point. -/
theorem index10 : ∀ t : Fin grid0.N, win0_10.index t 0 = 0 := by decide +kernel

/-- An entry of window 10's block at point t is the entry of its array at the block's offset plus the coordinate. -/
theorem blk10_apply (c : Dev nD) (t : Fin cfg0.N) (x : S1.Idx) (k : S1.Idx)
    (hk0 : (k 0).val = (0) * 1 + (x 0).val) :
    (iblk m c 10 t : Vec Ideal S1 .f32) x = (V m c main_arg9 : S1.Idx → Elt Ideal .f32) k := by
  have hi := index10 t
  unfold iblk
  rw [View.read_apply]
  show V m c main_arg9 _ = V m c main_arg9 _
  congr 1
  funext a
  apply Fin.ext
  match a with
  | ⟨0, _⟩ => show win0_10.index t 0 * 1 + 1 * (x 0).val = (k 0).val; rw [hi, hk0]; omega

end Cert.KernelIdeal.Blocks

end
-- ==== Proof.KFinal.lean ====
/-
  The two result arrays of the fused kernel as functions of the arrays its windows stage. Over the 38 steps of a block
  of 512 samples each accumulator entry gathers the cell-line term and the 38 step terms; the last step applies the two
  later layers and its output block is written back at rows 512·q …; the 8 such blocks cover the 4096 samples.
-/
import proofs.«148840_j45294725103836_2_alg».proof.Proof.Gen.KernelIdeal.Value
import proofs.«148840_j45294725103836_2_alg».proof.Proof.KAcc
import proofs.«148840_j45294725103836_2_alg».proof.Proof.KBlocks
import proofs.«148840_j45294725103836_2_alg».proof.Proof.KSpec

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Final

open Cert.KernelIdeal Cert.KernelIdeal.Gen Cert.KSpec

variable (m : (ℓ : Loc nD τ sig) → Buf (Elt Ideal) ℓ) (ρ : Dev nD → PrngReg)

/-! ## The staged arrays by coordinates -/

def XP (c : Dev nD) (b : Fin 4096) (q : Fin 19456) : EReal := (V m c main_v24 : S4096x19456.Idx → Elt Ideal .bf16) (ix2 b q)
def XQ (c : Dev nD) (b : Fin 4096) (q : Fin 19456) : EReal := (V m c main_v33 : S4096x19456.Idx → Elt Ideal .bf16) (ix2 b q)
def XO (c : Dev nD) (b : Fin 4096) (k : Fin 16) : EReal := (V m c main_v34 : S4096x16.Idx → Elt Ideal .bf16) (ix2 b k)
def XS (c : Dev nD) (i : Fin 2048) (q : Fin 19456) : EReal := (V m c main_v44 : S2048x19456.Idx → Elt Ideal .bf16) (ix2 i q)
def XD (c : Dev nD) (i : Fin 2048) (q : Fin 19456) : EReal := (V m c main_v46 : S2048x19456.Idx → Elt Ideal .bf16) (ix2 i q)
def XC (c : Dev nD) (i : Fin 2048) (k : Fin 16) : EReal := (V m c main_v42 : S2048x16.Idx → Elt Ideal .bf16) (ix2 i k)
def Xb0 (c : Dev nD) (i : Fin 2048) : EReal := (V m c main_arg5 : S2048.Idx → Elt Ideal .f32) (ix1 i)
def Xw1 (c : Dev nD) (j : Fin 1024) (i : Fin 2048) : EReal := (V m c main_v47 : S1024x2048.Idx → Elt Ideal .bf16) (ix2 j i)
def Xb1 (c : Dev nD) (j : Fin 1024) : EReal := (V m c main_arg7 : S1024.Idx → Elt Ideal .f32) (ix1 j)
def Xw2 (c : Dev nD) (j : Fin 1024) : EReal := (V m c main_v48 : S1x1024.Idx → Elt Ideal .bf16) (ix2 (0 : Fin 1) j)
def Xb2 (c : Dev nD) : EReal := (V m c main_arg9 : S1.Idx → Elt Ideal .f32) (ix1 (0 : Fin 1))

/-- The first result array. -/
def G1 (c : Dev nD) : S4096.Idx → EReal := fun j =>
  out1 (XP m c) (XQ m c) (XO m c) (XS m c) (XD m c) (XC m c) (Xb0 m c) (Xw1 m c) (Xb1 m c) (Xw2 m c) (Xb2 m c) (j 0)
/-- The second result array. -/
def G2 (c : Dev nD) : S4096.Idx → EReal := fun j =>
  out2 (XP m c) (XQ m c) (XO m c) (XS m c) (XD m c) (XC m c) (Xb0 m c) (Xw1 m c) (Xb1 m c) (Xw2 m c) (Xb2 m c) (j 0)

/-! ## A point's blocks are rows and columns of the staged arrays -/

theorem rowP (c : Dev nD) (t : Fin cfg0.N) (r : Fin 512) (b : Fin 4096) (s : Fin 38) (hb : b.val = 512 * (t.val / 38) + r.val) (hs : s.val = t.val % 38) :
    (fun t' => (iblk m c 0 t : Vec Ideal S512x512 .bf16) (ix2 r t')) = fun t' => XP m c b (colOf s t') := funext fun t' =>
  Blocks.blk0_apply m c t (ix2 r t') (ix2 b (colOf s t')) (by show b.val = t.val / 38 * 512 + r.val; omega)
    (by show 512 * s.val + t'.val = t.val % 38 * 512 + t'.val; omega)
theorem rowQ (c : Dev nD) (t : Fin cfg0.N) (r : Fin 512) (b : Fin 4096) (s : Fin 38) (hb : b.val = 512 * (t.val / 38) + r.val) (hs : s.val = t.val % 38) :
    (fun t' => (iblk m c 1 t : Vec Ideal S512x512 .bf16) (ix2 r t')) = fun t' => XQ m c b (colOf s t') := funext fun t' =>
  Blocks.blk1_apply m c t (ix2 r t') (ix2 b (colOf s t')) (by show b.val = t.val / 38 * 512 + r.val; omega)
    (by show 512 * s.val + t'.val = t.val % 38 * 512 + t'.val; omega)
theorem rowS (c : Dev nD) (t : Fin cfg0.N) (i : Fin 2048) (s : Fin 38) (hs : s.val = t.val % 38) :
    (fun t' => (iblk m c 3 t : Vec Ideal S2048x512 .bf16) (ix2 i t')) = fun t' => XS m c i (colOf s t') := funext fun t' =>
  Blocks.blk3_apply m c t (ix2 i t') (ix2 i (colOf s t')) (by show i.val = 0 * 2048 + i.val; omega)
    (by show 512 * s.val + t'.val = t.val % 38 * 512 + t'.val; omega)
theorem rowD (c : Dev nD) (t : Fin cfg0.N) (i : Fin 2048) (s : Fin 38) (hs : s.val = t.val % 38) :
    (fun t' => (iblk m c 4 t : Vec Ideal S2048x512 .bf16) (ix2 i t')) = fun t' => XD m c i (colOf s t') := funext fun t' =>
  Blocks.blk4_apply m c t (ix2 i t') (ix2 i (colOf s t')) (by show i.val = 0 * 2048 + i.val; omega)
    (by show 512 * s.val + t'.val = t.val % 38 * 512 + t'.val; omega)
theorem rowO (c : Dev nD) (t : Fin cfg0.N) (r : Fin 512) (b : Fin 4096) (hb : b.val = 512 * (t.val / 38) + r.val) :
    (fun k => (iblk m c 2 t : Vec Ideal S512x16 .bf16) (ix2 r k)) = XO m c b := funext fun k =>
  Blocks.blk2_apply m c t (ix2 r k) (ix2 b k) (by show b.val = t.val / 38 * 512 + r.val; omega)
    (by show k.val = 0 * 16 + k.val; omega)
theorem rowC (c : Dev nD) (t : Fin cfg0.N) (i : Fin 2048) :
    (fun k => (iblk m c 5 t : Vec Ideal S2048x16 .bf16) (ix2 i k)) = XC m c i := funext fun k =>
  Blocks.blk5_apply m c t (ix2 i k) (ix2 i k) (by show i.val = 0 * 2048 + i.val; omega) (by show k.val = 0 * 16 + k.val; omega)

theorem rowb0 (c : Dev nD) (t : Fin cfg0.N) : (fun i => (iblk m c 6 t : Vec Ideal S2048 .f32) (ix1 i)) = Xb0 m c := funext fun i =>
  Blocks.blk6_apply m c t (ix1 i) (ix1 i) (by show i.val = 0 * 2048 + i.val; omega)
theorem roww1 (c : Dev nD) (t : Fin cfg0.N) : (fun j i => (iblk m c 7 t : Vec Ideal S1024x2048 .bf16) (ix2 j i)) = Xw1 m c := funext fun j => funext fun i =>
  Blocks.blk7_apply m c t (ix2 j i) (ix2 j i) (by show j.val = 0 * 1024 + j.val; omega) (by show i.val = 0 * 2048 + i.val; omega)
theorem rowb1 (c : Dev nD) (t : Fin cfg0.N) : (fun j => (iblk m c 8 t : Vec Ideal S1024 .f32) (ix1 j)) = Xb1 m c := funext fun j =>
  Blocks.blk8_apply m c t (ix1 j) (ix1 j) (by show j.val = 0 * 1024 + j.val; omega)
theorem roww2 (c : Dev nD) (t : Fin cfg0.N) : (fun j => (iblk m c 9 t : Vec Ideal S1x1024 .bf16) (ix2 0 j)) = Xw2 m c := funext fun j =>
  Blocks.blk9_apply m c t (ix2 0 j) (ix2 0 j) (by show (0 : Fin 1).val = 0 * 1 + (0 : Fin 1).val; rfl) (by show j.val = 0 * 1024 + j.val; omega)
theorem rowb2 (c : Dev nD) (t : Fin cfg0.N) : (iblk m c 10 t : Vec Ideal S1 .f32) (ix1 0) = Xb2 m c :=
  Blocks.blk10_apply m c t (ix1 0) (ix1 0) (by show (0 : Fin 1).val = 0 * 1 + (0 : Fin 1).val; rfl)

/-! ## The accumulators over a run of 38 points -/

/-- Step s of the first accumulator for sample b and hidden unit i (zero past the last step). -/
def T1 (c : Dev nD) (b : Fin 4096) (i : Fin 2048) (s : ℕ) : EReal :=
  if h : s < 38 then step1 (fun t' => XP m c b (colOf ⟨s, h⟩ t')) (fun t' => XQ m c b (colOf ⟨s, h⟩ t'))
    (fun t' => XS m c i (colOf ⟨s, h⟩ t')) (fun t' => XD m c i (colOf ⟨s, h⟩ t')) else 0
/-- Step s of the second accumulator. -/
def T2 (c : Dev nD) (b : Fin 4096) (i : Fin 2048) (s : ℕ) : EReal :=
  if h : s < 38 then step2 (fun t' => XP m c b (colOf ⟨s, h⟩ t')) (fun t' => XQ m c b (colOf ⟨s, h⟩ t'))
    (fun t' => XS m c i (colOf ⟨s, h⟩ t')) (fun t' => XD m c i (colOf ⟨s, h⟩ t')) else 0

/-- The first accumulator after step j of the run of sample block q, at row r of the block and hidden unit i. -/
theorem acc1_run (c : Dev nD) (q : ℕ) (r : Fin 512) (i : Fin 2048) (b : Fin 4096) (hb : b.val = 512 * q + r.val) :
    ∀ (j : ℕ), j ≤ 36 → ∀ (h : 38 * q + j < cfg0.N),
      (outsAt0 m c (38 * q + j) h).2.2.1 (ix2 r i)
        = cellTerm (XO m c b) (XC m c i) + ∑ s ∈ Finset.range (j + 1), T1 m c b i s
  | 0, _, h => by
    have hN : cfg0.N = 304 := N_0
    have h0 : (⟨38 * q + 0, h⟩ : Fin cfg0.N).val % 38 = 0 := by show (38 * q + 0) % 38 = 0; omega
    have h2 : ¬(⟨38 * q + 0, h⟩ : Fin cfg0.N).val % 38 = 37 := by show ¬(38 * q + 0) % 38 = 37; omega
    have hq : (⟨38 * q + 0, h⟩ : Fin cfg0.N).val / 38 = q := by show (38 * q + 0) / 38 = q; omega
    have hs : ((0 : Fin 38)).val = (⟨38 * q + 0, h⟩ : Fin cfg0.N).val % 38 := by show 0 = (38 * q + 0) % 38; omega
    refine (Acc.sc0_A m c ⟨38 * q + 0, h⟩ h0 h0 h2 r i).trans ?_
    rw [rowP m c ⟨38 * q + 0, h⟩ r b 0 (by rw [hq]; exact hb) hs, rowQ m c ⟨38 * q + 0, h⟩ r b 0 (by rw [hq]; exact hb) hs,
      rowS m c ⟨38 * q + 0, h⟩ i 0 hs, rowD m c ⟨38 * q + 0, h⟩ i 0 hs,
      rowO m c ⟨38 * q + 0, h⟩ r b (by rw [hq]; exact hb), rowC m c ⟨38 * q + 0, h⟩ i]
    rw [zero_add, add_comm, Finset.sum_range_one]
    unfold T1
    rw [dif_pos (by omega : (0 : ℕ) < 38)]
    rfl
  | j + 1, hj, h => by
    have hN : cfg0.N = 304 := N_0
    have h0 : ¬(⟨38 * q + (j + 1), h⟩ : Fin cfg0.N).val % 38 = 0 := by show ¬(38 * q + (j + 1)) % 38 = 0; omega
    have h2 : ¬(⟨38 * q + (j + 1), h⟩ : Fin cfg0.N).val % 38 = 37 := by show ¬(38 * q + (j + 1)) % 38 = 37; omega
    have hq : (⟨38 * q + (j + 1), h⟩ : Fin cfg0.N).val / 38 = q := by show (38 * q + (j + 1)) / 38 = q; omega
    have hj38 : j + 1 < 38 := by omega
    have hs : ((⟨j + 1, hj38⟩ : Fin 38)).val = (⟨38 * q + (j + 1), h⟩ : Fin cfg0.N).val % 38 := by
      show j + 1 = (38 * q + (j + 1)) % 38; omega
    refine (Acc.sc0_B m c ⟨38 * q + (j + 1), h⟩ h0 h0 h2 r i).trans ?_
    rw [rowP m c ⟨38 * q + (j + 1), h⟩ r b ⟨j + 1, hj38⟩ (by rw [hq]; exact hb) hs, rowQ m c ⟨38 * q + (j + 1), h⟩ r b ⟨j + 1, hj38⟩ (by rw [hq]; exact hb) hs,
      rowS m c ⟨38 * q + (j + 1), h⟩ i ⟨j + 1, hj38⟩ hs, rowD m c ⟨38 * q + (j + 1), h⟩ i ⟨j + 1, hj38⟩ hs]
    show (outsAt0 m c (38 * q + j) _).2.2.1 (ix2 r i) + _ = _
    rw [acc1_run c q r i b hb j (Nat.le_of_succ_le hj) (Nat.lt_of_succ_lt h), Finset.sum_range_succ _ (j + 1), add_assoc]
    have e : T1 m c b i (j + 1) = step1 (fun t' => XP m c b (colOf ⟨j + 1, hj38⟩ t')) (fun t' => XQ m c b (colOf ⟨j + 1, hj38⟩ t'))
        (fun t' => XS m c i (colOf ⟨j + 1, hj38⟩ t')) (fun t' => XD m c i (colOf ⟨j + 1, hj38⟩ t')) := by
      unfold T1
      rw [dif_pos hj38]
    rw [e]

/-- The second accumulator after step j of the run of sample block q. -/
theorem acc2_run (c : Dev nD) (q : ℕ) (r : Fin 512) (i : Fin 2048) (b : Fin 4096) (hb : b.val = 512 * q + r.val) :
    ∀ (j : ℕ), j ≤ 36 → ∀ (h : 38 * q + j < cfg0.N),
      (outsAt0 m c (38 * q + j) h).2.2.2 (ix2 r i)
        = cellTerm (XO m c b) (XC m c i) + ∑ s ∈ Finset.range (j + 1), T2 m c b i s
  | 0, _, h => by
    have hN : cfg0.N = 304 := N_0
    have h0 : (⟨38 * q + 0, h⟩ : Fin cfg0.N).val % 38 = 0 := by show (38 * q + 0) % 38 = 0; omega
    have h2 : ¬(⟨38 * q + 0, h⟩ : Fin cfg0.N).val % 38 = 37 := by show ¬(38 * q + 0) % 38 = 37; omega
    have hq : (⟨38 * q + 0, h⟩ : Fin cfg0.N).val / 38 = q := by show (38 * q + 0) / 38 = q; omega
    have hs : ((0 : Fin 38)).val = (⟨38 * q + 0, h⟩ : Fin cfg0.N).val % 38 := by show 0 = (38 * q + 0) % 38; omega
    refine (Acc.sc1_A m c ⟨38 * q + 0, h⟩ h0 h0 h2 r i).trans ?_
    rw [rowP m c ⟨38 * q + 0, h⟩ r b 0 (by rw [hq]; exact hb) hs, rowQ m c ⟨38 * q + 0, h⟩ r b 0 (by rw [hq]; exact hb) hs,
      rowS m c ⟨38 * q + 0, h⟩ i 0 hs, rowD m c ⟨38 * q + 0, h⟩ i 0 hs,
      rowO m c ⟨38 * q + 0, h⟩ r b (by rw [hq]; exact hb), rowC m c ⟨38 * q + 0, h⟩ i]
    rw [zero_add, add_comm, Finset.sum_range_one]
    unfold T2
    rw [dif_pos (by omega : (0 : ℕ) < 38)]
    rfl
  | j + 1, hj, h => by
    have hN : cfg0.N = 304 := N_0
    have h0 : ¬(⟨38 * q + (j + 1), h⟩ : Fin cfg0.N).val % 38 = 0 := by show ¬(38 * q + (j + 1)) % 38 = 0; omega
    have h2 : ¬(⟨38 * q + (j + 1), h⟩ : Fin cfg0.N).val % 38 = 37 := by show ¬(38 * q + (j + 1)) % 38 = 37; omega
    have hq : (⟨38 * q + (j + 1), h⟩ : Fin cfg0.N).val / 38 = q := by show (38 * q + (j + 1)) / 38 = q; omega
    have hj38 : j + 1 < 38 := by omega
    have hs : ((⟨j + 1, hj38⟩ : Fin 38)).val = (⟨38 * q + (j + 1), h⟩ : Fin cfg0.N).val % 38 := by
      show j + 1 = (38 * q + (j + 1)) % 38; omega
    refine (Acc.sc1_B m c ⟨38 * q + (j + 1), h⟩ h0 h0 h2 r i).trans ?_
    rw [rowP m c ⟨38 * q + (j + 1), h⟩ r b ⟨j + 1, hj38⟩ (by rw [hq]; exact hb) hs, rowQ m c ⟨38 * q + (j + 1), h⟩ r b ⟨j + 1, hj38⟩ (by rw [hq]; exact hb) hs,
      rowS m c ⟨38 * q + (j + 1), h⟩ i ⟨j + 1, hj38⟩ hs, rowD m c ⟨38 * q + (j + 1), h⟩ i ⟨j + 1, hj38⟩ hs]
    show (outsAt0 m c (38 * q + j) _).2.2.2 (ix2 r i) + _ = _
    rw [acc2_run c q r i b hb j (Nat.le_of_succ_le hj) (Nat.lt_of_succ_lt h), Finset.sum_range_succ _ (j + 1), add_assoc]
    have e : T2 m c b i (j + 1) = step2 (fun t' => XP m c b (colOf ⟨j + 1, hj38⟩ t')) (fun t' => XQ m c b (colOf ⟨j + 1, hj38⟩ t'))
        (fun t' => XS m c i (colOf ⟨j + 1, hj38⟩ t')) (fun t' => XD m c i (colOf ⟨j + 1, hj38⟩ t')) := by
      unfold T2
      rw [dif_pos hj38]
    rw [e]

/-- Where the two output windows' blocks sit at each grid point. -/
theorem index_out : ∀ t : Fin grid0.N, win0_11.index t 0 = t.val / 38 ∧ win0_12.index t 0 = t.val / 38 := by decide +kernel

/-- All 38 steps of accumulator 1, as a sum over the blocks of columns. -/
theorem sum_T1 (c : Dev nD) (b : Fin 4096) (i : Fin 2048) :
    ∑ s ∈ Finset.range 38, T1 m c b i s
      = ∑ s : Fin 38, step1 (fun t' => XP m c b (colOf s t')) (fun t' => XQ m c b (colOf s t'))
          (fun t' => XS m c i (colOf s t')) (fun t' => XD m c i (colOf s t')) := by
  rw [Finset.sum_range]
  refine Finset.sum_congr rfl fun s _ => ?_
  unfold T1
  rw [dif_pos s.isLt]

/-- The last point of the run of sample block q leaves, at row r of output 1's block, the result for sample 512·q + r. -/
theorem out1_last (c : Dev nD) (q : ℕ) (r : Fin 512) (b : Fin 4096) (hb : b.val = 512 * q + r.val) (h : 38 * q + 37 < cfg0.N) :
    (outsAt0 m c (38 * q + 37) h).1 (ix1 r) = G1 m c (ix1 b) := by
  have hN : cfg0.N = 304 := N_0
  have h0 : ¬(⟨38 * q + 37, h⟩ : Fin cfg0.N).val % 38 = 0 := by show ¬(38 * q + 37) % 38 = 0; omega
  have h2 : (⟨38 * q + 37, h⟩ : Fin cfg0.N).val % 38 = 37 := by show (38 * q + 37) % 38 = 37; omega
  have hq : (⟨38 * q + 37, h⟩ : Fin cfg0.N).val / 38 = q := by show (38 * q + 37) / 38 = q; omega
  have hs : ((⟨37, by omega⟩ : Fin 38)).val = (⟨38 * q + 37, h⟩ : Fin cfg0.N).val % 38 := by show 37 = (38 * q + 37) % 38; omega
  refine (Acc.out0_C m c ⟨38 * q + 37, h⟩ h0 h0 h2 r).trans ?_
  rw [rowb0 m c ⟨38 * q + 37, h⟩, roww1 m c ⟨38 * q + 37, h⟩, rowb1 m c ⟨38 * q + 37, h⟩, roww2 m c ⟨38 * q + 37, h⟩, rowb2 m c ⟨38 * q + 37, h⟩]
  show _ = out1 (XP m c) (XQ m c) (XO m c) (XS m c) (XD m c) (XC m c) (Xb0 m c) (Xw1 m c) (Xb1 m c) (Xw2 m c) (Xb2 m c) b
  unfold out1
  refine congrArg (fun a => tail a (Xb0 m c) (Xw1 m c) (Xb1 m c) (Xw2 m c) (Xb2 m c)) (funext fun i => ?_)
  rw [rowP m c ⟨38 * q + 37, h⟩ r b ⟨37, by omega⟩ (by rw [hq]; exact hb) hs, rowQ m c ⟨38 * q + 37, h⟩ r b ⟨37, by omega⟩ (by rw [hq]; exact hb) hs,
    rowS m c ⟨38 * q + 37, h⟩ i ⟨37, by omega⟩ hs, rowD m c ⟨38 * q + 37, h⟩ i ⟨37, by omega⟩ hs]
  show (outsAt0 m c (38 * q + 36) _).2.2.1 (ix2 r i) + _ = _
  rw [acc1_run m c q r i b hb 36 le_rfl (by omega)]
  unfold acc1
  rw [add_assoc, ← sum_T1 m c b i, Finset.sum_range_succ _ 37]
  congr 2

/-- An index of result array 1 is in point t's block iff its coordinate is in the block's range. -/
theorem mem_blk11 (t : Fin cfg0.N) (i : S4096.Idx) :
    i ∈ ((cfg0.win 11).blk t).view.set ↔ ∀ a : Fin 1, win0_11.index t a * S512.size a ≤ (i a).val ∧ (i a).val < win0_11.index t a * S512.size a + S512.size a := by
  show i ∈ ((View.whole main_v49_0).slice (win0_11.rect t)).set ↔ _
  rw [View.set_slice_whole, Rect.mem_set_unit]
  exact Iff.rfl

/-- What the last point of a run writes back is its block of the result array. -/
theorem flushed11_at (c : Dev nD) (q : ℕ) (h : 38 * q + 37 < cfg0.N) :
    (dats m 0 c).flushed 11 ⟨38 * q + 37, h⟩ = ((cfg0.win 11).blk ⟨38 * q + 37, h⟩).view.read (Elt Ideal) (G1 m c) := by
  have hN : cfg0.N = 304 := N_0
  rw [Value.flushed11]
  funext y
  show (outsAt0 m c (38 * q + 37) h).1 y = G1 m c (((cfg0.win 11).blk ⟨38 * q + 37, h⟩).view.emb y)
  have hy : (y 0).val < 512 := (y 0).isLt
  have hi := (index_out ⟨38 * q + 37, h⟩).1
  have hq : (38 * q + 37) / 38 = q := by omega
  have e1 : ((cfg0.win 11).blk ⟨38 * q + 37, h⟩).view.emb y = ix1 (⟨512 * q + (y 0).val, by omega⟩ : Fin 4096) := by
    funext a; apply Fin.ext
    match a with
    | ⟨0, _⟩ => show win0_11.index ⟨38 * q + 37, h⟩ 0 * 512 + 1 * (y 0).val = 512 * q + (y 0).val; rw [hi]; show (38 * q + 37) / 38 * 512 + 1 * (y 0).val = _; rw [hq]; omega
  rw [e1]
  refine (congrArg (outsAt0 m c (38 * q + 37) h).1 (eq_ix1 y)).trans ?_
  exact out1_last m c q (y 0) ⟨512 * q + (y 0).val, by omega⟩ rfl h

theorem flushed11_eq (c : Dev nD) (t : Fin cfg0.N) (hf : (cfg0.win 11).flush t = true) :
    (dats m 0 c).flushed 11 t = ((cfg0.win 11).blk t).view.read (Elt Ideal) (G1 m c) := by
  have h37 : t.val % 38 = 37 := (flush0_11 t).mp hf
  obtain ⟨n, hn⟩ := t
  obtain ⟨q, rfl⟩ : ∃ q, n = 38 * q + 37 := ⟨n / 38, by have : n % 38 = 37 := h37; omega⟩
  exact flushed11_at m c q hn

/-- The eight written-back blocks cover the 4096 samples, so result array 1 ends at its closed form. -/
theorem final11 (c : Dev nD) : (dats m 0 c).arrAt 11 cfg0.N = G1 m c :=
  (dats m 0 c).arrAt_eq_of_cover 11 (G1 m c) (fun t hf => flushed11_eq m c t hf) fun i => by
    have hN : cfg0.N = 304 := N_0
    have hN' : grid0.N = 304 := N_0
    have hi0 : (i 0).val < 4096 := (i 0).isLt
    refine ⟨⟨38 * ((i 0).val / 512) + 37, by omega⟩, (flush0_11 _).mpr (by show (38 * ((i 0).val / 512) + 37) % 38 = 37; omega), ?_⟩
    rw [mem_blk11]
    intro a
    have hidx := (index_out ⟨38 * ((i 0).val / 512) + 37, by omega⟩).1
    have hq : (38 * ((i 0).val / 512) + 37) / 38 = (i 0).val / 512 := by omega
    match a with
    | ⟨0, _⟩ =>
      show win0_11.index ⟨38 * ((i 0).val / 512) + 37, _⟩ 0 * 512 ≤ (i 0).val ∧ (i 0).val < win0_11.index ⟨38 * ((i 0).val / 512) + 37, _⟩ 0 * 512 + 512
      rw [hidx]
      show (38 * ((i 0).val / 512) + 37) / 38 * 512 ≤ (i 0).val ∧ (i 0).val < (38 * ((i 0).val / 512) + 37) / 38 * 512 + 512
      rw [hq]; omega

/-- All 38 steps of accumulator 2, as a sum over the blocks of columns. -/
theorem sum_T2 (c : Dev nD) (b : Fin 4096) (i : Fin 2048) :
    ∑ s ∈ Finset.range 38, T2 m c b i s
      = ∑ s : Fin 38, step2 (fun t' => XP m c b (colOf s t')) (fun t' => XQ m c b (colOf s t'))
          (fun t' => XS m c i (colOf s t')) (fun t' => XD m c i (colOf s t')) := by
  rw [Finset.sum_range]
  refine Finset.sum_congr rfl fun s _ => ?_
  unfold T2
  rw [dif_pos s.isLt]

/-- The last point of the run of sample block q leaves, at row r of output 2's block, the result for sample 512·q + r. -/
theorem out2_last (c : Dev nD) (q : ℕ) (r : Fin 512) (b : Fin 4096) (hb : b.val = 512 * q + r.val) (h : 38 * q + 37 < cfg0.N) :
    (outsAt0 m c (38 * q + 37) h).2.1 (ix1 r) = G2 m c (ix1 b) := by
  have hN : cfg0.N = 304 := N_0
  have h0 : ¬(⟨38 * q + 37, h⟩ : Fin cfg0.N).val % 38 = 0 := by show ¬(38 * q + 37) % 38 = 0; omega
  have h2 : (⟨38 * q + 37, h⟩ : Fin cfg0.N).val % 38 = 37 := by show (38 * q + 37) % 38 = 37; omega
  have hq : (⟨38 * q + 37, h⟩ : Fin cfg0.N).val / 38 = q := by show (38 * q + 37) / 38 = q; omega
  have hs : ((⟨37, by omega⟩ : Fin 38)).val = (⟨38 * q + 37, h⟩ : Fin cfg0.N).val % 38 := by show 37 = (38 * q + 37) % 38; omega
  refine (Acc.out1_C m c ⟨38 * q + 37, h⟩ h0 h0 h2 r).trans ?_
  rw [rowb0 m c ⟨38 * q + 37, h⟩, roww1 m c ⟨38 * q + 37, h⟩, rowb1 m c ⟨38 * q + 37, h⟩, roww2 m c ⟨38 * q + 37, h⟩, rowb2 m c ⟨38 * q + 37, h⟩]
  show _ = out2 (XP m c) (XQ m c) (XO m c) (XS m c) (XD m c) (XC m c) (Xb0 m c) (Xw1 m c) (Xb1 m c) (Xw2 m c) (Xb2 m c) b
  unfold out2
  refine congrArg (fun a => tail a (Xb0 m c) (Xw1 m c) (Xb1 m c) (Xw2 m c) (Xb2 m c)) (funext fun i => ?_)
  rw [rowP m c ⟨38 * q + 37, h⟩ r b ⟨37, by omega⟩ (by rw [hq]; exact hb) hs, rowQ m c ⟨38 * q + 37, h⟩ r b ⟨37, by omega⟩ (by rw [hq]; exact hb) hs,
    rowS m c ⟨38 * q + 37, h⟩ i ⟨37, by omega⟩ hs, rowD m c ⟨38 * q + 37, h⟩ i ⟨37, by omega⟩ hs]
  show (outsAt0 m c (38 * q + 36) _).2.2.2 (ix2 r i) + _ = _
  rw [acc2_run m c q r i b hb 36 le_rfl (by omega)]
  unfold acc2
  rw [add_assoc, ← sum_T2 m c b i, Finset.sum_range_succ _ 37]
  congr 2

/-- An index of result array 2 is in point t's block iff its coordinate is in the block's range. -/
theorem mem_blk12 (t : Fin cfg0.N) (i : S4096.Idx) :
    i ∈ ((cfg0.win 12).blk t).view.set ↔ ∀ a : Fin 1, win0_12.index t a * S512.size a ≤ (i a).val ∧ (i a).val < win0_12.index t a * S512.size a + S512.size a := by
  show i ∈ ((View.whole main_v49_1).slice (win0_12.rect t)).set ↔ _
  rw [View.set_slice_whole, Rect.mem_set_unit]
  exact Iff.rfl

/-- What the last point of a run writes back is its block of the result array. -/
theorem flushed12_at (c : Dev nD) (q : ℕ) (h : 38 * q + 37 < cfg0.N) :
    (dats m 0 c).flushed 12 ⟨38 * q + 37, h⟩ = ((cfg0.win 12).blk ⟨38 * q + 37, h⟩).view.read (Elt Ideal) (G2 m c) := by
  have hN : cfg0.N = 304 := N_0
  rw [Value.flushed12]
  funext y
  show (outsAt0 m c (38 * q + 37) h).2.1 y = G2 m c (((cfg0.win 12).blk ⟨38 * q + 37, h⟩).view.emb y)
  have hy : (y 0).val < 512 := (y 0).isLt
  have hi := (index_out ⟨38 * q + 37, h⟩).2
  have hq : (38 * q + 37) / 38 = q := by omega
  have e1 : ((cfg0.win 12).blk ⟨38 * q + 37, h⟩).view.emb y = ix1 (⟨512 * q + (y 0).val, by omega⟩ : Fin 4096) := by
    funext a; apply Fin.ext
    match a with
    | ⟨0, _⟩ => show win0_12.index ⟨38 * q + 37, h⟩ 0 * 512 + 1 * (y 0).val = 512 * q + (y 0).val; rw [hi]; show (38 * q + 37) / 38 * 512 + 1 * (y 0).val = _; rw [hq]; omega
  rw [e1]
  refine (congrArg (outsAt0 m c (38 * q + 37) h).2.1 (eq_ix1 y)).trans ?_
  exact out2_last m c q (y 0) ⟨512 * q + (y 0).val, by omega⟩ rfl h

theorem flushed12_eq (c : Dev nD) (t : Fin cfg0.N) (hf : (cfg0.win 12).flush t = true) :
    (dats m 0 c).flushed 12 t = ((cfg0.win 12).blk t).view.read (Elt Ideal) (G2 m c) := by
  have h37 : t.val % 38 = 37 := (flush0_12 t).mp hf
  obtain ⟨n, hn⟩ := t
  obtain ⟨q, rfl⟩ : ∃ q, n = 38 * q + 37 := ⟨n / 38, by have : n % 38 = 37 := h37; omega⟩
  exact flushed12_at m c q hn

/-- The eight written-back blocks cover the 4096 samples, so result array 2 ends at its closed form. -/
theorem final12 (c : Dev nD) : (dats m 0 c).arrAt 12 cfg0.N = G2 m c :=
  (dats m 0 c).arrAt_eq_of_cover 12 (G2 m c) (fun t hf => flushed12_eq m c t hf) fun i => by
    have hN : cfg0.N = 304 := N_0
    have hN' : grid0.N = 304 := N_0
    have hi0 : (i 0).val < 4096 := (i 0).isLt
    refine ⟨⟨38 * ((i 0).val / 512) + 37, by omega⟩, (flush0_12 _).mpr (by show (38 * ((i 0).val / 512) + 37) % 38 = 37; omega), ?_⟩
    rw [mem_blk12]
    intro a
    have hidx := (index_out ⟨38 * ((i 0).val / 512) + 37, by omega⟩).2
    have hq : (38 * ((i 0).val / 512) + 37) / 38 = (i 0).val / 512 := by omega
    match a with
    | ⟨0, _⟩ =>
      show win0_12.index ⟨38 * ((i 0).val / 512) + 37, _⟩ 0 * 512 ≤ (i 0).val ∧ (i 0).val < win0_12.index ⟨38 * ((i 0).val / 512) + 37, _⟩ 0 * 512 + 512
      rw [hidx]
      show (38 * ((i 0).val / 512) + 37) / 38 * 512 ≤ (i 0).val ∧ (i 0).val < (38 * ((i 0).val / 512) + 37) / 38 * 512 + 512
      rw [hq]; omega

/-- The kernel's run: the two result arrays end at their closed forms, the arguments unchanged. -/
theorem run : θ_run defs (onTc (τ := τ) (main (F := Ideal))) ⟨m, fun _ => 0, ρ⟩ fun r => ∀ c : Dev nD,
      r.2.mem ((c : Thread nD τ).loc main_v49_0) = G1 m c
      ∧ r.2.mem ((c : Thread nD τ).loc main_v49_1) = G2 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final11 m c), (h c).2.1.trans (final12 m c), (h c).2.2⟩)
    (Value.run_blocks m ρ)

end Cert.KernelIdeal.Final

end
-- ==== Proof.KGlue.lean ====
/-
  What the float-derived input windows of the one region hold when the region starts, as plain functions of the
  launched argument arrays. The host operations before the region cut the first weight matrix [2048, 38032] into two
  wide column blocks (columns 0..18999 and 19016..38015) and two narrow ones (columns 19000..19015 and 38016..38031);
  they form the entrywise sum and difference of the wide blocks, pad each with 456 zero columns to width 19456, form
  the sum of the narrow blocks, and narrow these and the two later weight matrices to a shorter float format. Over
  the extended reals a change of float format is the identity and the converted integer 0 is the real 0, so each
  window's array is read at an index as a sum or difference of two entries of the first weight matrix (0 in the
  padding), or is the launched array itself.
-/
import proofs.«148840_j45294725103836_2_alg».proof.Proof.Gen.KernelIdeal.Frame
import Idealize.ShloMosaic.Lib.ValueIdx
import Idealize.ShloMosaic.Lib.ValueLayout
import Idealize.ShloMosaic.Lib.KernelVsHost
import Idealize.ShloMosaic.Lib.StableHlo.Run

set_option maxRecDepth 16384

noncomputable section

namespace Cert.KGlue

open Idealize.ShloMosaic Idealize.ShloMosaic.TcCoe Idealize.SL.Sem
open Idealize.ShloMosaic.ValueIdx Idealize.ShloMosaic.StableHlo
open Cert.KernelIdeal

variable (m : (ℓ : Loc nD τ sig) → Buf (Elt Ideal) ℓ)

/-- The first weight matrix as launched on device `c`. -/
abbrev W0 (c : Dev nD) : S2048x38032.Idx → EReal := m ((c.tc : Thread nD τ).loc main_arg4)

/-! ## The arrays the host operations leave, as terms over the launched arrays -/

set_option maxHeartbeats 1000000 in
theorem V_v42 (c : Dev nD) :
    @Eq (S2048x16.Idx → EReal) (Gen.V m c main_v42)
      (truncf (F := Ideal) .bf16 (addf (extractStridedSlice S2048x16 ![0, 19000] (W0 m c) Gen.slices_S2048x38032_S2048x16_0_19000)
          (extractStridedSlice S2048x16 ![0, 38016] (W0 m c) Gen.slices_S2048x38032_S2048x16_0_38016)) Gen.bitsLt_bf16_f32) := by
  dsimp only [Gen.V]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp <;> rfl

set_option maxHeartbeats 1000000 in
theorem V_v44 (c : Dev nD) :
    @Eq (S2048x19456.Idx → EReal) (Gen.V m c main_v44)
      (truncf (F := Ideal) .bf16 (pad S2048x19456 ![0, 0] ![0, 456] ![0, 0]
          (addf (extractStridedSlice S2048x19000 ![0, 0] (W0 m c) Gen.slices_S2048x38032_S2048x19000_0_0)
            (extractStridedSlice S2048x19000 ![0, 19016] (W0 m c) Gen.slices_S2048x38032_S2048x19000_0_19016))
          (sitofp (F := Ideal) .f32 (constantI S_ 32 0#32)) Gen.pads_S2048x19000_S2048x19456_000_04560 Gen.h_S_) Gen.bitsLt_bf16_f32) := by
  dsimp only [Gen.V]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp <;> rfl

set_option maxHeartbeats 1000000 in
theorem V_v46 (c : Dev nD) :
    @Eq (S2048x19456.Idx → EReal) (Gen.V m c main_v46)
      (truncf (F := Ideal) .bf16 (pad S2048x19456 ![0, 0] ![0, 456] ![0, 0]
          (subf (extractStridedSlice S2048x19000 ![0, 0] (W0 m c) Gen.slices_S2048x38032_S2048x19000_0_0)
            (extractStridedSlice S2048x19000 ![0, 19016] (W0 m c) Gen.slices_S2048x38032_S2048x19000_0_19016))
          (sitofp (F := Ideal) .f32 (constantI S_ 32 0#32)) Gen.pads_S2048x19000_S2048x19456_000_04560 Gen.h_S_) Gen.bitsLt_bf16_f32) := by
  dsimp only [Gen.V]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp <;> rfl

set_option maxHeartbeats 1000000 in
theorem V_v47 (c : Dev nD) :
    @Eq (S1024x2048.Idx → EReal) (Gen.V m c main_v47)
      (truncf (F := Ideal) .bf16 (show FVec Ideal S1024x2048 .f32 from m ((c.tc : Thread nD τ).loc main_arg6)) Gen.bitsLt_bf16_f32) := by
  dsimp only [Gen.V]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp <;> rfl

set_option maxHeartbeats 1000000 in
theorem V_v48 (c : Dev nD) :
    @Eq (S1x1024.Idx → EReal) (Gen.V m c main_v48)
      (truncf (F := Ideal) .bf16 (show FVec Ideal S1x1024 .f32 from m ((c.tc : Thread nD τ).loc main_arg8)) Gen.bitsLt_bf16_f32) := by
  dsimp only [Gen.V]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp <;> rfl

/-! ## The terms read at an index (over an arbitrary first weight matrix) -/

section AtIndex

variable (X : S2048x38032.Idx → EReal)

/-- The sum of the two 16-column slices (columns 19000.. and 38016..), narrowed: at row `i`, column `k`. -/
theorem wc_apply (i : Fin 2048) (k : Fin 16) :
    (truncf (F := Ideal) .bf16 (addf (extractStridedSlice S2048x16 ![0, 19000] X Gen.slices_S2048x38032_S2048x16_0_19000)
        (extractStridedSlice S2048x16 ![0, 38016] X Gen.slices_S2048x38032_S2048x16_0_38016)) Gen.bitsLt_bf16_f32) (ix2 i k)
      = X (ix2 i ⟨19000 + k.val, by omega⟩) + X (ix2 i ⟨38016 + k.val, by omega⟩) := by
  show extractStridedSlice S2048x16 ![0, 19000] X Gen.slices_S2048x38032_S2048x16_0_19000 (ix2 i k)
      + extractStridedSlice S2048x16 ![0, 38016] X Gen.slices_S2048x38032_S2048x16_0_38016 (ix2 i k) = _
  rw [slice2_axis1_eq 19000 X Gen.slices_S2048x38032_S2048x16_0_19000 i k,
    slice2_axis1_eq 38016 X Gen.slices_S2048x38032_S2048x16_0_38016 i k]

/-- A two-operand entrywise combination of the two 19000-column slices (columns 0.. and 19016..), padded by 456 zero
    columns: inside the first 19000 columns. -/
theorem pad_inside (Y : S2048x19000.Idx → EReal) (v : S_.Idx → EReal) (i : Fin 2048) (q : Fin 19456) (h : q.val < 19000) :
    pad S2048x19456 ![0, 0] ![0, 456] ![0, 0] Y v Gen.pads_S2048x19000_S2048x19456_000_04560 Gen.h_S_ (ix2 i q)
      = Y (ix2 i ⟨q.val, h⟩) :=
  pad_apply_of_inside _ _ _ _ _ _ _ (ix2 i q) (ix2 i ⟨q.val, h⟩) (fun a => by
    match a with
    | ⟨0, _⟩ => show i.val = 0 + i.val * (0 + 1); omega
    | ⟨1, _⟩ => show q.val = 0 + q.val * (0 + 1); omega)

/-- … and in the padding. -/
theorem pad_outside (Y : S2048x19000.Idx → EReal) (v : S_.Idx → EReal) (i : Fin 2048) (q : Fin 19456) (h : ¬ q.val < 19000) :
    pad S2048x19456 ![0, 0] ![0, 456] ![0, 0] Y v Gen.pads_S2048x19000_S2048x19456_000_04560 Gen.h_S_ (ix2 i q)
      = v (Shape.Idx.first Gen.h_S_) :=
  pad_apply_of_not_inside _ _ _ _ _ _ _ (ix2 i q) (1 : Fin 2) (by
    show ¬(0 ≤ q.val ∧ (q.val - 0) % (0 + 1) = 0 ∧ (q.val - 0) / (0 + 1) < 19000)
    omega)

/-- The padded, narrowed sum of the two wide slices at row `i`, column `q`. -/
theorem ws_apply (i : Fin 2048) (q : Fin 19456) :
    (truncf (F := Ideal) .bf16 (pad S2048x19456 ![0, 0] ![0, 456] ![0, 0]
        (addf (extractStridedSlice S2048x19000 ![0, 0] X Gen.slices_S2048x38032_S2048x19000_0_0)
          (extractStridedSlice S2048x19000 ![0, 19016] X Gen.slices_S2048x38032_S2048x19000_0_19016))
        (sitofp (F := Ideal) .f32 (constantI S_ 32 0#32)) Gen.pads_S2048x19000_S2048x19456_000_04560 Gen.h_S_) Gen.bitsLt_bf16_f32) (ix2 i q)
      = if h : q.val < 19000 then X (ix2 i ⟨q.val, by omega⟩) + X (ix2 i ⟨19016 + q.val, by omega⟩) else 0 := by
  rw [truncf_apply]
  by_cases h : q.val < 19000
  · rw [dif_pos h, pad_inside _ _ i q h]
    rw [addf_apply,
      slice2_axis1_apply 0 X Gen.slices_S2048x38032_S2048x19000_0_0 i ⟨q.val, h⟩ ⟨q.val, by omega⟩ (by show q.val = 0 + q.val; omega),
      slice2_axis1_eq 19016 X Gen.slices_S2048x38032_S2048x19000_0_19016 i ⟨q.val, h⟩]
  · rw [dif_neg h, pad_outside _ _ i q h]
    exact sitofp_zero

/-- The padded, narrowed difference of the two wide slices at row `i`, column `q`. -/
theorem wd_apply (i : Fin 2048) (q : Fin 19456) :
    (truncf (F := Ideal) .bf16 (pad S2048x19456 ![0, 0] ![0, 456] ![0, 0]
        (subf (extractStridedSlice S2048x19000 ![0, 0] X Gen.slices_S2048x38032_S2048x19000_0_0)
          (extractStridedSlice S2048x19000 ![0, 19016] X Gen.slices_S2048x38032_S2048x19000_0_19016))
        (sitofp (F := Ideal) .f32 (constantI S_ 32 0#32)) Gen.pads_S2048x19000_S2048x19456_000_04560 Gen.h_S_) Gen.bitsLt_bf16_f32) (ix2 i q)
      = if h : q.val < 19000 then X (ix2 i ⟨q.val, by omega⟩) - X (ix2 i ⟨19016 + q.val, by omega⟩) else 0 := by
  rw [truncf_apply]
  by_cases h : q.val < 19000
  · rw [dif_pos h, pad_inside _ _ i q h]
    rw [subf_apply,
      slice2_axis1_apply 0 X Gen.slices_S2048x38032_S2048x19000_0_0 i ⟨q.val, h⟩ ⟨q.val, by omega⟩ (by show q.val = 0 + q.val; omega),
      slice2_axis1_eq 19016 X Gen.slices_S2048x38032_S2048x19000_0_19016 i ⟨q.val, h⟩]
  · rw [dif_neg h, pad_outside _ _ i q h]
    exact sitofp_zero

end AtIndex

/-! ## The float windows' arrays when the region starts -/

/-- Window 3 (padded narrowed sum of the two wide column blocks of the first weight matrix) at row `i`, column `q`. -/
theorem win3 (c : Dev nD) (i : Fin 2048) (q : Fin 19456) :
    (show S2048x19456.Idx → EReal from Gen.V m c (Pipeline.arrRef spec0 3)) (ix2 i q)
      = if h : q.val < 19000 then W0 m c (ix2 i ⟨q.val, by omega⟩) + W0 m c (ix2 i ⟨19016 + q.val, by omega⟩) else 0 :=
  (congrFun (V_v44 m c) (ix2 i q)).trans (ws_apply (W0 m c) i q)

/-- Window 4 (padded narrowed difference of the two wide column blocks) at row `i`, column `q`. -/
theorem win4 (c : Dev nD) (i : Fin 2048) (q : Fin 19456) :
    (show S2048x19456.Idx → EReal from Gen.V m c (Pipeline.arrRef spec0 4)) (ix2 i q)
      = if h : q.val < 19000 then W0 m c (ix2 i ⟨q.val, by omega⟩) - W0 m c (ix2 i ⟨19016 + q.val, by omega⟩) else 0 :=
  (congrFun (V_v46 m c) (ix2 i q)).trans (wd_apply (W0 m c) i q)

/-- Window 5 (narrowed sum of the two 16-column blocks) at row `i`, column `k`. -/
theorem win5 (c : Dev nD) (i : Fin 2048) (k : Fin 16) :
    (show S2048x16.Idx → EReal from Gen.V m c (Pipeline.arrRef spec0 5)) (ix2 i k)
      = W0 m c (ix2 i ⟨19000 + k.val, by omega⟩) + W0 m c (ix2 i ⟨38016 + k.val, by omega⟩) :=
  (congrFun (V_v42 m c) (ix2 i k)).trans (wc_apply (W0 m c) i k)

/-- Window 6 is the first bias as launched. -/
theorem win6 (c : Dev nD) :
    @Eq (S2048.Idx → EReal) (Gen.V m c (Pipeline.arrRef spec0 6)) (m ((c.tc : Thread nD τ).loc main_arg5)) :=
  Gen.V_main_arg5 m c

/-- Window 7 is the second weight matrix as launched (the narrowing changes nothing). -/
theorem win7 (c : Dev nD) :
    @Eq (S1024x2048.Idx → EReal) (Gen.V m c (Pipeline.arrRef spec0 7)) (m ((c.tc : Thread nD τ).loc main_arg6)) :=
  V_v47 m c

/-- Window 8 is the second bias as launched. -/
theorem win8 (c : Dev nD) :
    @Eq (S1024.Idx → EReal) (Gen.V m c (Pipeline.arrRef spec0 8)) (m ((c.tc : Thread nD τ).loc main_arg7)) :=
  Gen.V_main_arg7 m c

/-- Window 9 is the third weight matrix as launched (the narrowing changes nothing). -/
theorem win9 (c : Dev nD) :
    @Eq (S1x1024.Idx → EReal) (Gen.V m c (Pipeline.arrRef spec0 9)) (m ((c.tc : Thread nD τ).loc main_arg8)) :=
  V_v48 m c

/-- Window 10 is the third bias as launched. -/
theorem win10 (c : Dev nD) :
    @Eq (S1.Idx → EReal) (Gen.V m c (Pipeline.arrRef spec0 10)) (m ((c.tc : Thread nD τ).loc main_arg9)) :=
  Gen.V_main_arg9 m c

/-! ## The same, as whole arrays -/

/-- Window 3 as a function of the index. -/
theorem win3_fun (c : Dev nD) :
    @Eq (S2048x19456.Idx → EReal) (Gen.V m c (Pipeline.arrRef spec0 3))
      (fun j => if h : (j 1).val < 19000 then W0 m c (ix2 (j 0) ⟨(j 1).val, by omega⟩)
        + W0 m c (ix2 (j 0) ⟨19016 + (j 1).val, by omega⟩) else 0) :=
  funext fun j => by
    conv_lhs => rw [eq_ix2 j]
    exact win3 m c (j 0) (j 1)

/-- Window 4 as a function of the index. -/
theorem win4_fun (c : Dev nD) :
    @Eq (S2048x19456.Idx → EReal) (Gen.V m c (Pipeline.arrRef spec0 4))
      (fun j => if h : (j 1).val < 19000 then W0 m c (ix2 (j 0) ⟨(j 1).val, by omega⟩)
        - W0 m c (ix2 (j 0) ⟨19016 + (j 1).val, by omega⟩) else 0) :=
  funext fun j => by
    conv_lhs => rw [eq_ix2 j]
    exact win4 m c (j 0) (j 1)

/-- Window 5 as a function of the index. -/
theorem win5_fun (c : Dev nD) :
    @Eq (S2048x16.Idx → EReal) (Gen.V m c (Pipeline.arrRef spec0 5))
      (fun j => W0 m c (ix2 (j 0) ⟨19000 + (j 1).val, by have : (j 1).val < 16 := (j 1).isLt; omega⟩)
        + W0 m c (ix2 (j 0) ⟨38016 + (j 1).val, by have : (j 1).val < 16 := (j 1).isLt; omega⟩)) :=
  funext fun j => by
    conv_lhs => rw [eq_ix2 j]
    exact win5 m c (j 0) (j 1)

end Cert.KGlue

end
-- ==== Proof.LibTypedRefs.lean ====
/-
  Contents moved between a buffer's own type and the tensor type a typed reference carries.

  A typed reference is a buffer together with a proof that the buffer's type is a given tensor type; an operation
  spelt over typed references moves its operands' contents from the buffers' types to the tensor types and its result
  back. The two types are equal, so the moves are identities — up to the equality: the moved value is heterogeneously
  equal to the original (`toBuf_heq`), and contents that are heterogeneously equal to a value at the tensor type are
  moved to that value (`ofBuf_eq`). Proved for an arbitrary typed reference, these remove a move without ever
  computing a concrete buffer's type.
-/
import Idealize.ShloMosaic.Lib.StableHlo

namespace Idealize.ShloMosaic.StableHlo.TRef

variable {sig : RefSig} {Val : EltTy → Type} {T : BufTy}

/-- A value moved to the buffer's type is the same value. -/
theorem toBuf_heq (x : TRef sig T) (v : T.Contents Val) : HEq (x.toBuf v) v := by
  obtain ⟨r, rfl, _, _⟩ := x
  exact HEq.rfl

/-- Buffer contents that are a given value of the tensor type are moved to that value. -/
theorem ofBuf_eq (x : TRef sig T) {v : x.ref.ty.Contents Val} {v' : T.Contents Val} (h : HEq v v') : x.ofBuf v = v' := by
  obtain ⟨r, rfl, _, _⟩ := x
  exact eq_of_heq h

end Idealize.ShloMosaic.StableHlo.TRef
-- ==== Proof.LibScatterConst.lean ====
/-
  A scatter with set semantics (the body returns the update) of a CONSTANT update `c` into a CONSTANT operand `z`,
  for any dimension numbers and any scatter indices. The result is built from the operand by going through the update
  indices in order; each one either lands on one entry of the operand, which it replaces by `c`, or falls outside and is
  dropped. So an entry of the result is `c` when some update index lands on it, and `z` when none does.
-/
import Idealize.ShloMosaic.PureOps
import Idealize.ShloMosaic.Lib.ValueIdx

noncomputable section

namespace Cert.LibScatterConst

open Idealize.ShloMosaic

/-- The fold of the scatter over a list `l` of (row-major positions of) update indices, constant update `c`, from the
    accumulated array `r`: the entry at `i` is `c` when some position of `l` lands on `i`, and `r i` otherwise. -/
theorem foldl_const {α : Type} {s si u : Shape} {w : Nat} (d : ScatterDims s si u) (c : α) (idx : IVec si w)
    (i : s.Idx) (l : List (Fin u.numel)) (r : s.Idx → α) :
    ((∃ n ∈ l, d.resultIdx? (u.rowMajor.symm n) idx = some i) →
      l.foldl (fun r n =>
        match d.resultIdx? (u.rowMajor.symm n) idx with
        | some i => fun i' => if i' = i then (fun _ b => b) (r i) ((fun _ => c) (u.rowMajor.symm n)) else r i'
        | none => r) r i = c) ∧
    ((∀ n ∈ l, d.resultIdx? (u.rowMajor.symm n) idx ≠ some i) →
      l.foldl (fun r n =>
        match d.resultIdx? (u.rowMajor.symm n) idx with
        | some i => fun i' => if i' = i then (fun _ b => b) (r i) ((fun _ => c) (u.rowMajor.symm n)) else r i'
        | none => r) r i = r i) := by
  induction l generalizing r with
  | nil =>
    refine ⟨?_, fun _ => rfl⟩
    rintro ⟨n, hn, _⟩; cases hn
  | cons n l ih =>
    simp only [List.foldl_cons]
    -- the array after the first update
    have hstep : ∀ i', (match d.resultIdx? (u.rowMajor.symm n) idx with
        | some i => fun i' => if i' = i then (fun _ b => b) (r i) ((fun _ => c) (u.rowMajor.symm n)) else r i'
        | none => r) i' = if d.resultIdx? (u.rowMajor.symm n) idx = some i' then c else r i' := by
      intro i'
      cases hres : d.resultIdx? (u.rowMajor.symm n) idx with
      | none => simp
      | some i0 =>
        by_cases h : i' = i0
        · subst h; simp
        · have h' : ¬ (some i0 = some i') := fun e => h (Option.some.inj e).symm
          simp [h, h']
    obtain ⟨ih1, ih2⟩ := ih (match d.resultIdx? (u.rowMajor.symm n) idx with
        | some i => fun i' => if i' = i then (fun _ b => b) (r i) ((fun _ => c) (u.rowMajor.symm n)) else r i'
        | none => r)
    constructor
    · rintro ⟨m, hm, hhit⟩
      by_cases hl : ∃ n' ∈ l, d.resultIdx? (u.rowMajor.symm n') idx = some i
      · exact ih1 hl
      · have hno : ∀ n' ∈ l, d.resultIdx? (u.rowMajor.symm n') idx ≠ some i := fun n' hn' e => hl ⟨n', hn', e⟩
        rw [ih2 hno, hstep]
        rcases List.mem_cons.1 hm with rfl | hm'
        · rw [if_pos hhit]
        · exact absurd hhit (hno m hm')
    · intro hno
      rw [ih2 (fun n' hn' => hno n' (List.mem_cons_of_mem _ hn')), hstep,
        if_neg (hno n (List.mem_cons_self ..))]

/-- An entry of the scatter of the constant `c` into the constant `z` on which some update index lands is `c`. -/
theorem scatter_const_hit {α : Type} {s si u : Shape} {w : Nat} (d : ScatterDims s si u) (z c : α) (idx : IVec si w)
    (i : s.Idx) (h : ∃ j : u.Idx, d.resultIdx? j idx = some i) :
    Host.scatter d (fun _ b => b) (fun _ => z) idx (fun _ => c) i = c := by
  obtain ⟨j, hj⟩ := h
  unfold Host.scatter
  refine (foldl_const d c idx i _ _).1 ⟨u.rowMajor j, List.mem_finRange _, ?_⟩
  rw [Equiv.symm_apply_apply]; exact hj

/-- An entry of the scatter of the constant `c` into the constant `z` on which no update index lands is `z`. -/
theorem scatter_const_miss {α : Type} {s si u : Shape} {w : Nat} (d : ScatterDims s si u) (z c : α) (idx : IVec si w)
    (i : s.Idx) (h : ∀ j : u.Idx, d.resultIdx? j idx ≠ some i) :
    Host.scatter d (fun _ b => b) (fun _ => z) idx (fun _ => c) i = z := by
  unfold Host.scatter
  exact (foldl_const d c idx i _ _).2 (fun n _ => h _)

/-- Two scatters of one constant `c` into one constant `z` — possibly of different operand shapes, dimension numbers
    and scatter indices — agree at entries `i`, `i'` on which the same update indices land. -/
theorem scatter_const_congr {α : Type} {s s' si si' u u' : Shape} {w w' : Nat} (d : ScatterDims s si u)
    (d' : ScatterDims s' si' u') (z c : α) (idx : IVec si w) (idx' : IVec si' w') (i : s.Idx) (i' : s'.Idx)
    (h : (∃ j : u.Idx, d.resultIdx? j idx = some i) ↔ (∃ j : u'.Idx, d'.resultIdx? j idx' = some i')) :
    Host.scatter d (fun _ b => b) (fun _ => z) idx (fun _ => c) i
      = Host.scatter d' (fun _ b => b) (fun _ => z) idx' (fun _ => c) i' := by
  by_cases hh : ∃ j : u.Idx, d.resultIdx? j idx = some i
  · rw [scatter_const_hit d z c idx i hh, scatter_const_hit d' z c idx' i' (h.1 hh)]
  · rw [scatter_const_miss d z c idx i (fun j e => hh ⟨j, e⟩),
      scatter_const_miss d' z c idx' i' (fun j e => hh (h.2 ⟨j, e⟩))]

/-- Every entry of the scatter of the constant `c` into the constant `z` is `z` or `c`. -/
theorem scatter_const_cases {α : Type} {s si u : Shape} {w : Nat} (d : ScatterDims s si u) (z c : α) (idx : IVec si w)
    (i : s.Idx) :
    Host.scatter d (fun _ b => b) (fun _ => z) idx (fun _ => c) i = z ∨
      Host.scatter d (fun _ b => b) (fun _ => z) idx (fun _ => c) i = c := by
  by_cases hh : ∃ j : u.Idx, d.resultIdx? j idx = some i
  · exact Or.inr (scatter_const_hit d z c idx i hh)
  · exact Or.inl (scatter_const_miss d z c idx i (fun j e => hh ⟨j, e⟩))

/-! ## The scatter of `x.at[r, c].set(v)`: one operand entry per update -/

open Idealize.ShloMosaic.ValueIdx in
/-- The dimension numbers of `x.at[r, c].set(v)` for an operand [N, C] and two vectors of E row and column numbers,
    joined into scatter indices [E, 2] (index vector on axis 1; both operand axes inserted, no window axes;
    updates [E]); their conditions are decided on a program's literal shapes. -/
abbrev pointDims (N C E : Nat)
    (wf : ScatterDims.WF ⟨2, ![N, C]⟩ ⟨2, ![E, 2]⟩ ⟨1, ![E]⟩ [] [0, 1] [0, 1] 1) :
    ScatterDims ⟨2, ![N, C]⟩ ⟨2, ![E, 2]⟩ ⟨1, ![E]⟩ where
  updateWindowDims := []
  insertedWindowDims := [0, 1]
  scatterDimsToOperandDims := [0, 1]
  indexVectorDim := 1
  wf := wf

open Idealize.ShloMosaic.ValueIdx in
/-- Update `j` of such a scatter lands on the operand entry `i` exactly when its row number, read signed, is `i`'s
    row and its column number, read signed, is `i`'s column. -/
theorem pointDims_resultIdx?_iff {N C E w : Nat}
    (wf : ScatterDims.WF ⟨2, ![N, C]⟩ ⟨2, ![E, 2]⟩ ⟨1, ![E]⟩ [] [0, 1] [0, 1] 1)
    (idx : IVec ⟨2, ![E, 2]⟩ w) (j : (⟨1, ![E]⟩ : Shape).Idx) (i : (⟨2, ![N, C]⟩ : Shape).Idx) :
    (pointDims N C E wf).resultIdx? j idx = some i ↔
      (idx (ix2 (j 0) (0 : Fin 2))).toInt = ((i 0).val : Int) ∧ (idx (ix2 (j 0) (1 : Fin 2))).toInt = ((i 1).val : Int) := by
  have hw : ∀ a, (pointDims N C E wf).window j a = 0 := by
    intro a
    unfold ScatterDims.window
    rw [dif_neg]
    revert a
    show ∀ a : Fin 2, a ∉ (List.finRange 2).filter (· ∉ ([0, 1] : List (Fin 2)))
    decide
  have hs0 : (pointDims N C E wf).start j idx 0 = (idx (ix2 (j 0) (0 : Fin 2))).toInt := by
    unfold ScatterDims.start
    rw [dif_pos (show (0 : Fin 2) ∈ (pointDims N C E wf).scatterDimsToOperandDims from
      (show (0 : Fin 2) ∈ ([0, 1] : List (Fin 2)) by decide))]
    congr 2
    funext b; refine Fin.ext ?_
    match b with
    | ⟨0, _⟩ => rfl
    | ⟨1, _⟩ => rfl
  have hs1 : (pointDims N C E wf).start j idx 1 = (idx (ix2 (j 0) (1 : Fin 2))).toInt := by
    unfold ScatterDims.start
    rw [dif_pos (show (1 : Fin 2) ∈ (pointDims N C E wf).scatterDimsToOperandDims from
      (show (1 : Fin 2) ∈ ([0, 1] : List (Fin 2)) by decide))]
    congr 2
    funext b; refine Fin.ext ?_
    match b with
    | ⟨0, _⟩ => rfl
    | ⟨1, _⟩ => rfl
  unfold ScatterDims.resultIdx?
  constructor
  · intro h
    split at h
    · rename_i hb
      have e := Option.some.inj h
      have e0 : (((i 0).val : Nat) : Int) = (pointDims N C E wf).start j idx 0 + (pointDims N C E wf).window j 0 := by
        rw [← e]; exact (Int.toNat_of_nonneg (hb 0).1)
      have e1 : (((i 1).val : Nat) : Int) = (pointDims N C E wf).start j idx 1 + (pointDims N C E wf).window j 1 := by
        rw [← e]; exact (Int.toNat_of_nonneg (hb 1).1)
      rw [hw, hs0] at e0
      rw [hw, hs1] at e1
      constructor <;> omega
    · cases h
  · rintro ⟨h0, h1⟩
    have hb : ∀ a, 0 ≤ (pointDims N C E wf).start j idx a + (pointDims N C E wf).window j a ∧
        (pointDims N C E wf).start j idx a + (pointDims N C E wf).window j a < (⟨2, ![N, C]⟩ : Shape).size a := by
      refine Fin.forall_fin_two.2 ⟨?_, ?_⟩
      · rw [hw, hs0, h0]; have := (i 0).isLt; constructor <;> omega
      · rw [hw, hs1, h1]; have := (i 1).isLt; constructor <;> omega
    rw [dif_pos hb]
    congr 1
    funext a; refine Fin.ext ?_
    revert a
    refine Fin.forall_fin_two.2 ⟨?_, ?_⟩
    · show ((pointDims N C E wf).start j idx 0 + (pointDims N C E wf).window j 0).toNat = (i 0).val
      rw [hw, hs0, h0]; omega
    · show ((pointDims N C E wf).start j idx 1 + (pointDims N C E wf).window j 1).toNat = (i 1).val
      rw [hw, hs1, h1]; omega

/-- The table `zeros.at[r, c].set(c)` with constant operand `z` and constant update `c`, at an entry: `c` when some
    update's (row, column), read signed, is the entry's, and `z` otherwise — stated as: two such tables, of possibly
    different widths and from possibly different scatter indices, agree at entries with the same coordinates whenever
    the two index arrays name these coordinates for the same updates. -/
theorem point_scatter_congr {α : Type} {N C C' E w : Nat}
    (wf : ScatterDims.WF ⟨2, ![N, C]⟩ ⟨2, ![E, 2]⟩ ⟨1, ![E]⟩ [] [0, 1] [0, 1] 1)
    (wf' : ScatterDims.WF ⟨2, ![N, C']⟩ ⟨2, ![E, 2]⟩ ⟨1, ![E]⟩ [] [0, 1] [0, 1] 1)
    (z c : α) (idx idx' : IVec ⟨2, ![E, 2]⟩ w) (i : (⟨2, ![N, C]⟩ : Shape).Idx) (i' : (⟨2, ![N, C']⟩ : Shape).Idx)
    (hi0 : (i 0).val = (i' 0).val) (hi1 : (i 1).val = (i' 1).val)
    (hidx : ∀ e : Fin E, ((idx (ValueIdx.ix2 e (0 : Fin 2))).toInt = ((i 0).val : Int) ∧
        (idx (ValueIdx.ix2 e (1 : Fin 2))).toInt = ((i 1).val : Int)) ↔
      ((idx' (ValueIdx.ix2 e (0 : Fin 2))).toInt = ((i 0).val : Int) ∧
        (idx' (ValueIdx.ix2 e (1 : Fin 2))).toInt = ((i 1).val : Int))) :
    Host.scatter (pointDims N C E wf) (fun _ b => b) (fun _ => z) idx (fun _ => c) i
      = Host.scatter (pointDims N C' E wf') (fun _ b => b) (fun _ => z) idx' (fun _ => c) i' := by
  refine scatter_const_congr _ _ z c idx idx' i i' ?_
  constructor
  · rintro ⟨j, hj⟩
    refine ⟨j, (pointDims_resultIdx?_iff wf' idx' j i').2 ?_⟩
    rw [← hi0, ← hi1]
    exact (hidx (j 0)).1 ((pointDims_resultIdx?_iff wf idx j i).1 hj)
  · rintro ⟨j, hj⟩
    refine ⟨j, (pointDims_resultIdx?_iff wf idx j i).2 ?_⟩
    have := (pointDims_resultIdx?_iff wf' idx' j i').1 hj
    rw [← hi0, ← hi1] at this
    exact (hidx (j 0)).2 this

end Cert.LibScatterConst

end
-- ==== Proof.LibGatherRows.lean ====
/-
  A row gather read at an entry.

  What x[idx] of an [N, C] array x at a vector of R row numbers lowers to: a gather with offset axis 1, collapsed
  slice axis 0, start index map [0], the index vector on axis 1 of the start indices [R, 1], and slices of size
  [1, C]. Its entry (e, j) is x at row (the start index idx (e, 0), read as a signed integer and clamped into
  [0, N - 1]) and column j. So the result is x with rows picked by a function of the start indices alone; in
  particular a gather of this kind commutes with every operation that acts on each row separately. The extents
  N, R, C and the element type are arbitrary.
-/
import Idealize.ShloMosaic.PureOps.Ideal
import Idealize.ShloMosaic.Lib.ValueIdx

noncomputable section

namespace Idealize.ShloMosaic.GatherRows

open Idealize.ShloMosaic Idealize.ShloMosaic.ValueIdx

variable {α : Type}

/-- The dimension numbers of a row gather, for an operand [N, C], start indices [R, 1] and a result [R, C]; their
    conditions are decided on a program's literal shapes. -/
abbrev rowDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The operand row that result row e reads: the start index, signed, clamped into [0, N - 1]. -/
def rowOf {N R w : Nat} (hN : 0 < N) (idx : IVec ⟨2, ![R, 1]⟩ w) (e : Fin R) : Fin N :=
  ⟨min (idx (ix2 e (0 : Fin 1))).toInt.toNat (N - 1), by omega⟩

/-- The row gather at (e, j): the operand at the clamped start row and column j. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (j : Fin C) :
    Host.gather (rowDims N R C wf) x idx (ix2 e j) = x (ix2 (rowOf hN idx e) j) := by
  unfold Host.gather
  congr 1
  funext a
  refine Fin.ext ?_
  match a with
  | ⟨0, _⟩ =>
    show (rowDims N R C wf).start (ix2 e j) idx 0 + (rowDims N R C wf).batchCoord (ix2 e j) 0
      + (rowDims N R C wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 e j) ⟨List.idxOf (0 : Fin 2) (rowDims N R C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N R C wf).start (ix2 e j) idx 1 + (rowDims N R C wf).batchCoord (ix2 e j) 1
      + (rowDims N R C wf).offCoord (ix2 e j) 1 = j.val
    rw [GatherDims.batchCoord_eq_zero _ _ _ List.not_mem_nil]
    unfold GatherDims.start
    rw [dif_neg (show (1 : Fin 2) ∉ (rowDims N R C wf).startIndexMap from
      (show (1 : Fin 2) ∉ ([0] : List (Fin 2)) by decide))]
    unfold GatherDims.offCoord
    rw [dif_pos (show (1 : Fin 2) ∈ (rowDims N R C wf).sKept from
      (GatherDims.mem_sKept _ _).mpr ⟨(show (1 : Fin 2) ∉ ([0] : List (Fin 2)) by decide), List.not_mem_nil⟩)]
    have hval : ∀ k : Fin 2, k = 1 → ((ix2 e j k : Fin _) : Nat) = j.val := by rintro _ rfl; rfl
    rw [hval _ (List.getElem_singleton _)]
    omega

/-- The whole result: the operand's rows picked by the clamped start indices. -/
theorem gather_rows {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) :
    Host.gather (rowDims N R C wf) x idx = fun i => x (ix2 (rowOf hN idx (i 0)) (i 1)) := by
  funext i
  obtain ⟨e, j, rfl⟩ : ∃ (e : Fin R) (j : Fin C), i = ix2 e j := ⟨i 0, i 1, eq_ix2 i⟩
  exact gather_rows_apply hN wf x idx e j

end Idealize.ShloMosaic.GatherRows

end
-- ==== Proof.IntSide.lean ====
/-
  The integer side of the two programs: the 0/1 table built by a scatter of ones into zeros, the two row gathers and
  the one-hot array. The kernel builds the table 19456 columns wide, the reference 19000 columns wide, from the same
  integer arguments; on the first 19000 columns the gathered rows agree entry by entry when no protein index is
  negative, the one-hot arrays agree entry by entry, and every entry of all of them is 0 or 1.
-/
import proofs.«148840_j45294725103836_2_alg».proof.Proof.Gen.KernelIdeal.Frame.Runs
import proofs.«148840_j45294725103836_2_alg».proof.Proof.RefReadP
import Idealize.ShloMosaic.PureOps.Ideal.Laws
import Idealize.ShloMosaic.Lib.ValueIdx
import Idealize.ShloMosaic.Lib.Pipeline.Value
import proofs.«148840_j45294725103836_2_alg».proof.Proof.LibTypedRefs
import proofs.«148840_j45294725103836_2_alg».proof.Proof.LibHostPieces
import proofs.«148840_j45294725103836_2_alg».proof.Proof.LibScatterConst
import proofs.«148840_j45294725103836_2_alg».proof.Proof.LibGatherRows

noncomputable section

namespace Cert.IntSide

open Idealize.ShloMosaic Idealize.ShloMosaic.TcCoe Idealize.SL.Sem
open Idealize.ShloMosaic.ValueIdx Idealize.ShloMosaic.GatherRows Cert.LibScatterConst
open Cert.KernelIdeal Cert.KernelIdeal.Gen

/-! ## The kernel's host terms -/

/-- The kernel's scatter indices [40000, 2]: the drug column normalised by +4000, the protein column by +19456. -/
def idxK (dd dpr : IVec S40000 32) : IVec S40000x2 32 :=
  concatenate S40000x2 1
    [⟨S40000x1, broadcastInDim S40000x1 ![0] bcast_S40000_S40000x1_0
        (select (cmpi .slt dd (broadcastInDim S40000 ![] bcast_S_S40000 (constantI S_ 32 0#32)))
          (addi dd (broadcastInDim S40000 ![] bcast_S_S40000 (constantI S_ 32 4000#32))) dd)⟩,
     ⟨S40000x1, broadcastInDim S40000x1 ![0] bcast_S40000_S40000x1_0
        (select (cmpi .slt dpr (broadcastInDim S40000 ![] bcast_S_S40000 (constantI S_ 32 0#32)))
          (addi dpr (broadcastInDim S40000 ![] bcast_S_S40000 (constantI S_ 32 19456#32))) dpr)⟩]
    concatenates_S40000x1_S40000x1_S40000x2_d1

/-- The kernel's table [4000, 19456]: ones scattered into zeros at the scatter indices. -/
def tableK (dd dpr : IVec S40000 32) : S4000x19456.Idx → EReal :=
  Host.scatter scatter_S4000x19456_S40000x2_S40000_n_01_01_1 (fun _ b => b)
    (broadcastInDim S4000x19456 ![] bcast_S_S4000x19456 (constant (F := Ideal) S_ .bf16 0x0000#16))
    (idxK dd dpr)
    (broadcastInDim S40000 ![] bcast_S_S40000 (constant (F := Ideal) S_ .bf16 0x3F80#16))

/-- Column 0 of the drug pairs, normalised by +4000, as start indices [4096, 1]. -/
def rowK0 (dp : IVec S4096x2 32) : IVec S4096x1 32 :=
  broadcastInDim S4096x1 ![0] bcast_S4096_S4096x1_0
    (select
      (cmpi .slt (fun i => shapeCast S4096 (extractStridedSlice S4096x1 ![0, 0] dp slices_S4096x2_S4096x1_0_0) shapeCasts_S4096x1_S4096 i)
        (broadcastInDim S4096 ![] bcast_S_S4096 (constantI S_ 32 0#32)))
      (addi (fun i => shapeCast S4096 (extractStridedSlice S4096x1 ![0, 0] dp slices_S4096x2_S4096x1_0_0) shapeCasts_S4096x1_S4096 i)
        (broadcastInDim S4096 ![] bcast_S_S4096 (constantI S_ 32 4000#32)))
      (fun i => shapeCast S4096 (extractStridedSlice S4096x1 ![0, 0] dp slices_S4096x2_S4096x1_0_0) shapeCasts_S4096x1_S4096 i))

/-- Column 1 of the drug pairs, normalised by +4000, as start indices [4096, 1]. -/
def rowK1 (dp : IVec S4096x2 32) : IVec S4096x1 32 :=
  broadcastInDim S4096x1 ![0] bcast_S4096_S4096x1_0
    (select
      (cmpi .slt (fun i => shapeCast S4096 (extractStridedSlice S4096x1 ![0, 1] dp slices_S4096x2_S4096x1_0_1) shapeCasts_S4096x1_S4096 i)
        (broadcastInDim S4096 ![] bcast_S_S4096 (constantI S_ 32 0#32)))
      (addi (fun i => shapeCast S4096 (extractStridedSlice S4096x1 ![0, 1] dp slices_S4096x2_S4096x1_0_1) shapeCasts_S4096x1_S4096 i)
        (broadcastInDim S4096 ![] bcast_S_S4096 (constantI S_ 32 4000#32)))
      (fun i => shapeCast S4096 (extractStridedSlice S4096x1 ![0, 1] dp slices_S4096x2_S4096x1_0_1) shapeCasts_S4096x1_S4096 i))

/-- The kernel's first gathered rows [4096, 19456]. -/
def prot1K (dp : IVec S4096x2 32) (dd dpr : IVec S40000 32) : S4096x19456.Idx → EReal :=
  Host.gather gather_S4000x19456_S4096x1_S4096x19456_1_0_n_n_0_1_119456 (tableK dd dpr) (rowK0 dp)

/-- The kernel's second gathered rows [4096, 19456]. -/
def prot2K (dp : IVec S4096x2 32) (dd dpr : IVec S40000 32) : S4096x19456.Idx → EReal :=
  Host.gather gather_S4000x19456_S4096x1_S4096x19456_1_0_n_n_0_1_119456 (tableK dd dpr) (rowK1 dp)

/-- The kernel's one-hot array [4096, 16]: the cell line compared with the column number, the bit read as a float. -/
def onehotK (cl : IVec S4096 32) : S4096x16.Idx → EReal :=
  uitofp (F := Ideal) .bf16
    (cmpi .eq
      (broadcastInDim S4096x16 ![0, 1] bcast_S4096x1_S4096x16_0_1 (broadcastInDim S4096x1 ![0] bcast_S4096_S4096x1_0 cl))
      (broadcastInDim S4096x16 ![0, 1] bcast_S1x16_S4096x16_0_1 (iotaInDim S1x16 32 1)))

/-- The rewriting loop of the results of a line of host operations, without its opening unfolding step. -/
macro "results_rw" : tactic =>
  `(tactic| repeat (first
      | rw [Idealize.ShloMosaic.StableHlo.nullary_result] | rw [Idealize.ShloMosaic.StableHlo.unary_result]
      | rw [Idealize.ShloMosaic.StableHlo.binary_result] | rw [Idealize.ShloMosaic.StableHlo.ternary_result]
      | rw [Idealize.ShloMosaic.StableHlo.reshape_result]
      | (rw [Idealize.ShloMosaic.StableHlo.nullary_result_ne]; rotate_left; decide)
      | (rw [Idealize.ShloMosaic.StableHlo.unary_result_ne]; rotate_left; decide)
      | (rw [Idealize.ShloMosaic.StableHlo.binary_result_ne]; rotate_left; decide)
      | (rw [Idealize.ShloMosaic.StableHlo.ternary_result_ne]; rotate_left; decide)
      | (rw [Idealize.ShloMosaic.StableHlo.reshape_result_ne]; rotate_left; decide)))

/-! ## What the region finds in its first three windows -/

section Windows

variable (m : (ℓ : Loc nD τ sig) → Buf (Elt Ideal) ℓ) (c : Dev nD)

set_option maxHeartbeats 4000000 in
/-- Window 0 (the first gathered rows) as the region finds it. -/
theorem V_win0 : (Gen.V m c (Pipeline.arrRef spec0 0) : S4096x19456.Idx → EReal)
    = prot1K (m ((c : Thread nD τ).loc main_arg0)) (m ((c : Thread nD τ).loc main_arg2)) (m ((c : Thread nD τ).loc main_arg3)) := by
  dsimp only [Gen.V]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  results_rw
  rfl

set_option maxHeartbeats 4000000 in
/-- Window 1 (the second gathered rows) as the region finds it. -/
theorem V_win1 : (Gen.V m c (Pipeline.arrRef spec0 1) : S4096x19456.Idx → EReal)
    = prot2K (m ((c : Thread nD τ).loc main_arg0)) (m ((c : Thread nD τ).loc main_arg2)) (m ((c : Thread nD τ).loc main_arg3)) := by
  dsimp only [Gen.V]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  results_rw
  rfl

set_option maxHeartbeats 4000000 in
/-- Window 2 (the one-hot array) as the region finds it. -/
theorem V_win2 : (Gen.V m c (Pipeline.arrRef spec0 2) : S4096x16.Idx → EReal)
    = onehotK (m ((c : Thread nD τ).loc main_arg1)) := by
  dsimp only [Gen.V]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  results_rw
  simp only [Idealize.ShloMosaic.HostPieces.ofBuf_toBuf]
  rfl

end Windows

/-! ## Words and bits -/

/-- The f32 word of 1.0 is 1. -/
theorem word_one_f32 : Ideal.ofBits .f32 0x3F800000#32 = (1 : EReal) := by
  simp [Ideal.ofBits, Ideal.ieee, -EReal.coe_mul]; norm_num
/-- The bf16 word of 1.0 is 1. -/
theorem word_one_bf16 : Ideal.ofBits .bf16 0x3F80#16 = (1 : EReal) := by
  simp [Ideal.ofBits, Ideal.ieee, -EReal.coe_mul]; norm_num
/-- The f32 word of +0.0 is 0. -/
theorem word_zero_f32 : Ideal.ofBits .f32 0x00000000#32 = (0 : EReal) := by
  simp [Ideal.ofBits, Ideal.ieee]
/-- The bf16 word of +0.0 is 0. -/
theorem word_zero_bf16 : Ideal.ofBits .bf16 0x0000#16 = (0 : EReal) := by
  simp [Ideal.ofBits, Ideal.ieee]

/-- A one-bit word read unsigned as a float is 0 or 1, in any format. -/
theorem uitofp_bit (φ : FTy) (b : BitVec 1) :
    FloatOps.uitofp (F := Ideal) φ b = (0 : EReal) ∨ FloatOps.uitofp (F := Ideal) φ b = (1 : EReal) := by
  have : b = 0#1 ∨ b = 1#1 := by
    have := b.isLt; rcases (show b.toNat = 0 ∨ b.toNat = 1 by omega) with h | h
    · left; exact BitVec.eq_of_toNat_eq h
    · right; exact BitVec.eq_of_toNat_eq h
  rcases this with rfl | rfl
  · left; show (((0#1 : BitVec 1).toNat : ℝ) : EReal) = 0; simp
  · right; show (((1#1 : BitVec 1).toNat : ℝ) : EReal) = 1; simp

/-- The normalisation `x < 0 ? x + N : x` of an index leaves a non-negative index unchanged. -/
theorem norm_nonneg (x N : BitVec 32) (h : 0 ≤ x.toInt) :
    Scalar.select (IntOp.cmpi .slt x 0#32) (IntOp.addi x N) x = x := by
  have hs : x.slt 0#32 = false := by
    rw [BitVec.slt]; simp; omega
  unfold Scalar.select IntOp.cmpi
  simp [hs]

/-! ## Columns joined, rows gathered -/

/-- A vector broadcast to a column, read at a row. -/
theorem bcast_col_apply {α : Type} {E : Nat} (hE : E ≠ 1) (x : (⟨1, ![E]⟩ : Shape).Idx → α)
    (hb : (⟨1, ![E]⟩ : Shape).BroadcastsInDim ⟨2, ![E, 1]⟩ ![0]) (e : Fin E) :
    broadcastInDim ⟨2, ![E, 1]⟩ ![0] hb x (ix2 e (0 : Fin 1)) = x (ix1 e) :=
  broadcastInDim_apply _ hb x _ (ix1 e) (fun a => match a with
    | ⟨0, _⟩ => by show e.val = if E = 1 then 0 else e.val; rw [if_neg hE])

/-- Two columns joined side by side, read in the first column. -/
theorem concat_cols_left {α : Type} {E : Nat} (x y : (⟨2, ![E, 1]⟩ : Shape).Idx → α)
    (hc : Shape.Concatenates [(⟨2, ![E, 1]⟩ : Shape), ⟨2, ![E, 1]⟩] ⟨2, ![E, 2]⟩ 1) (e : Fin E) :
    concatenate ⟨2, ![E, 2]⟩ 1 [⟨⟨2, ![E, 1]⟩, x⟩, ⟨⟨2, ![E, 1]⟩, y⟩] hc (ix2 e (0 : Fin 2)) = x (ix2 e (0 : Fin 1)) :=
  concatenate_pair_apply_left (1 : Fin 2) x y hc (ix2 e (0 : Fin 2)) rfl (ix2 e (0 : Fin 1))
    (fun b => match b with | ⟨0, _⟩ => rfl | ⟨1, _⟩ => rfl)

/-- Two columns joined side by side, read in the second column. -/
theorem concat_cols_right {α : Type} {E : Nat} (x y : (⟨2, ![E, 1]⟩ : Shape).Idx → α)
    (hc : Shape.Concatenates [(⟨2, ![E, 1]⟩ : Shape), ⟨2, ![E, 1]⟩] ⟨2, ![E, 2]⟩ 1) (e : Fin E) :
    concatenate ⟨2, ![E, 2]⟩ 1 [⟨⟨2, ![E, 1]⟩, x⟩, ⟨⟨2, ![E, 1]⟩, y⟩] hc (ix2 e (1 : Fin 2)) = y (ix2 e (0 : Fin 1)) :=
  concatenate_pair_apply_right (1 : Fin 2) x y hc (ix2 e (1 : Fin 2)) rfl rfl (ix2 e (0 : Fin 1))
    (fun b hb => match b, hb with | ⟨0, _⟩, _ => rfl | ⟨1, _⟩, hb => absurd rfl hb) rfl

/-- Row `b` of a table `zeros.at[r, c].set(v)` of width C' gathered at the start rows `row`, read at a column `q`
    below C ≤ C', is the same entry of the table of width C built from scatter indices that agree entry by entry. -/
theorem gather_table_cross {α : Type} {N R C C' E w w' : Nat} (hN : 0 < N) (hC : C ≤ C') (z c : α)
    (wfS : ScatterDims.WF ⟨2, ![N, C]⟩ ⟨2, ![E, 2]⟩ ⟨1, ![E]⟩ [] [0, 1] [0, 1] 1)
    (wfS' : ScatterDims.WF ⟨2, ![N, C']⟩ ⟨2, ![E, 2]⟩ ⟨1, ![E]⟩ [] [0, 1] [0, 1] 1)
    (wfG : GatherDims.WF ⟨2, ![N, C]⟩ ⟨2, ![R, 1]⟩ ⟨2, ![R, C]⟩ [1] [0] [] [0] [] 1 ![1, C])
    (wfG' : GatherDims.WF ⟨2, ![N, C']⟩ ⟨2, ![R, 1]⟩ ⟨2, ![R, C']⟩ [1] [0] [] [0] [] 1 ![1, C'])
    (idx idx' : IVec ⟨2, ![E, 2]⟩ w) (row : IVec ⟨2, ![R, 1]⟩ w')
    (h0 : ∀ e : Fin E, idx' (ix2 e (0 : Fin 2)) = idx (ix2 e (0 : Fin 2)))
    (h1 : ∀ e : Fin E, idx' (ix2 e (1 : Fin 2)) = idx (ix2 e (1 : Fin 2)))
    (b : Fin R) (q : Fin C) :
    Host.gather (rowDims N R C' wfG') (Host.scatter (pointDims N C' E wfS') (fun _ b => b) (fun _ => z) idx' (fun _ => c)) row
        (ix2 b (⟨q.val, lt_of_lt_of_le q.isLt hC⟩ : Fin C'))
      = Host.gather (rowDims N R C wfG) (Host.scatter (pointDims N C E wfS) (fun _ b => b) (fun _ => z) idx (fun _ => c)) row
        (ix2 b q) := by
  rw [gather_rows_apply hN wfG', gather_rows_apply hN wfG]
  refine point_scatter_congr wfS' wfS z c idx' idx _ _ rfl rfl (fun e => ?_)
  rw [h0 e, h1 e]

/-- A property of every entry of the operand is a property of every entry of a row gather. -/
theorem gather_rows_forall {α : Type} {N R C w : Nat} (hN : 0 < N) (P : α → Prop)
    (wfG : GatherDims.WF ⟨2, ![N, C]⟩ ⟨2, ![R, 1]⟩ ⟨2, ![R, C]⟩ [1] [0] [] [0] [] 1 ![1, C])
    (x : (⟨2, ![N, C]⟩ : Shape).Idx → α) (row : IVec ⟨2, ![R, 1]⟩ w) (hx : ∀ i, P (x i)) (i : (⟨2, ![R, C]⟩ : Shape).Idx) :
    P (Host.gather (rowDims N R C wfG) x row i) := by
  rw [gather_rows hN wfG]; exact hx _

/-! ## The two programs side by side -/

section Cross

open Cert.ReferenceIdeal.ReadP

variable (dp : IVec S4096x2 32) (cl : IVec S4096 32) (dd dpr : IVec S40000 32)

/-- The kernel's scatter indices, drug column: the normalised drug index. -/
theorem idxK_col0 (e : Fin 40000) : idxK dd dpr (ix2 e (0 : Fin 2))
    = Scalar.select (IntOp.cmpi .slt (dd (ix1 e)) 0#32) (IntOp.addi (dd (ix1 e)) 4000#32) (dd (ix1 e)) := by
  unfold idxK
  rw [concat_cols_left (E := 40000), bcast_col_apply (E := 40000) (by decide)]
  rfl

/-- The kernel's scatter indices, protein column: the protein index normalised by +19456. -/
theorem idxK_col1 (e : Fin 40000) : idxK dd dpr (ix2 e (1 : Fin 2))
    = Scalar.select (IntOp.cmpi .slt (dpr (ix1 e)) 0#32) (IntOp.addi (dpr (ix1 e)) 19456#32) (dpr (ix1 e)) := by
  unfold idxK
  rw [concat_cols_right (E := 40000), bcast_col_apply (E := 40000) (by decide)]
  rfl

/-- The reference's scatter indices, drug column: the normalised drug index. -/
theorem idxR_col0 (e : Fin 40000) : val_main_v13 (F := Ideal) dd dpr (ix2 e (0 : Fin 2))
    = Scalar.select (IntOp.cmpi .slt (dd (ix1 e)) 0#32) (IntOp.addi (dd (ix1 e)) 4000#32) (dd (ix1 e)) := by
  unfold val_main_v13 val_main_v11
  rw [concat_cols_left (E := 40000), bcast_col_apply (E := 40000) (by decide)]
  rfl

/-- The reference's scatter indices, protein column: the protein index normalised by +19000. -/
theorem idxR_col1 (e : Fin 40000) : val_main_v13 (F := Ideal) dd dpr (ix2 e (1 : Fin 2))
    = Scalar.select (IntOp.cmpi .slt (dpr (ix1 e)) 0#32) (IntOp.addi (dpr (ix1 e)) 19000#32) (dpr (ix1 e)) := by
  unfold val_main_v13 val_main_v12
  rw [concat_cols_right (E := 40000), bcast_col_apply (E := 40000) (by decide)]
  rfl

/-- The kernel's table is a scatter of the constant 1 into the constant 0. -/
theorem tableK_eq : tableK dd dpr = Host.scatter (pointDims 4000 19456 40000 Cert.KernelIdeal.Facts₀.scatter_S4000x19456_S40000x2_S40000_n_01_01_1_wf)
    (fun _ b => b) (fun _ => (0 : EReal)) (idxK dd dpr) (fun _ => (1 : EReal)) := by
  unfold tableK
  have hz : (broadcastInDim S4000x19456 ![] bcast_S_S4000x19456 (constant (F := Ideal) S_ .bf16 0x0000#16)) = fun _ => (0 : EReal) :=
    funext fun _ => word_zero_bf16
  have ho : (broadcastInDim S40000 ![] bcast_S_S40000 (constant (F := Ideal) S_ .bf16 0x3F80#16)) = fun _ => (1 : EReal) :=
    funext fun _ => word_one_bf16
  rw [hz, ho]
  rfl

/-- The reference's table is a scatter of the constant 1 into the constant 0. -/
theorem tableR_eq : val_main_v15 (F := Ideal) dd dpr
    = Host.scatter (pointDims 4000 19000 40000 Cert.ReferenceIdeal.Facts₀.scatter_S4000x19000_S40000x2_S40000_n_01_01_1_wf)
      (fun _ b => b) (fun _ => (0 : EReal)) (val_main_v13 (F := Ideal) dd dpr) (fun _ => (1 : EReal)) := by
  unfold val_main_v15
  have hz : (val_main_v0 (F := Ideal)) = fun _ => (0 : EReal) := funext fun _ => word_zero_f32
  have ho : (val_main_v14 (F := Ideal)) = fun _ => (1 : EReal) := funext fun _ => word_one_f32
  rw [hz, ho]
  rfl

/-- T1. On the first 19000 columns the kernel's first gathered rows are the reference's, when no protein index is negative. -/
theorem prot1_agree (hpos : ∀ e : Fin 40000, 0 ≤ (dpr (ix1 e)).toInt) (b : Fin 4096) (q : Fin 19000) :
    prot1K dp dd dpr (ix2 b (⟨q.val, lt_of_lt_of_le q.isLt (by decide)⟩ : Fin 19456))
      = val_main_v24 (F := Ideal) dp dd dpr (ix2 b q) := by
  have hrow : rowK0 dp = val_main_v23 (F := Ideal) dp := rfl
  unfold prot1K val_main_v24
  rw [tableK_eq, tableR_eq, hrow]
  exact gather_table_cross (N := 4000) (R := 4096) (C := 19000) (C' := 19456) (E := 40000) (by decide) (by decide) (0 : EReal) 1
    Cert.ReferenceIdeal.Facts₀.scatter_S4000x19000_S40000x2_S40000_n_01_01_1_wf
    Cert.KernelIdeal.Facts₀.scatter_S4000x19456_S40000x2_S40000_n_01_01_1_wf
    Cert.ReferenceIdeal.Facts₀.gather_S4000x19000_S4096x1_S4096x19000_1_0_n_n_0_1_119000_wf
    Cert.KernelIdeal.Facts₀.gather_S4000x19456_S4096x1_S4096x19456_1_0_n_n_0_1_119456_wf
    (val_main_v13 (F := Ideal) dd dpr) (idxK dd dpr) (val_main_v23 (F := Ideal) dp)
    (fun e => by rw [idxK_col0, idxR_col0])
    (fun e => by rw [idxK_col1, idxR_col1, norm_nonneg _ _ (hpos e), norm_nonneg _ _ (hpos e)])
    b q

/-- T2. The same for the second gathered rows. -/
theorem prot2_agree (hpos : ∀ e : Fin 40000, 0 ≤ (dpr (ix1 e)).toInt) (b : Fin 4096) (q : Fin 19000) :
    prot2K dp dd dpr (ix2 b (⟨q.val, lt_of_lt_of_le q.isLt (by decide)⟩ : Fin 19456))
      = val_main_v33 (F := Ideal) dp dd dpr (ix2 b q) := by
  have hrow : rowK1 dp = val_main_v32 (F := Ideal) dp := rfl
  unfold prot2K val_main_v33
  rw [tableK_eq, tableR_eq, hrow]
  exact gather_table_cross (N := 4000) (R := 4096) (C := 19000) (C' := 19456) (E := 40000) (by decide) (by decide) (0 : EReal) 1
    Cert.ReferenceIdeal.Facts₀.scatter_S4000x19000_S40000x2_S40000_n_01_01_1_wf
    Cert.KernelIdeal.Facts₀.scatter_S4000x19456_S40000x2_S40000_n_01_01_1_wf
    Cert.ReferenceIdeal.Facts₀.gather_S4000x19000_S4096x1_S4096x19000_1_0_n_n_0_1_119000_wf
    Cert.KernelIdeal.Facts₀.gather_S4000x19456_S4096x1_S4096x19456_1_0_n_n_0_1_119456_wf
    (val_main_v13 (F := Ideal) dd dpr) (idxK dd dpr) (val_main_v32 (F := Ideal) dp)
    (fun e => by rw [idxK_col0, idxR_col0])
    (fun e => by rw [idxK_col1, idxR_col1, norm_nonneg _ _ (hpos e), norm_nonneg _ _ (hpos e)])
    b q

/-- T3. The kernel's one-hot array is the reference's. -/
theorem onehot_agree : onehotK cl = val_main_v34 (F := Ideal) cl := rfl

/-- T4. Every entry of the kernel's table is 0 or 1. -/
theorem tableK_01 (i : S4000x19456.Idx) : tableK dd dpr i = 0 ∨ tableK dd dpr i = 1 := by
  rw [tableK_eq]; exact scatter_const_cases _ _ _ _ _

/-- T4. Every entry of the reference's table is 0 or 1. -/
theorem tableR_01 (i : Cert.ReferenceIdeal.S4000x19000.Idx) :
    val_main_v15 (F := Ideal) dd dpr i = 0 ∨ val_main_v15 (F := Ideal) dd dpr i = 1 := by
  rw [tableR_eq]; exact scatter_const_cases _ _ _ _ _

/-- T4. Every entry of the kernel's first gathered rows is 0 or 1. -/
theorem prot1K_01 (i : S4096x19456.Idx) : prot1K dp dd dpr i = 0 ∨ prot1K dp dd dpr i = 1 :=
  gather_rows_forall (N := 4000) (R := 4096) (C := 19456) (by decide) (fun v : EReal => v = 0 ∨ v = 1)
    Cert.KernelIdeal.Facts₀.gather_S4000x19456_S4096x1_S4096x19456_1_0_n_n_0_1_119456_wf (tableK dd dpr) (rowK0 dp) (tableK_01 dd dpr) i

/-- T4. Every entry of the kernel's second gathered rows is 0 or 1. -/
theorem prot2K_01 (i : S4096x19456.Idx) : prot2K dp dd dpr i = 0 ∨ prot2K dp dd dpr i = 1 :=
  gather_rows_forall (N := 4000) (R := 4096) (C := 19456) (by decide) (fun v : EReal => v = 0 ∨ v = 1)
    Cert.KernelIdeal.Facts₀.gather_S4000x19456_S4096x1_S4096x19456_1_0_n_n_0_1_119456_wf (tableK dd dpr) (rowK1 dp) (tableK_01 dd dpr) i

/-- T4. Every entry of the reference's first gathered rows is 0 or 1. -/
theorem prot1R_01 (i : Cert.ReferenceIdeal.S4096x19000.Idx) :
    val_main_v24 (F := Ideal) dp dd dpr i = 0 ∨ val_main_v24 (F := Ideal) dp dd dpr i = 1 :=
  gather_rows_forall (N := 4000) (R := 4096) (C := 19000) (by decide) (fun v : EReal => v = 0 ∨ v = 1)
    Cert.ReferenceIdeal.Facts₀.gather_S4000x19000_S4096x1_S4096x19000_1_0_n_n_0_1_119000_wf (val_main_v15 (F := Ideal) dd dpr)
    (val_main_v23 (F := Ideal) dp) (tableR_01 dd dpr) i

/-- T4. Every entry of the reference's second gathered rows is 0 or 1. -/
theorem prot2R_01 (i : Cert.ReferenceIdeal.S4096x19000.Idx) :
    val_main_v33 (F := Ideal) dp dd dpr i = 0 ∨ val_main_v33 (F := Ideal) dp dd dpr i = 1 :=
  gather_rows_forall (N := 4000) (R := 4096) (C := 19000) (by decide) (fun v : EReal => v = 0 ∨ v = 1)
    Cert.ReferenceIdeal.Facts₀.gather_S4000x19000_S4096x1_S4096x19000_1_0_n_n_0_1_119000_wf (val_main_v15 (F := Ideal) dd dpr)
    (val_main_v32 (F := Ideal) dp) (tableR_01 dd dpr) i

/-- T4. Every entry of the kernel's one-hot array is 0 or 1. -/
theorem onehotK_01 (i : S4096x16.Idx) : onehotK cl i = 0 ∨ onehotK cl i = 1 := uitofp_bit _ _

/-- T4. Every entry of the reference's one-hot array is 0 or 1. -/
theorem onehotR_01 (i : Cert.ReferenceIdeal.S4096x16.Idx) :
    val_main_v34 (F := Ideal) cl i = 0 ∨ val_main_v34 (F := Ideal) cl i = 1 := uitofp_bit _ _

end Cross

/-! ## The statements over the region's windows -/

section Final

open Cert.ReferenceIdeal.ReadP

variable (m : (ℓ : Loc nD τ sig) → Buf (Elt Ideal) ℓ) (c : Dev nD)

/-- T1. Window 0 on its first 19000 columns is the reference's first gathered rows, when no protein index is negative. -/
theorem win0_agree
    (hpos : ∀ e : Fin 40000, 0 ≤ ((m ((c : Thread nD τ).loc main_arg3) : IVec S40000 32) (ix1 e)).toInt)
    (b : Fin 4096) (q : Fin 19000) :
    (Gen.V m c (Pipeline.arrRef spec0 0) : S4096x19456.Idx → EReal) (ix2 b (⟨q.val, lt_of_lt_of_le q.isLt (by decide)⟩ : Fin 19456))
      = val_main_v24 (F := Ideal) (m ((c : Thread nD τ).loc main_arg0)) (m ((c : Thread nD τ).loc main_arg2))
          (m ((c : Thread nD τ).loc main_arg3)) (ix2 b q) := by
  rw [V_win0]; exact prot1_agree _ _ _ hpos b q

/-- T2. Window 1 on its first 19000 columns is the reference's second gathered rows, when no protein index is negative. -/
theorem win1_agree
    (hpos : ∀ e : Fin 40000, 0 ≤ ((m ((c : Thread nD τ).loc main_arg3) : IVec S40000 32) (ix1 e)).toInt)
    (b : Fin 4096) (q : Fin 19000) :
    (Gen.V m c (Pipeline.arrRef spec0 1) : S4096x19456.Idx → EReal) (ix2 b (⟨q.val, lt_of_lt_of_le q.isLt (by decide)⟩ : Fin 19456))
      = val_main_v33 (F := Ideal) (m ((c : Thread nD τ).loc main_arg0)) (m ((c : Thread nD τ).loc main_arg2))
          (m ((c : Thread nD τ).loc main_arg3)) (ix2 b q) := by
  rw [V_win1]; exact prot2_agree _ _ _ hpos b q

/-- T3. Window 2 is the reference's one-hot array. -/
theorem win2_agree (b : Fin 4096) (k : Fin 16) :
    (Gen.V m c (Pipeline.arrRef spec0 2) : S4096x16.Idx → EReal) (ix2 b k)
      = val_main_v34 (F := Ideal) (m ((c : Thread nD τ).loc main_arg1)) (ix2 b k) := by
  rw [V_win2, onehot_agree]

/-- T4. Every entry of window 0 is 0 or 1. -/
theorem win0_01 (i : S4096x19456.Idx) :
    (Gen.V m c (Pipeline.arrRef spec0 0) : S4096x19456.Idx → EReal) i = (0 : EReal) ∨
      (Gen.V m c (Pipeline.arrRef spec0 0) : S4096x19456.Idx → EReal) i = (1 : EReal) := by
  rw [V_win0]; exact prot1K_01 _ _ _ i

/-- T4. Every entry of window 1 is 0 or 1. -/
theorem win1_01 (i : S4096x19456.Idx) :
    (Gen.V m c (Pipeline.arrRef spec0 1) : S4096x19456.Idx → EReal) i = (0 : EReal) ∨
      (Gen.V m c (Pipeline.arrRef spec0 1) : S4096x19456.Idx → EReal) i = (1 : EReal) := by
  rw [V_win1]; exact prot2K_01 _ _ _ i

/-- T4. Every entry of window 2 is 0 or 1. -/
theorem win2_01 (i : S4096x16.Idx) :
    (Gen.V m c (Pipeline.arrRef spec0 2) : S4096x16.Idx → EReal) i = (0 : EReal) ∨
      (Gen.V m c (Pipeline.arrRef spec0 2) : S4096x16.Idx → EReal) i = (1 : EReal) := by
  rw [V_win2]; exact onehotK_01 _ i

end Final

end Cert.IntSide
end
-- ==== Proof.LibFinite.lean ====
/-
  Finite extended reals. An extended real is FINITE when it is a real number. Sums, products, maxima and quotients
  by a non-zero divisor of finite values are finite, and on finite values multiplication distributes over addition
  (on the extended reals it does not in general: `⊤ * (1 + -1) = 0` but `⊤ * 1 + ⊤ * -1 = ⊥`). The last section
  states the two laws a "dense combine" step needs: a sum of products against a sum of two matrices splits into two
  sums of products, and the regrouping of six summands that carries a combined bias to the two summands it belongs to.
-/
import Idealize.ShloMosaic.PureOps.Ideal.Laws

noncomputable section

namespace Cert.LibFinite

open Idealize.ShloMosaic

/-- `x` is a real number (neither `⊤` nor `⊥`). -/
def IsFin (x : EReal) : Prop := ∃ r : ℝ, x = (r : EReal)

namespace IsFin

theorem coe (r : ℝ) : IsFin (r : EReal) := ⟨r, rfl⟩
theorem zero : IsFin (0 : EReal) := ⟨0, rfl⟩
theorem one : IsFin (1 : EReal) := ⟨1, rfl⟩

theorem add {x y : EReal} (hx : IsFin x) (hy : IsFin y) : IsFin (x + y) := by
  obtain ⟨a, rfl⟩ := hx; obtain ⟨b, rfl⟩ := hy
  exact ⟨a + b, (EReal.coe_add a b).symm⟩

theorem mul {x y : EReal} (hx : IsFin x) (hy : IsFin y) : IsFin (x * y) := by
  obtain ⟨a, rfl⟩ := hx; obtain ⟨b, rfl⟩ := hy
  exact ⟨a * b, (EReal.coe_mul a b).symm⟩

theorem max {x y : EReal} (hx : IsFin x) (hy : IsFin y) : IsFin (max x y) := by
  obtain ⟨a, rfl⟩ := hx; obtain ⟨b, rfl⟩ := hy
  rcases le_total a b with h | h
  · rw [max_eq_right (EReal.coe_le_coe_iff.mpr h)]; exact ⟨b, rfl⟩
  · rw [max_eq_left (EReal.coe_le_coe_iff.mpr h)]; exact ⟨a, rfl⟩

theorem sum {ι : Type} (s : Finset ι) (f : ι → EReal) (h : ∀ i ∈ s, IsFin (f i)) : IsFin (∑ i ∈ s, f i) :=
  Finset.sum_induction f IsFin (fun _ _ => add) zero h

/-- The quotient of the ideal instance by a finite non-zero divisor. -/
theorem div {x y : EReal} (hx : IsFin x) (hy : IsFin y) (h0 : y ≠ 0) : IsFin (Ideal.div x y) := by
  obtain ⟨a, rfl⟩ := hx; obtain ⟨b, rfl⟩ := hy
  unfold Ideal.div
  rw [if_neg h0, ← EReal.coe_inv, ← EReal.coe_mul]
  exact ⟨_, rfl⟩

/-- A maximum against one is not zero (the divisor of a mean over a count that may be zero). -/
theorem max_one_ne_zero (x : EReal) : Max.max x 1 ≠ 0 :=
  ne_of_gt (lt_of_lt_of_le zero_lt_one (le_max_right x 1))

end IsFin

/-! ## The laws on finite values -/

/-- On finite values multiplication distributes over addition. -/
theorem mul_add_of_fin {x a b : EReal} (hx : IsFin x) (ha : IsFin a) (hb : IsFin b) : x * (a + b) = x * a + x * b := by
  obtain ⟨x, rfl⟩ := hx; obtain ⟨a, rfl⟩ := ha; obtain ⟨b, rfl⟩ := hb
  rw [← EReal.coe_add, ← EReal.coe_mul, ← EReal.coe_mul, ← EReal.coe_mul, ← EReal.coe_add, mul_add]

/-- A sum of products against a sum of two families splits, all factors finite: row `x` against the column of
    `A + B` is row `x` against the column of `A` plus row `x` against the column of `B`. -/
theorem sum_mul_add {ι : Type} [Fintype ι] (x a b : ι → EReal) (hx : ∀ k, IsFin (x k)) (ha : ∀ k, IsFin (a k))
    (hb : ∀ k, IsFin (b k)) : ∑ k, x k * (a k + b k) = ∑ k, x k * a k + ∑ k, x k * b k := by
  rw [← Finset.sum_add_distrib]
  exact Finset.sum_congr rfl fun k _ => mul_add_of_fin (hx k) (ha k) (hb k)

/-- Six summands regrouped: the two aggregated terms `P`, `Q`, the two self terms `X₀`, `X₃` and the two biases, summed
    as "(P + Q) + (X₀ + X₃) + (b₀ + b₃)", are the sum of the two relations' own "(P + b₀) + X₀" and "(Q + b₃) + X₃".
    Addition of extended reals is commutative and associative everywhere, so no finiteness is needed. -/
theorem combine_regroup (P Q X₀ X₃ b₀ b₃ : EReal) :
    P + Q + (X₀ + X₃) + (b₀ + b₃) = (P + b₀ + X₀) + (Q + b₃ + X₃) := by
  abel

end Cert.LibFinite

end
-- ==== Proof.LibFinDecode.lean ====
/-
  "Every entry is finite", decoded from its printed test, over the extended reals.

  A precondition written `all(|x| < +∞)` prints as a reduction by `and` of the entrywise comparison of `|x|` with the
  f32 word of `+∞`. On the extended reals `|x| = max x (−x)`, and `max x (−x) < ⊤` rules out both infinities: what
  is left is a real number. Stated for one array of any shape reduced along any axes to a scalar, whatever evidence
  the program carries for the broadcast and the reduction.
-/
import proofs.«148840_j45294725103836_2_alg».proof.Proof.LibFinite
import Idealize.ShloMosaic.Lib.ReduceAll
import Idealize.ShloMosaic.Lib.Pipeline.Value
import Idealize.ShloMosaic.Lib.ValueIdx

noncomputable section

namespace Cert.LibFinDecode

open Idealize.ShloMosaic Idealize.ShloMosaic.ValueIdx Cert.LibFinite

/-- The scalar shape has one index. -/
instance : Subsingleton (⟨0, ![]⟩ : Shape).Idx := ⟨fun a b => funext fun d => d.elim0⟩

/-- The f32 word `0x7F800000` is `+∞`. -/
theorem word_inf : Ideal.ofBits .f32 0x7F800000#32 = ⊤ := by simp [Ideal.ofBits, Ideal.ieee]

/-- An extended real whose absolute value is below `+∞` is a real number. -/
theorem isFin_of_abs_lt (x : EReal) (h : Ideal.cmp .olt (max x (-x)) (Ideal.ofBits .f32 0x7F800000#32) = 1#1) : IsFin x := by
  rw [word_inf] at h
  induction x using EReal.rec with
  | bot => simp [Ideal.cmp] at h
  | coe r => exact ⟨r, rfl⟩
  | top => simp [Ideal.cmp] at h

/-- One array's conjunct: if "all entries are below +∞ in absolute value" evaluates to true, every entry is real. -/
theorem all_fin {s : Shape} {axes : List (Fin s.rank)} (x : FVec Ideal s .f32) (hb : (⟨0, ![]⟩ : Shape).BroadcastsInDim s ![])
    (hr : s.ReducesTo axes (⟨0, ![]⟩ : Shape)) (hu : 0 < (⟨0, ![]⟩ : Shape).numel)
    (e : Host.reduce IntOp.andi (cmpf .olt (Host.absf x) (broadcastInDim s ![] hb (constant (⟨0, ![]⟩ : Shape) .f32 0x7F800000#32)))
      (constantI (⟨0, ![]⟩ : Shape) 1 1#1) hr hu ix0 = 1#1) (i : s.Idx) : IsFin (x i) := by
  have h1 := Host.reduce_andi_all _ _ hr hu ix0 e i
  have h2 : broadcastInDim s ![] hb (constant (F := Ideal) (⟨0, ![]⟩ : Shape) .f32 0x7F800000#32) i = Ideal.ofBits .f32 0x7F800000#32 :=
    broadcastInDim_apply _ hb _ i ix0 (fun a => a.elim0)
  apply isFin_of_abs_lt
  rw [← h2]
  exact h1

end Cert.LibFinDecode

end
-- ==== Proof.PreDecode.lean ====
/-
  The precondition, decoded. The printed test is a conjunction of seven reductions by "and": for each of the six
  float arrays, "every entry is below +∞ in absolute value", and for the fourth integer array, "every entry is at
  least 0". If the conjunction evaluates to true, every entry of every float array is a real number and every entry
  of that integer array is nonnegative as a signed word. Stated first for arbitrary arrays, then for the argument
  arrays of a memory.
-/
import proofs.«148840_j45294725103836_2_alg».proof.Defs
import proofs.«148840_j45294725103836_2_alg».proof.Proof.Gen.Pre_finite_inputs
import proofs.«148840_j45294725103836_2_alg».proof.Proof.LibFinDecode

noncomputable section

namespace Cert.PreDecode

open Idealize.ShloMosaic Idealize.ShloMosaic.TcCoe Idealize.SL.Sem
open Idealize.ShloMosaic.ValueIdx Cert.LibFinite Cert.LibFinDecode Cert.Pre_finite_inputs

/-- The integer conjunct: "all entries are at least 0 (signed)" true means every entry's signed value is nonnegative. -/
theorem all_nonneg (x : IVec S40000 32) (hb : S_.BroadcastsInDim S40000 ![]) (hr : S40000.ReducesTo [0] S_) (hu : 0 < S_.numel)
    (e : Host.reduce IntOp.andi (cmpi .sge x (broadcastInDim S40000 ![] hb (constantI S_ 32 0#32))) (constantI S_ 1 1#1) hr hu ix0 = 1#1)
    (i : S40000.Idx) : 0 ≤ (x i).toInt := by
  have h1 := Host.reduce_andi_all _ _ hr hu ix0 e i
  have h2 : broadcastInDim S40000 ![] hb (constantI S_ 32 0#32) i = 0#32 :=
    broadcastInDim_apply _ hb _ i ix0 (fun a => a.elim0)
  have h3 : IntOp.cmpi .sge (x i) (broadcastInDim S40000 ![] hb (constantI S_ 32 0#32) i) = 1#1 := h1
  rw [h2] at h3
  have h4 := IntOp.cmpi_sge.1 h3
  simpa using h4

/-- The whole test decoded, for arbitrary arrays. -/
theorem fn_decode [Facts] (a0 : IVec S4096x2 32) (a1 : IVec S4096 32) (a2 a3 : IVec S40000 32)
    (a4 : FVec Ideal S2048x38032 .f32) (a5 : FVec Ideal S2048 .f32) (a6 : FVec Ideal S1024x2048 .f32)
    (a7 : FVec Ideal S1024 .f32) (a8 : FVec Ideal S1x1024 .f32) (a9 : FVec Ideal S1 .f32)
    (h : fn (F := Ideal) a0 a1 a2 a3 a4 a5 a6 a7 a8 a9 = fun _ => 1#1) :
    (∀ i, IsFin (a4 i)) ∧ (∀ i, IsFin (a5 i)) ∧ (∀ i, IsFin (a6 i)) ∧ (∀ i, IsFin (a7 i)) ∧ (∀ i, IsFin (a8 i))
      ∧ (∀ i, IsFin (a9 i)) ∧ (∀ i, 0 ≤ (a3 i).toInt) := by
  have h0 := congrFun h ix0
  dsimp only [fn, fn_part1] at h0
  obtain ⟨h28, h31⟩ := IntOp.andi_eq_one.1 h0
  obtain ⟨h23, h27⟩ := IntOp.andi_eq_one.1 h28
  obtain ⟨h18, h22⟩ := IntOp.andi_eq_one.1 h23
  obtain ⟨h13, h17⟩ := IntOp.andi_eq_one.1 h18
  obtain ⟨h8, h12⟩ := IntOp.andi_eq_one.1 h13
  obtain ⟨h3, h7⟩ := IntOp.andi_eq_one.1 h8
  exact ⟨all_fin a4 _ _ _ h3, all_fin a5 _ _ _ h7, all_fin a6 _ _ _ h12, all_fin a7 _ _ _ h17, all_fin a8 _ _ _ h22,
    all_fin a9 _ _ _ h27, all_nonneg a3 _ _ _ h31⟩

section mem

variable (m : (ℓ : Loc Cert.KernelIdeal.nD Cert.KernelIdeal.τ Cert.KernelIdeal.sig) → Buf (Elt Ideal) ℓ)

/-- The precondition of the idealized kernel's memory, decoded: on every device the six float argument arrays hold real
    numbers only and the fourth integer argument array holds nonnegative signed words. -/
theorem pre_decode (hpre : Cert.Pre_KernelIdeal m) (c : Dev Cert.KernelIdeal.nD) :
    (∀ i : S2048x38032.Idx, IsFin ((m ((c.tc : Thread Cert.KernelIdeal.nD Cert.KernelIdeal.τ).loc Cert.KernelIdeal.main_arg4) : FVec Ideal S2048x38032 .f32) i))
    ∧ (∀ i : S2048.Idx, IsFin ((m ((c.tc : Thread Cert.KernelIdeal.nD Cert.KernelIdeal.τ).loc Cert.KernelIdeal.main_arg5) : FVec Ideal S2048 .f32) i))
    ∧ (∀ i : S1024x2048.Idx, IsFin ((m ((c.tc : Thread Cert.KernelIdeal.nD Cert.KernelIdeal.τ).loc Cert.KernelIdeal.main_arg6) : FVec Ideal S1024x2048 .f32) i))
    ∧ (∀ i : S1024.Idx, IsFin ((m ((c.tc : Thread Cert.KernelIdeal.nD Cert.KernelIdeal.τ).loc Cert.KernelIdeal.main_arg7) : FVec Ideal S1024 .f32) i))
    ∧ (∀ i : S1x1024.Idx, IsFin ((m ((c.tc : Thread Cert.KernelIdeal.nD Cert.KernelIdeal.τ).loc Cert.KernelIdeal.main_arg8) : FVec Ideal S1x1024 .f32) i))
    ∧ (∀ i : S1.Idx, IsFin ((m ((c.tc : Thread Cert.KernelIdeal.nD Cert.KernelIdeal.τ).loc Cert.KernelIdeal.main_arg9) : FVec Ideal S1 .f32) i))
    ∧ (∀ e : Fin 40000, 0 ≤ ((m ((c.tc : Thread Cert.KernelIdeal.nD Cert.KernelIdeal.τ).loc Cert.KernelIdeal.main_arg3) : IVec S40000 32) (ix1 e)).toInt) := by
  obtain ⟨h4, h5, h6, h7, h8, h9, h3⟩ := fn_decode _ _ _ _ _ _ _ _ _ _ (hpre c)
  exact ⟨h4, h5, h6, h7, h8, h9, fun e => h3 (ix1 e)⟩

end mem

end Cert.PreDecode

end
-- ==== Proof.RefSpec.lean ====
/-
  The reference's float pipeline as one pure function of arrays of extended reals, index by index:
  the first layer's product split along the four column blocks of its input row, then two dense layers.
-/
import Idealize.ShloMosaic.PureOps.Ideal
import Idealize.ShloMosaic.Lib.ValueIdx

noncomputable section

open scoped BigOperators

namespace Cert.RefSpec

open Idealize.ShloMosaic Idealize.ShloMosaic.ValueIdx

/-- An `m × n` matrix of extended reals, as a function of the rank-2 index. -/
abbrev Mat (m n : Nat) : Type := (⟨2, ![m, n]⟩ : Shape).Idx → EReal
/-- A length-`n` vector of extended reals, as a function of the rank-1 index. -/
abbrev Vec (n : Nat) : Type := (⟨1, ![n]⟩ : Shape).Idx → EReal

/-- The first layer's pre-activation without the bias: the input row is `[A1 b | OH b | A2 b | OH b]`
    (widths 19000, 16, 19000, 16), so the product with row `i` of `W0` is the sum of four plain sums,
    one per block, each against the matching columns of `W0`. -/
def z (A1 A2 : Mat 4096 19000) (OH : Mat 4096 16) (W0 : Mat 2048 38032) (b : Fin 4096) (i : Fin 2048) : EReal :=
  ((∑ p : Fin 19000, A1 (ix2 b p) * W0 (ix2 i (⟨p.val, by omega⟩ : Fin 38032)))
      + (∑ c : Fin 16, OH (ix2 b c) * W0 (ix2 i (⟨19000 + c.val, by omega⟩ : Fin 38032))))
    + ((∑ p : Fin 19000, A2 (ix2 b p) * W0 (ix2 i (⟨19016 + p.val, by omega⟩ : Fin 38032)))
      + (∑ c : Fin 16, OH (ix2 b c) * W0 (ix2 i (⟨38016 + c.val, by omega⟩ : Fin 38032))))

/-- The first hidden layer from a pre-activation `zz`: add the bias, clamp below at zero. -/
def h (zz : Fin 4096 → Fin 2048 → EReal) (b0 : Vec 2048) (b : Fin 4096) (i : Fin 2048) : EReal :=
  max (zz b i + b0 (ix1 i)) 0

/-- The second layer's pre-activation. -/
def y (zz : Fin 4096 → Fin 2048 → EReal) (b0 : Vec 2048) (W1 : Mat 1024 2048) (b1 : Vec 1024)
    (b : Fin 4096) (j : Fin 1024) : EReal :=
  (∑ i : Fin 2048, h zz b0 b i * W1 (ix2 j i)) + b1 (ix1 j)

/-- The second hidden layer. -/
def h' (zz : Fin 4096 → Fin 2048 → EReal) (b0 : Vec 2048) (W1 : Mat 1024 2048) (b1 : Vec 1024)
    (b : Fin 4096) (j : Fin 1024) : EReal :=
  max (y zz b0 W1 b1 b j) 0

/-- The output layer (one unit), as a function of the first layer's pre-activation `zz`. -/
def tail (zz : Fin 4096 → Fin 2048 → EReal) (b0 : Vec 2048) (W1 : Mat 1024 2048) (b1 : Vec 1024)
    (W2 : Mat 1 1024) (b2 : Vec 1) (b : Fin 4096) : EReal :=
  (∑ j : Fin 1024, h' zz b0 W1 b1 b j * W2 (ix2 (0 : Fin 1) j)) + b2 (ix1 (0 : Fin 1))

/-- The reference's output for sample `b`. -/
def refOut (A1 A2 : Mat 4096 19000) (OH : Mat 4096 16) (W0 : Mat 2048 38032) (b0 : Vec 2048)
    (W1 : Mat 1024 2048) (b1 : Vec 1024) (W2 : Mat 1 1024) (b2 : Vec 1) : Fin 4096 → EReal :=
  tail (z A1 A2 OH W0) b0 W1 b1 W2 b2

/-- The layers after the first depend on the first layer's pre-activation only through row `b`. -/
theorem tail_congr {zz zz' : Fin 4096 → Fin 2048 → EReal} (b0 : Vec 2048) (W1 : Mat 1024 2048) (b1 : Vec 1024)
    (W2 : Mat 1 1024) (b2 : Vec 1) (b : Fin 4096) (hz : ∀ i, zz b i = zz' b i) :
    tail zz b0 W1 b1 W2 b2 b = tail zz' b0 W1 b1 W2 b2 b := by
  unfold tail h' y h
  simp only [hz]

end Cert.RefSpec

end
-- ==== Proof.LibBlockSum.lean ====
/-
  Finite sums cut into blocks, and sums of real numbers seen in the extended reals (a general lemma file: it imports
  Mathlib only and mentions no program).

  * `coe_sum`: the inclusion of the reals in the extended reals commutes with finite sums.
  * `sum_blocks`: a family indexed by `m * n` consecutive numbers, summed block by block (`m` blocks of `n`), is
    summed once over all of them.
  * `sum_fin_split`: a family on `a + b` consecutive numbers that vanishes from `a` on is summed over the first `a`.
  * `half_sum_add_diff`, `half_sum_sub_diff`: half of "sum of (p+q)(u+v) plus (minus) sum of (p−q)(u−v)" is
    "sum of p·u plus sum of q·v" ("sum of p·v plus sum of q·u"): the two cross terms cancel, the two others double.
-/
import Mathlib.Algebra.BigOperators.Fin
import Mathlib.Data.EReal.Operations
import Mathlib.Tactic.Ring
import Mathlib.Tactic.NormNum

namespace BlockSum

open Finset

/-- The inclusion of the reals in the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

variable {M : Type*} [AddCommMonoid M]

/-- `m` blocks of `n` consecutive indices exhaust `m * n` consecutive indices: block `s`, place `t` is index `n * s + t`. -/
theorem sum_blocks (m n N : ℕ) (hN : m * n = N) (f : Fin N → M) (col : Fin m → Fin n → Fin N)
    (hcol : ∀ s t, (col s t).val = n * s.val + t.val) : ∑ s : Fin m, ∑ t : Fin n, f (col s t) = ∑ c : Fin N, f c := by
  subst hN
  rw [← Fintype.sum_prod_type', ← finProdFinEquiv.sum_comp f]
  refine Fintype.sum_congr _ _ fun x => congrArg f (Fin.ext ?_)
  rw [hcol]
  simp [finProdFinEquiv, Nat.add_comm]

/-- A family on `a + b` consecutive indices that vanishes from index `a` on is summed over the first `a` indices. -/
theorem sum_fin_split (a b N : ℕ) (hN : a + b = N) (f : Fin N → M) (h0 : ∀ c : Fin N, a ≤ c.val → f c = 0) :
    ∑ c : Fin N, f c = ∑ c : Fin a, f ⟨c.val, by have := c.isLt; omega⟩ := by
  subst hN
  rw [Fin.sum_univ_add, Finset.sum_eq_zero (s := univ) (f := fun j : Fin b => f (Fin.natAdd a j))
    (fun j _ => h0 _ (by simp)), add_zero]
  rfl

/-- Half of the sum of `(p + q) (u + v)` plus the sum of `(p − q) (u − v)`, entry by entry. -/
theorem half_add_diff (p q u v : ℝ) : (1 / 2 : ℝ) * ((p + q) * (u + v) + (p - q) * (u - v)) = p * u + q * v := by ring
/-- Half of the sum of `(p + q) (u + v)` minus the sum of `(p − q) (u − v)`, entry by entry. -/
theorem half_sub_diff (p q u v : ℝ) : (1 / 2 : ℝ) * ((p + q) * (u + v) - (p - q) * (u - v)) = p * v + q * u := by ring

end BlockSum
-- ==== Proof.Bridge.lean ====
/-
  The kernel's arithmetic and the reference's give the same number.

  For one sample and one hidden unit the kernel adds, over 38 blocks of 512 columns, half of "(p + q)·s plus (minus)
  (p − q)·d", where s and d are the sum and the difference of two column blocks of the first weight matrix, padded with
  zeros; the reference adds p against the first block and q against the second (for the second result: the other way
  round). All entries are real numbers (the rows p, q and the one-hot row hold 0 or 1, the weights are finite), so the
  computation is carried out in the reals: the blocks exhaust the padded columns, the padding contributes nothing, and
  entry by entry half of (p + q)(u + v) ± (p − q)(u − v) is p·u + q·v, respectively p·v + q·u. The two later layers are
  the same expression on both sides.
-/
import proofs.«148840_j45294725103836_2_alg».proof.Proof.KSpec
import proofs.«148840_j45294725103836_2_alg».proof.Proof.RefSpec
import proofs.«148840_j45294725103836_2_alg».proof.Proof.LibFinite
import proofs.«148840_j45294725103836_2_alg».proof.Proof.LibBlockSum
import Mathlib
import Idealize.ShloMosaic.PureOps.Ideal.Laws
import Idealize.ShloMosaic.Lib.ValueIdx

noncomputable section

open scoped BigOperators

namespace Cert.Bridge

open Idealize.ShloMosaic Idealize.ShloMosaic.ValueIdx Cert.LibFinite

/-- The kernel's constant is the real number one half. -/
theorem half_eq : KSpec.half = ((1 / 2 : ℝ) : EReal) := by
  simp [KSpec.half, Ideal.ofBits, Ideal.ieee, -EReal.coe_mul]; norm_num

/-! ## In the reals -/

/-- The padded sum of two rows of 19000 reals. -/
def sR (u v : Fin 19000 → ℝ) (c : Fin 19456) : ℝ := if h : c.val < 19000 then u ⟨c.val, h⟩ + v ⟨c.val, h⟩ else 0
/-- The padded difference of two rows of 19000 reals. -/
def dR (u v : Fin 19000 → ℝ) (c : Fin 19456) : ℝ := if h : c.val < 19000 then u ⟨c.val, h⟩ - v ⟨c.val, h⟩ else 0

section Real

variable (p q : Fin 19456 → ℝ) (u v : Fin 19000 → ℝ) (o a a' : Fin 16 → ℝ)

/-- One column's contribution to the first accumulator. -/
def F1 (p q : Fin 19456 → ℝ) (u v : Fin 19000 → ℝ) (c : Fin 19456) : ℝ :=
  (1 / 2 : ℝ) * ((p c + q c) * sR u v c + (p c - q c) * dR u v c)
/-- One column's contribution to the second accumulator. -/
def F2 (p q : Fin 19456 → ℝ) (u v : Fin 19000 → ℝ) (c : Fin 19456) : ℝ :=
  (1 / 2 : ℝ) * ((p c + q c) * sR u v c - (p c - q c) * dR u v c)

/-- The 38 steps' contributions to the first accumulator add up to p against u plus q against v. -/
theorem blocks1 :
    ∑ s : Fin 38, (1 / 2 : ℝ) * ((∑ t : Fin 512, (p (KSpec.colOf s t) + q (KSpec.colOf s t)) * sR u v (KSpec.colOf s t))
        + ∑ t : Fin 512, (p (KSpec.colOf s t) - q (KSpec.colOf s t)) * dR u v (KSpec.colOf s t))
      = ∑ c : Fin 19000, (p ⟨c.val, by omega⟩ * u c + q ⟨c.val, by omega⟩ * v c) := by
  have h1 : ∀ s : Fin 38, (1 / 2 : ℝ) * ((∑ t : Fin 512, (p (KSpec.colOf s t) + q (KSpec.colOf s t)) * sR u v (KSpec.colOf s t))
        + ∑ t : Fin 512, (p (KSpec.colOf s t) - q (KSpec.colOf s t)) * dR u v (KSpec.colOf s t))
      = ∑ t : Fin 512, F1 p q u v (KSpec.colOf s t) := fun s => by
    rw [← Finset.sum_add_distrib, Finset.mul_sum]; rfl
  refine (Finset.sum_congr rfl fun s _ => h1 s).trans
    ((BlockSum.sum_blocks 38 512 19456 (by norm_num) (F1 p q u v) KSpec.colOf (fun s t => rfl)).trans ?_)
  rw [BlockSum.sum_fin_split 19000 456 19456 (by norm_num) (F1 p q u v) (fun c hc => by
    simp only [F1, sR, dR, dif_neg (not_lt.mpr hc)]; ring)]
  refine Finset.sum_congr rfl fun c _ => ?_
  simp only [F1, sR, dR, dif_pos c.isLt]
  exact BlockSum.half_add_diff _ _ _ _

/-- The 38 steps' contributions to the second accumulator add up to p against v plus q against u. -/
theorem blocks2 :
    ∑ s : Fin 38, (1 / 2 : ℝ) * ((∑ t : Fin 512, (p (KSpec.colOf s t) + q (KSpec.colOf s t)) * sR u v (KSpec.colOf s t))
        - ∑ t : Fin 512, (p (KSpec.colOf s t) - q (KSpec.colOf s t)) * dR u v (KSpec.colOf s t))
      = ∑ c : Fin 19000, (p ⟨c.val, by omega⟩ * v c + q ⟨c.val, by omega⟩ * u c) := by
  have h1 : ∀ s : Fin 38, (1 / 2 : ℝ) * ((∑ t : Fin 512, (p (KSpec.colOf s t) + q (KSpec.colOf s t)) * sR u v (KSpec.colOf s t))
        - ∑ t : Fin 512, (p (KSpec.colOf s t) - q (KSpec.colOf s t)) * dR u v (KSpec.colOf s t))
      = ∑ t : Fin 512, F2 p q u v (KSpec.colOf s t) := fun s => by
    rw [← Finset.sum_sub_distrib, Finset.mul_sum]; rfl
  refine (Finset.sum_congr rfl fun s _ => h1 s).trans
    ((BlockSum.sum_blocks 38 512 19456 (by norm_num) (F2 p q u v) KSpec.colOf (fun s t => rfl)).trans ?_)
  rw [BlockSum.sum_fin_split 19000 456 19456 (by norm_num) (F2 p q u v) (fun c hc => by
    simp only [F2, sR, dR, dif_neg (not_lt.mpr hc)]; ring)]
  refine Finset.sum_congr rfl fun c _ => ?_
  simp only [F2, sR, dR, dif_pos c.isLt]
  exact BlockSum.half_sub_diff _ _ _ _

/-- The first accumulator, in the reals, is the reference's four sums. -/
theorem acc1_real :
    (∑ k : Fin 16, o k * (a k + a' k))
        + ∑ s : Fin 38, (1 / 2 : ℝ) * ((∑ t : Fin 512, (p (KSpec.colOf s t) + q (KSpec.colOf s t)) * sR u v (KSpec.colOf s t))
          + ∑ t : Fin 512, (p (KSpec.colOf s t) - q (KSpec.colOf s t)) * dR u v (KSpec.colOf s t))
      = ((∑ c : Fin 19000, p ⟨c.val, by omega⟩ * u c) + ∑ k : Fin 16, o k * a k)
        + ((∑ c : Fin 19000, q ⟨c.val, by omega⟩ * v c) + ∑ k : Fin 16, o k * a' k) := by
  rw [blocks1]
  simp only [mul_add, Finset.sum_add_distrib]
  ring

/-- The second accumulator, in the reals, is the reference's four sums with the two rows exchanged. -/
theorem acc2_real :
    (∑ k : Fin 16, o k * (a k + a' k))
        + ∑ s : Fin 38, (1 / 2 : ℝ) * ((∑ t : Fin 512, (p (KSpec.colOf s t) + q (KSpec.colOf s t)) * sR u v (KSpec.colOf s t))
          - ∑ t : Fin 512, (p (KSpec.colOf s t) - q (KSpec.colOf s t)) * dR u v (KSpec.colOf s t))
      = ((∑ c : Fin 19000, q ⟨c.val, by omega⟩ * u c) + ∑ k : Fin 16, o k * a k)
        + ((∑ c : Fin 19000, p ⟨c.val, by omega⟩ * v c) + ∑ k : Fin 16, o k * a' k) := by
  rw [blocks2]
  simp only [mul_add, Finset.sum_add_distrib]
  ring

end Real

/-! ## In the extended reals -/

/-- The first accumulator of sample `b`, hidden unit `i`, is the reference's first-layer value there. -/
theorem acc1_eq (A1 A2 : RefSpec.Mat 4096 19000) (OH : RefSpec.Mat 4096 16) (W0 : RefSpec.Mat 2048 38032)
    (P Q : Fin 4096 → Fin 19456 → EReal) (O : Fin 4096 → Fin 16 → EReal) (WS WD : Fin 2048 → Fin 19456 → EReal) (WC : Fin 2048 → Fin 16 → EReal)
    (hP : ∀ (b : Fin 4096) (q : Fin 19456) (h : q.val < 19000), P b q = A1 (ix2 b ⟨q.val, h⟩))
    (hQ : ∀ (b : Fin 4096) (q : Fin 19456) (h : q.val < 19000), Q b q = A2 (ix2 b ⟨q.val, h⟩))
    (hP01 : ∀ b q, P b q = 0 ∨ P b q = 1) (hQ01 : ∀ b q, Q b q = 0 ∨ Q b q = 1)
    (hO : ∀ b k, O b k = OH (ix2 b k)) (hO01 : ∀ b k, O b k = 0 ∨ O b k = 1)
    (hWS : ∀ (i : Fin 2048) (q : Fin 19456), WS i q = if h : q.val < 19000 then W0 (ix2 i ⟨q.val, by omega⟩) + W0 (ix2 i ⟨19016 + q.val, by omega⟩) else 0)
    (hWD : ∀ (i : Fin 2048) (q : Fin 19456), WD i q = if h : q.val < 19000 then W0 (ix2 i ⟨q.val, by omega⟩) - W0 (ix2 i ⟨19016 + q.val, by omega⟩) else 0)
    (hWC : ∀ (i : Fin 2048) (k : Fin 16), WC i k = W0 (ix2 i ⟨19000 + k.val, by omega⟩) + W0 (ix2 i ⟨38016 + k.val, by omega⟩))
    (hW0 : ∀ j, IsFin (W0 j)) (b : Fin 4096) (i : Fin 2048) :
    KSpec.acc1 (P b) (Q b) (WS i) (WD i) (O b) (WC i) = RefSpec.z A1 A2 OH W0 b i := by
  choose w hw using hW0
  have hp' : ∀ c, ∃ r : ℝ, P b c = (r : EReal) := fun c =>
    (hP01 b c).elim (fun h => ⟨0, by rw [h, EReal.coe_zero]⟩) (fun h => ⟨1, by rw [h, EReal.coe_one]⟩)
  have hq' : ∀ c, ∃ r : ℝ, Q b c = (r : EReal) := fun c =>
    (hQ01 b c).elim (fun h => ⟨0, by rw [h, EReal.coe_zero]⟩) (fun h => ⟨1, by rw [h, EReal.coe_one]⟩)
  have ho' : ∀ k, ∃ r : ℝ, O b k = (r : EReal) := fun k =>
    (hO01 b k).elim (fun h => ⟨0, by rw [h, EReal.coe_zero]⟩) (fun h => ⟨1, by rw [h, EReal.coe_one]⟩)
  choose p hp using hp'
  choose q hq using hq'
  choose o ho using ho'
  have hA1 : ∀ c : Fin 19000, A1 (ix2 b c) = ((p ⟨c.val, by omega⟩ : ℝ) : EReal) := fun c =>
    (hP b ⟨c.val, by omega⟩ c.isLt).symm.trans (hp _)
  have hA2 : ∀ c : Fin 19000, A2 (ix2 b c) = ((q ⟨c.val, by omega⟩ : ℝ) : EReal) := fun c =>
    (hQ b ⟨c.val, by omega⟩ c.isLt).symm.trans (hq _)
  have hOH : ∀ k : Fin 16, OH (ix2 b k) = ((o k : ℝ) : EReal) := fun k => (hO b k).symm.trans (ho k)
  have eWS : ∀ c, WS i c = ((sR (fun c : Fin 19000 => w (ix2 i ⟨c.val, by omega⟩)) (fun c : Fin 19000 => w (ix2 i ⟨19016 + c.val, by omega⟩)) c : ℝ) : EReal) := fun c => by
    rw [hWS]; unfold sR
    by_cases h : c.val < 19000
    · rw [dif_pos h, dif_pos h, hw, hw, ← EReal.coe_add]
    · rw [dif_neg h, dif_neg h, EReal.coe_zero]
  have eWD : ∀ c, WD i c = ((dR (fun c : Fin 19000 => w (ix2 i ⟨c.val, by omega⟩)) (fun c : Fin 19000 => w (ix2 i ⟨19016 + c.val, by omega⟩)) c : ℝ) : EReal) := fun c => by
    rw [hWD]; unfold dR
    by_cases h : c.val < 19000
    · rw [dif_pos h, dif_pos h, hw, hw, ← EReal.coe_sub]
    · rw [dif_neg h, dif_neg h, EReal.coe_zero]
  have eWC : ∀ k, WC i k = ((w (ix2 i ⟨19000 + k.val, by omega⟩) + w (ix2 i ⟨38016 + k.val, by omega⟩) : ℝ) : EReal) := fun k => by
    rw [hWC, hw, hw, ← EReal.coe_add]
  unfold KSpec.acc1 KSpec.step1 KSpec.sProd KSpec.dProd KSpec.cellTerm RefSpec.z
  simp only [hp, hq, ho, eWS, eWD, eWC, half_eq, hA1, hA2, hOH, hw]
  simp only [← EReal.coe_add, ← EReal.coe_sub, ← EReal.coe_mul, ← BlockSum.coe_sum]
  exact congrArg Real.toEReal (acc1_real p q _ _ o _ _)

/-- The second accumulator of sample `b`, hidden unit `i`, is the reference's first-layer value with the two rows exchanged. -/
theorem acc2_eq (A1 A2 : RefSpec.Mat 4096 19000) (OH : RefSpec.Mat 4096 16) (W0 : RefSpec.Mat 2048 38032)
    (P Q : Fin 4096 → Fin 19456 → EReal) (O : Fin 4096 → Fin 16 → EReal) (WS WD : Fin 2048 → Fin 19456 → EReal) (WC : Fin 2048 → Fin 16 → EReal)
    (hP : ∀ (b : Fin 4096) (q : Fin 19456) (h : q.val < 19000), P b q = A1 (ix2 b ⟨q.val, h⟩))
    (hQ : ∀ (b : Fin 4096) (q : Fin 19456) (h : q.val < 19000), Q b q = A2 (ix2 b ⟨q.val, h⟩))
    (hP01 : ∀ b q, P b q = 0 ∨ P b q = 1) (hQ01 : ∀ b q, Q b q = 0 ∨ Q b q = 1)
    (hO : ∀ b k, O b k = OH (ix2 b k)) (hO01 : ∀ b k, O b k = 0 ∨ O b k = 1)
    (hWS : ∀ (i : Fin 2048) (q : Fin 19456), WS i q = if h : q.val < 19000 then W0 (ix2 i ⟨q.val, by omega⟩) + W0 (ix2 i ⟨19016 + q.val, by omega⟩) else 0)
    (hWD : ∀ (i : Fin 2048) (q : Fin 19456), WD i q = if h : q.val < 19000 then W0 (ix2 i ⟨q.val, by omega⟩) - W0 (ix2 i ⟨19016 + q.val, by omega⟩) else 0)
    (hWC : ∀ (i : Fin 2048) (k : Fin 16), WC i k = W0 (ix2 i ⟨19000 + k.val, by omega⟩) + W0 (ix2 i ⟨38016 + k.val, by omega⟩))
    (hW0 : ∀ j, IsFin (W0 j)) (b : Fin 4096) (i : Fin 2048) :
    KSpec.acc2 (P b) (Q b) (WS i) (WD i) (O b) (WC i) = RefSpec.z A2 A1 OH W0 b i := by
  choose w hw using hW0
  have hp' : ∀ c, ∃ r : ℝ, P b c = (r : EReal) := fun c =>
    (hP01 b c).elim (fun h => ⟨0, by rw [h, EReal.coe_zero]⟩) (fun h => ⟨1, by rw [h, EReal.coe_one]⟩)
  have hq' : ∀ c, ∃ r : ℝ, Q b c = (r : EReal) := fun c =>
    (hQ01 b c).elim (fun h => ⟨0, by rw [h, EReal.coe_zero]⟩) (fun h => ⟨1, by rw [h, EReal.coe_one]⟩)
  have ho' : ∀ k, ∃ r : ℝ, O b k = (r : EReal) := fun k =>
    (hO01 b k).elim (fun h => ⟨0, by rw [h, EReal.coe_zero]⟩) (fun h => ⟨1, by rw [h, EReal.coe_one]⟩)
  choose p hp using hp'
  choose q hq using hq'
  choose o ho using ho'
  have hA1 : ∀ c : Fin 19000, A1 (ix2 b c) = ((p ⟨c.val, by omega⟩ : ℝ) : EReal) := fun c =>
    (hP b ⟨c.val, by omega⟩ c.isLt).symm.trans (hp _)
  have hA2 : ∀ c : Fin 19000, A2 (ix2 b c) = ((q ⟨c.val, by omega⟩ : ℝ) : EReal) := fun c =>
    (hQ b ⟨c.val, by omega⟩ c.isLt).symm.trans (hq _)
  have hOH : ∀ k : Fin 16, OH (ix2 b k) = ((o k : ℝ) : EReal) := fun k => (hO b k).symm.trans (ho k)
  have eWS : ∀ c, WS i c = ((sR (fun c : Fin 19000 => w (ix2 i ⟨c.val, by omega⟩)) (fun c : Fin 19000 => w (ix2 i ⟨19016 + c.val, by omega⟩)) c : ℝ) : EReal) := fun c => by
    rw [hWS]; unfold sR
    by_cases h : c.val < 19000
    · rw [dif_pos h, dif_pos h, hw, hw, ← EReal.coe_add]
    · rw [dif_neg h, dif_neg h, EReal.coe_zero]
  have eWD : ∀ c, WD i c = ((dR (fun c : Fin 19000 => w (ix2 i ⟨c.val, by omega⟩)) (fun c : Fin 19000 => w (ix2 i ⟨19016 + c.val, by omega⟩)) c : ℝ) : EReal) := fun c => by
    rw [hWD]; unfold dR
    by_cases h : c.val < 19000
    · rw [dif_pos h, dif_pos h, hw, hw, ← EReal.coe_sub]
    · rw [dif_neg h, dif_neg h, EReal.coe_zero]
  have eWC : ∀ k, WC i k = ((w (ix2 i ⟨19000 + k.val, by omega⟩) + w (ix2 i ⟨38016 + k.val, by omega⟩) : ℝ) : EReal) := fun k => by
    rw [hWC, hw, hw, ← EReal.coe_add]
  unfold KSpec.acc2 KSpec.step2 KSpec.sProd KSpec.dProd KSpec.cellTerm RefSpec.z
  simp only [hp, hq, ho, eWS, eWD, eWC, half_eq, hA1, hA2, hOH, hw]
  simp only [← EReal.coe_add, ← EReal.coe_sub, ← EReal.coe_mul, ← BlockSum.coe_sum]
  exact congrArg Real.toEReal (acc2_real p q _ _ o _ _)

/-! ## The two results -/

theorem out1_eq (A1 A2 : RefSpec.Mat 4096 19000) (OH : RefSpec.Mat 4096 16) (W0 : RefSpec.Mat 2048 38032) (b0 : RefSpec.Vec 2048) (W1 : RefSpec.Mat 1024 2048) (b1 : RefSpec.Vec 1024) (W2 : RefSpec.Mat 1 1024) (b2 : RefSpec.Vec 1)
    (P Q : Fin 4096 → Fin 19456 → EReal) (O : Fin 4096 → Fin 16 → EReal) (WS WD : Fin 2048 → Fin 19456 → EReal) (WC : Fin 2048 → Fin 16 → EReal)
    (hP : ∀ (b : Fin 4096) (q : Fin 19456) (h : q.val < 19000), P b q = A1 (ix2 b ⟨q.val, h⟩))
    (hQ : ∀ (b : Fin 4096) (q : Fin 19456) (h : q.val < 19000), Q b q = A2 (ix2 b ⟨q.val, h⟩))
    (hP01 : ∀ b q, P b q = 0 ∨ P b q = 1) (hQ01 : ∀ b q, Q b q = 0 ∨ Q b q = 1)
    (hO : ∀ b k, O b k = OH (ix2 b k)) (hO01 : ∀ b k, O b k = 0 ∨ O b k = 1)
    (hWS : ∀ (i : Fin 2048) (q : Fin 19456), WS i q = if h : q.val < 19000 then W0 (ix2 i ⟨q.val, by omega⟩) + W0 (ix2 i ⟨19016 + q.val, by omega⟩) else 0)
    (hWD : ∀ (i : Fin 2048) (q : Fin 19456), WD i q = if h : q.val < 19000 then W0 (ix2 i ⟨q.val, by omega⟩) - W0 (ix2 i ⟨19016 + q.val, by omega⟩) else 0)
    (hWC : ∀ (i : Fin 2048) (k : Fin 16), WC i k = W0 (ix2 i ⟨19000 + k.val, by omega⟩) + W0 (ix2 i ⟨38016 + k.val, by omega⟩))
    (hW0 : ∀ j, IsFin (W0 j)) (b : Fin 4096) :
    KSpec.out1 P Q O WS WD WC (fun i => b0 (ix1 i)) (fun j i => W1 (ix2 j i)) (fun j => b1 (ix1 j)) (fun j => W2 (ix2 (0 : Fin 1) j)) (b2 (ix1 (0 : Fin 1))) b
      = RefSpec.refOut A1 A2 OH W0 b0 W1 b1 W2 b2 b := by
  unfold KSpec.out1 RefSpec.refOut
  rw [show (fun i => KSpec.acc1 (P b) (Q b) (WS i) (WD i) (O b) (WC i)) = fun i => RefSpec.z A1 A2 OH W0 b i from
    funext (acc1_eq A1 A2 OH W0 P Q O WS WD WC hP hQ hP01 hQ01 hO hO01 hWS hWD hWC hW0 b)]
  rfl

theorem out2_eq (A1 A2 : RefSpec.Mat 4096 19000) (OH : RefSpec.Mat 4096 16) (W0 : RefSpec.Mat 2048 38032) (b0 : RefSpec.Vec 2048) (W1 : RefSpec.Mat 1024 2048) (b1 : RefSpec.Vec 1024) (W2 : RefSpec.Mat 1 1024) (b2 : RefSpec.Vec 1)
    (P Q : Fin 4096 → Fin 19456 → EReal) (O : Fin 4096 → Fin 16 → EReal) (WS WD : Fin 2048 → Fin 19456 → EReal) (WC : Fin 2048 → Fin 16 → EReal)
    (hP : ∀ (b : Fin 4096) (q : Fin 19456) (h : q.val < 19000), P b q = A1 (ix2 b ⟨q.val, h⟩))
    (hQ : ∀ (b : Fin 4096) (q : Fin 19456) (h : q.val < 19000), Q b q = A2 (ix2 b ⟨q.val, h⟩))
    (hP01 : ∀ b q, P b q = 0 ∨ P b q = 1) (hQ01 : ∀ b q, Q b q = 0 ∨ Q b q = 1)
    (hO : ∀ b k, O b k = OH (ix2 b k)) (hO01 : ∀ b k, O b k = 0 ∨ O b k = 1)
    (hWS : ∀ (i : Fin 2048) (q : Fin 19456), WS i q = if h : q.val < 19000 then W0 (ix2 i ⟨q.val, by omega⟩) + W0 (ix2 i ⟨19016 + q.val, by omega⟩) else 0)
    (hWD : ∀ (i : Fin 2048) (q : Fin 19456), WD i q = if h : q.val < 19000 then W0 (ix2 i ⟨q.val, by omega⟩) - W0 (ix2 i ⟨19016 + q.val, by omega⟩) else 0)
    (hWC : ∀ (i : Fin 2048) (k : Fin 16), WC i k = W0 (ix2 i ⟨19000 + k.val, by omega⟩) + W0 (ix2 i ⟨38016 + k.val, by omega⟩))
    (hW0 : ∀ j, IsFin (W0 j)) (b : Fin 4096) :
    KSpec.out2 P Q O WS WD WC (fun i => b0 (ix1 i)) (fun j i => W1 (ix2 j i)) (fun j => b1 (ix1 j)) (fun j => W2 (ix2 (0 : Fin 1) j)) (b2 (ix1 (0 : Fin 1))) b
      = RefSpec.refOut A2 A1 OH W0 b0 W1 b1 W2 b2 b := by
  unfold KSpec.out2 RefSpec.refOut
  rw [show (fun i => KSpec.acc2 (P b) (Q b) (WS i) (WD i) (O b) (WC i)) = fun i => RefSpec.z A2 A1 OH W0 b i from
    funext (acc2_eq A1 A2 OH W0 P Q O WS WD WC hP hQ hP01 hQ01 hO hO01 hWS hWD hWC hW0 b)]
  rfl

end Cert.Bridge

end
-- ==== Proof.LibConcatCols.lean ====
/-
  Two matrices with the same number of rows joined side by side, read at an entry.
-/
import Idealize.ShloMosaic.Lib.Pipeline.Value
import Idealize.ShloMosaic.Lib.ValueIdx

noncomputable section

namespace Idealize.ShloMosaic.ConcatCols

open Idealize.ShloMosaic Idealize.ShloMosaic.ValueIdx

variable {α : Type}

/-- An `[n, a]` matrix and an `[n, b]` matrix joined along the columns into `[n, a + b]` read, at `(p, q)`, the
    first at `(p, q)` when `q` is one of the first `a` columns and the second at `(p, q − a)` otherwise: the
    case split of `Fin (a + b)` into its two ranges. Arbitrary extents and element type. -/
theorem concat_cols_apply {n a b : ℕ} (x₁ : (⟨2, ![n, a]⟩ : Shape).Idx → α) (x₂ : (⟨2, ![n, b]⟩ : Shape).Idx → α)
    (h : Shape.Concatenates [(⟨2, ![n, a]⟩ : Shape), (⟨2, ![n, b]⟩ : Shape)] (⟨2, ![n, a + b]⟩ : Shape) 1)
    (p : Fin n) (q : Fin (a + b)) :
    concatenate (⟨2, ![n, a + b]⟩ : Shape) 1 [⟨(⟨2, ![n, a]⟩ : Shape), x₁⟩, ⟨(⟨2, ![n, b]⟩ : Shape), x₂⟩] h (ix2 p q)
      = Fin.addCases (motive := fun _ => α) (fun k => x₁ (ix2 p k)) (fun k => x₂ (ix2 p k)) q := by
  refine Fin.addCases (fun k => ?_) (fun k => ?_) q
  · rw [Fin.addCases_left]
    exact concatenate_pair_apply_left 1 x₁ x₂ h (ix2 p (Fin.castAdd b k)) rfl (ix2 p k)
      (fun ax => by match ax with | ⟨0, _⟩ => rfl | ⟨1, _⟩ => rfl)
  · rw [Fin.addCases_right]
    exact concatenate_pair_apply_right 1 x₁ x₂ h (ix2 p (Fin.natAdd a k)) rfl rfl (ix2 p k)
      (fun ax hax => by match ax with | ⟨0, _⟩ => rfl | ⟨1, _⟩ => exact absurd rfl hax)
      (by show k.val + a = a + k.val; exact Nat.add_comm _ _)

end Idealize.ShloMosaic.ConcatCols

end
-- ==== Proof.RefSide.lean ====
import proofs.«148840_j45294725103836_2_alg».proof.Proof.RefReadP
import proofs.«148840_j45294725103836_2_alg».proof.Proof.RefSpec
import proofs.«148840_j45294725103836_2_alg».proof.Proof.LibConcatCols

noncomputable section

open scoped BigOperators

namespace Cert.RefSide

open Cert.ReferenceIdeal Cert.ReferenceIdeal.Gen Cert.ReferenceIdeal.ReadP Idealize.ShloMosaic Idealize.ShloMosaic.TcCoe Idealize.SL.Sem Idealize.ShloMosaic.StableHlo Idealize.ShloMosaic.ValueIdx

/-! ## Splitting a sum over a range into consecutive blocks -/

/-- A sum over `Fin n` with `n = a + b` is the sum over the first `a` indices plus the sum over the last `b`. -/
theorem sum_split2 {M : Type} [AddCommMonoid M] (a b n : Nat) (hn : a + b = n) (f : Fin n → M) :
    ∑ k : Fin n, f k = (∑ i : Fin a, f ⟨i.val, by omega⟩) + (∑ j : Fin b, f ⟨a + j.val, by omega⟩) := by
  subst hn
  rw [Fin.sum_univ_add]
  rfl

/-- A sum over the 38032 columns split into the blocks of widths 19000, 16, 19000, 16. -/
theorem sum_split4 (f : Fin 38032 → EReal) :
    ∑ k : Fin 38032, f k =
      ((∑ p : Fin 19000, f ⟨p.val, by omega⟩) + (∑ c : Fin 16, f ⟨19000 + c.val, by omega⟩))
      + ((∑ p : Fin 19000, f ⟨19016 + p.val, by omega⟩) + (∑ c : Fin 16, f ⟨38016 + c.val, by omega⟩)) := by
  rw [sum_split2 19016 19016 38032 (by norm_num) f,
    sum_split2 19000 16 19016 (by norm_num) (fun k : Fin 19016 => f ⟨k.val, by omega⟩),
    sum_split2 19000 16 19016 (by norm_num) (fun k : Fin 19016 => f ⟨19016 + k.val, by omega⟩)]
  refine congrArg₂ (· + ·) rfl (congrArg₂ (· + ·) rfl (Finset.sum_congr rfl fun j _ => congrArg f (Fin.ext ?_)))
  show 19016 + (19000 + j.val) = 38016 + j.val
  omega

/-! ## Two matrices joined along the columns, read in the left and in the right block -/

theorem cat_left {α : Type} {n a b : ℕ} (x₁ : (⟨2, ![n, a]⟩ : Shape).Idx → α) (x₂ : (⟨2, ![n, b]⟩ : Shape).Idx → α)
    (h : Shape.Concatenates [(⟨2, ![n, a]⟩ : Shape), (⟨2, ![n, b]⟩ : Shape)] (⟨2, ![n, a + b]⟩ : Shape) 1)
    (p : Fin n) (k : Fin a) :
    concatenate (⟨2, ![n, a + b]⟩ : Shape) 1 [⟨(⟨2, ![n, a]⟩ : Shape), x₁⟩, ⟨(⟨2, ![n, b]⟩ : Shape), x₂⟩] h (ix2 p (Fin.castAdd b k))
      = x₁ (ix2 p k) := by
  rw [ConcatCols.concat_cols_apply, Fin.addCases_left]

theorem cat_right {α : Type} {n a b : ℕ} (x₁ : (⟨2, ![n, a]⟩ : Shape).Idx → α) (x₂ : (⟨2, ![n, b]⟩ : Shape).Idx → α)
    (h : Shape.Concatenates [(⟨2, ![n, a]⟩ : Shape), (⟨2, ![n, b]⟩ : Shape)] (⟨2, ![n, a + b]⟩ : Shape) 1)
    (p : Fin n) (k : Fin b) :
    concatenate (⟨2, ![n, a + b]⟩ : Shape) 1 [⟨(⟨2, ![n, a]⟩ : Shape), x₁⟩, ⟨(⟨2, ![n, b]⟩ : Shape), x₂⟩] h (ix2 p (Fin.natAdd a k))
      = x₂ (ix2 p k) := by
  rw [ConcatCols.concat_cols_apply, Fin.addCases_right]

/-! ## The argument arrays -/

variable (x0 : (⟨S4096x2, .i32⟩ : BufTy).Contents (Elt Ideal)) (x1 : (⟨S4096, .i32⟩ : BufTy).Contents (Elt Ideal))
  (x2 x3 : (⟨S40000, .i32⟩ : BufTy).Contents (Elt Ideal)) (x4 : (⟨S2048x38032, .f32⟩ : BufTy).Contents (Elt Ideal))
  (x5 : (⟨S2048, .f32⟩ : BufTy).Contents (Elt Ideal)) (x6 : (⟨S1024x2048, .f32⟩ : BufTy).Contents (Elt Ideal))
  (x7 : (⟨S1024, .f32⟩ : BufTy).Contents (Elt Ideal)) (x8 : (⟨S1x1024, .f32⟩ : BufTy).Contents (Elt Ideal))
  (x9 : (⟨S1, .f32⟩ : BufTy).Contents (Elt Ideal))

/-! ## The joined input rows, block by block -/

/-- `[A1 | OH]` read in its left block. -/
theorem v35_left (b : Fin 4096) (p : Fin 19000) :
    val_main_v35 (F := Ideal) x0 x1 x2 x3 (ix2 b (⟨p.val, by omega⟩ : Fin 19016)) = val_main_v24 (F := Ideal) x0 x2 x3 (ix2 b p) :=
  cat_left (n := 4096) (a := 19000) (b := 16) (val_main_v24 (F := Ideal) x0 x2 x3) (val_main_v34 (F := Ideal) x1)
    concatenates_S4096x19000_S4096x16_S4096x19016_d1 b p

/-- `[A1 | OH]` read in its right block. -/
theorem v35_right (b : Fin 4096) (c : Fin 16) :
    val_main_v35 (F := Ideal) x0 x1 x2 x3 (ix2 b (⟨19000 + c.val, by omega⟩ : Fin 19016)) = val_main_v34 (F := Ideal) x1 (ix2 b c) :=
  cat_right (n := 4096) (a := 19000) (b := 16) (val_main_v24 (F := Ideal) x0 x2 x3) (val_main_v34 (F := Ideal) x1)
    concatenates_S4096x19000_S4096x16_S4096x19016_d1 b c

/-- `[A2 | OH]` read in its left block. -/
theorem v36_left (b : Fin 4096) (p : Fin 19000) :
    val_main_v36 (F := Ideal) x0 x1 x2 x3 (ix2 b (⟨p.val, by omega⟩ : Fin 19016)) = val_main_v33 (F := Ideal) x0 x2 x3 (ix2 b p) :=
  cat_left (n := 4096) (a := 19000) (b := 16) (val_main_v33 (F := Ideal) x0 x2 x3) (val_main_v34 (F := Ideal) x1)
    concatenates_S4096x19000_S4096x16_S4096x19016_d1 b p

/-- `[A2 | OH]` read in its right block. -/
theorem v36_right (b : Fin 4096) (c : Fin 16) :
    val_main_v36 (F := Ideal) x0 x1 x2 x3 (ix2 b (⟨19000 + c.val, by omega⟩ : Fin 19016)) = val_main_v34 (F := Ideal) x1 (ix2 b c) :=
  cat_right (n := 4096) (a := 19000) (b := 16) (val_main_v33 (F := Ideal) x0 x2 x3) (val_main_v34 (F := Ideal) x1)
    concatenates_S4096x19000_S4096x16_S4096x19016_d1 b c

/-- The first input row `[[A1 | OH] | [A2 | OH]]` read in its left half. -/
theorem v37_left (b : Fin 4096) (k : Fin 19016) :
    val_main_v37 (F := Ideal) x0 x1 x2 x3 (ix2 b (⟨k.val, by omega⟩ : Fin 38032)) = val_main_v35 (F := Ideal) x0 x1 x2 x3 (ix2 b k) :=
  cat_left (n := 4096) (a := 19016) (b := 19016) (val_main_v35 (F := Ideal) x0 x1 x2 x3) (val_main_v36 (F := Ideal) x0 x1 x2 x3)
    concatenates_S4096x19016_S4096x19016_S4096x38032_d1 b k

/-- The first input row read in its right half. -/
theorem v37_right (b : Fin 4096) (k : Fin 19016) :
    val_main_v37 (F := Ideal) x0 x1 x2 x3 (ix2 b (⟨19016 + k.val, by omega⟩ : Fin 38032)) = val_main_v36 (F := Ideal) x0 x1 x2 x3 (ix2 b k) :=
  cat_right (n := 4096) (a := 19016) (b := 19016) (val_main_v35 (F := Ideal) x0 x1 x2 x3) (val_main_v36 (F := Ideal) x0 x1 x2 x3)
    concatenates_S4096x19016_S4096x19016_S4096x38032_d1 b k

/-- The second input row `[[A2 | OH] | [A1 | OH]]` read in its left half. -/
theorem v38_left (b : Fin 4096) (k : Fin 19016) :
    val_main_v38 (F := Ideal) x0 x1 x2 x3 (ix2 b (⟨k.val, by omega⟩ : Fin 38032)) = val_main_v36 (F := Ideal) x0 x1 x2 x3 (ix2 b k) :=
  cat_left (n := 4096) (a := 19016) (b := 19016) (val_main_v36 (F := Ideal) x0 x1 x2 x3) (val_main_v35 (F := Ideal) x0 x1 x2 x3)
    concatenates_S4096x19016_S4096x19016_S4096x38032_d1 b k

/-- The second input row read in its right half. -/
theorem v38_right (b : Fin 4096) (k : Fin 19016) :
    val_main_v38 (F := Ideal) x0 x1 x2 x3 (ix2 b (⟨19016 + k.val, by omega⟩ : Fin 38032)) = val_main_v35 (F := Ideal) x0 x1 x2 x3 (ix2 b k) :=
  cat_right (n := 4096) (a := 19016) (b := 19016) (val_main_v36 (F := Ideal) x0 x1 x2 x3) (val_main_v35 (F := Ideal) x0 x1 x2 x3)
    concatenates_S4096x19016_S4096x19016_S4096x38032_d1 b k

/-- The first input row at each of its four blocks. -/
theorem v37_A (b : Fin 4096) (p : Fin 19000) :
    val_main_v37 (F := Ideal) x0 x1 x2 x3 (ix2 b (⟨p.val, by omega⟩ : Fin 38032)) = val_main_v24 (F := Ideal) x0 x2 x3 (ix2 b p) :=
  (v37_left x0 x1 x2 x3 b ⟨p.val, by omega⟩).trans (v35_left x0 x1 x2 x3 b p)
theorem v37_B (b : Fin 4096) (c : Fin 16) :
    val_main_v37 (F := Ideal) x0 x1 x2 x3 (ix2 b (⟨19000 + c.val, by omega⟩ : Fin 38032)) = val_main_v34 (F := Ideal) x1 (ix2 b c) :=
  (v37_left x0 x1 x2 x3 b ⟨19000 + c.val, by omega⟩).trans (v35_right x0 x1 x2 x3 b c)
theorem v37_C (b : Fin 4096) (p : Fin 19000) :
    val_main_v37 (F := Ideal) x0 x1 x2 x3 (ix2 b (⟨19016 + p.val, by omega⟩ : Fin 38032)) = val_main_v33 (F := Ideal) x0 x2 x3 (ix2 b p) :=
  (v37_right x0 x1 x2 x3 b ⟨p.val, by omega⟩).trans (v36_left x0 x1 x2 x3 b p)
theorem v37_D (b : Fin 4096) (c : Fin 16) :
    val_main_v37 (F := Ideal) x0 x1 x2 x3 (ix2 b (⟨38016 + c.val, by omega⟩ : Fin 38032)) = val_main_v34 (F := Ideal) x1 (ix2 b c) := by
  have e : (⟨38016 + c.val, by omega⟩ : Fin 38032) = ⟨19016 + (⟨19000 + c.val, by omega⟩ : Fin 19016).val, by omega⟩ :=
    Fin.ext (by show 38016 + c.val = 19016 + (19000 + c.val); omega)
  rw [e]
  exact (v37_right x0 x1 x2 x3 b ⟨19000 + c.val, by omega⟩).trans (v36_right x0 x1 x2 x3 b c)

/-- The second input row at each of its four blocks. -/
theorem v38_A (b : Fin 4096) (p : Fin 19000) :
    val_main_v38 (F := Ideal) x0 x1 x2 x3 (ix2 b (⟨p.val, by omega⟩ : Fin 38032)) = val_main_v33 (F := Ideal) x0 x2 x3 (ix2 b p) :=
  (v38_left x0 x1 x2 x3 b ⟨p.val, by omega⟩).trans (v36_left x0 x1 x2 x3 b p)
theorem v38_B (b : Fin 4096) (c : Fin 16) :
    val_main_v38 (F := Ideal) x0 x1 x2 x3 (ix2 b (⟨19000 + c.val, by omega⟩ : Fin 38032)) = val_main_v34 (F := Ideal) x1 (ix2 b c) :=
  (v38_left x0 x1 x2 x3 b ⟨19000 + c.val, by omega⟩).trans (v36_right x0 x1 x2 x3 b c)
theorem v38_C (b : Fin 4096) (p : Fin 19000) :
    val_main_v38 (F := Ideal) x0 x1 x2 x3 (ix2 b (⟨19016 + p.val, by omega⟩ : Fin 38032)) = val_main_v24 (F := Ideal) x0 x2 x3 (ix2 b p) :=
  (v38_right x0 x1 x2 x3 b ⟨p.val, by omega⟩).trans (v35_left x0 x1 x2 x3 b p)
theorem v38_D (b : Fin 4096) (c : Fin 16) :
    val_main_v38 (F := Ideal) x0 x1 x2 x3 (ix2 b (⟨38016 + c.val, by omega⟩ : Fin 38032)) = val_main_v34 (F := Ideal) x1 (ix2 b c) := by
  have e : (⟨38016 + c.val, by omega⟩ : Fin 38032) = ⟨19016 + (⟨19000 + c.val, by omega⟩ : Fin 19016).val, by omega⟩ :=
    Fin.ext (by show 38016 + c.val = 19016 + (19000 + c.val); omega)
  rw [e]
  exact (v38_right x0 x1 x2 x3 b ⟨19000 + c.val, by omega⟩).trans (v35_right x0 x1 x2 x3 b c)

/-! ## The first result: index bookkeeping (the generated index maps at coordinate-built indices) -/

theorem lidx_v40 (b : Fin 4096) (i : Fin 2048) (k : Fin 38032) : lidx_main_v40 (ix2 b i) k = ix2 b k := by
  funext a; match a with | ⟨0, _⟩ => rfl | ⟨1, _⟩ => rfl
theorem ridx_v40 (b : Fin 4096) (i : Fin 2048) (k : Fin 38032) : idx_main_v39 (ridx_main_v40 (ix2 b i) k) = ix2 i k := by
  funext a; match a with | ⟨0, _⟩ => rfl | ⟨1, _⟩ => rfl
theorem bias_v42 (b : Fin 4096) (i : Fin 2048) : idx_main_v41 (idx_main_v42 (ix2 b i)) = ix1 i := by
  funext a; match a with | ⟨0, _⟩ => rfl
theorem lidx_v46 (b : Fin 4096) (j : Fin 1024) (k : Fin 2048) : lidx_main_v46 (ix2 b j) k = ix2 b k := by
  funext a; match a with | ⟨0, _⟩ => rfl | ⟨1, _⟩ => rfl
theorem ridx_v46 (b : Fin 4096) (j : Fin 1024) (k : Fin 2048) : idx_main_v45 (ridx_main_v46 (ix2 b j) k) = ix2 j k := by
  funext a; match a with | ⟨0, _⟩ => rfl | ⟨1, _⟩ => rfl
theorem bias_v48 (b : Fin 4096) (j : Fin 1024) : idx_main_v47 (idx_main_v48 (ix2 b j)) = ix1 j := by
  funext a; match a with | ⟨0, _⟩ => rfl
theorem lidx_v52 (b : Fin 4096) (o : Fin 1) (k : Fin 1024) : lidx_main_v52 (ix2 b o) k = ix2 b k := by
  funext a; match a with | ⟨0, _⟩ => rfl | ⟨1, _⟩ => rfl
theorem ridx_v52 (b : Fin 4096) (k : Fin 1024) : idx_main_v51 (ridx_main_v52 (ix2 b (0 : Fin 1)) k) = ix2 (0 : Fin 1) k := by
  funext a; match a with | ⟨0, _⟩ => rfl | ⟨1, _⟩ => rfl
theorem bias_v54 (b : Fin 4096) : idx_main_v53 (idx_main_v54 (ix2 b (0 : Fin 1))) = ix1 (0 : Fin 1) := by
  funext a; match a with | ⟨0, _⟩ => rfl
theorem out_v73 (b : Fin 4096) : idx_main_v73 (ix1 b) = ix2 b (0 : Fin 1) := by
  funext a; match a with
  | ⟨0, _⟩ => exact Fin.ext (Nat.div_one _)
  | ⟨1, _⟩ => rfl

/-- The zero the first clamp compares against. -/
theorem zero_call1 (j : S4096x2048.Idx) : val_main_call1_v0 (F := Ideal) j = (0 : EReal) := by
  rw [val_main_call1_v0_apply, val_main_call1_cst_apply]
  exact Ideal.ofBits_zero_f32
/-- The zero the second clamp compares against. -/
theorem zero_call2 (j : S4096x1024.Idx) : val_main_call2_v0 (F := Ideal) j = (0 : EReal) := by
  rw [val_main_call2_v0_apply, val_main_call2_cst_apply]
  exact Ideal.ofBits_zero_f32

/-! ## The first result, layer by layer -/

/-- Layer 0's product: the sum over the 38032 columns is the four block sums. -/
theorem v40_eq (b : Fin 4096) (i : Fin 2048) :
    val_main_v40 (F := Ideal) x0 x1 x2 x3 x4 (ix2 b i)
      = RefSpec.z (val_main_v24 (F := Ideal) x0 x2 x3) (val_main_v33 (F := Ideal) x0 x2 x3) (val_main_v34 (F := Ideal) x1) x4 b i := by
  rw [val_main_v40_apply]
  simp only [lidx_v40, val_main_v39_apply, ridx_v40]
  rw [sum_split4 (fun k : Fin 38032 => val_main_v37 (F := Ideal) x0 x1 x2 x3 (ix2 b k) * x4 (ix2 i k))]
  simp only [v37_A, v37_B, v37_C, v37_D]
  rfl

/-- Layer 0 after the bias and the clamp. -/
theorem v44_eq (b : Fin 4096) (i : Fin 2048) :
    val_main_v44 (F := Ideal) x0 x1 x2 x3 x4 x5 (ix2 b i)
      = RefSpec.h (RefSpec.z (val_main_v24 (F := Ideal) x0 x2 x3) (val_main_v33 (F := Ideal) x0 x2 x3) (val_main_v34 (F := Ideal) x1) x4) x5 b i := by
  rw [val_main_v44_apply, val_main_v43_apply, val_main_v42_apply, val_main_v41_apply, zero_call1, bias_v42, v40_eq]
  rfl

/-- Layer 1 before the clamp. -/
theorem v49_eq (b : Fin 4096) (j : Fin 1024) :
    val_main_v49 (F := Ideal) x0 x1 x2 x3 x4 x5 x6 x7 (ix2 b j)
      = RefSpec.y (RefSpec.z (val_main_v24 (F := Ideal) x0 x2 x3) (val_main_v33 (F := Ideal) x0 x2 x3) (val_main_v34 (F := Ideal) x1) x4) x5 x6 x7 b j := by
  rw [val_main_v49_apply, val_main_v48_apply, val_main_v47_apply, bias_v48, val_main_v46_apply]
  simp only [lidx_v46, val_main_v45_apply, ridx_v46, v44_eq]
  rfl

/-- Layer 1 after the clamp. -/
theorem v50_eq (b : Fin 4096) (j : Fin 1024) :
    val_main_v50 (F := Ideal) x0 x1 x2 x3 x4 x5 x6 x7 (ix2 b j)
      = RefSpec.h' (RefSpec.z (val_main_v24 (F := Ideal) x0 x2 x3) (val_main_v33 (F := Ideal) x0 x2 x3) (val_main_v34 (F := Ideal) x1) x4) x5 x6 x7 b j := by
  rw [val_main_v50_apply, zero_call2, v49_eq]
  rfl

/-- The output layer. -/
theorem v55_eq (b : Fin 4096) :
    val_main_v55 (F := Ideal) x0 x1 x2 x3 x4 x5 x6 x7 x8 x9 (ix2 b (0 : Fin 1))
      = RefSpec.refOut (val_main_v24 (F := Ideal) x0 x2 x3) (val_main_v33 (F := Ideal) x0 x2 x3) (val_main_v34 (F := Ideal) x1) x4 x5 x6 x7 x8 x9 b := by
  rw [val_main_v55_apply, val_main_v54_apply, val_main_v53_apply, bias_v54, val_main_v52_apply]
  simp only [lidx_v52, val_main_v51_apply, ridx_v52, v50_eq]
  rfl

/-- The reference's first result at sample `b` is the specification on `(A1, A2) = (prot_1, prot_2)`. -/
theorem v73_eq (b : Fin 4096) :
    val_main_v73 (F := Ideal) x0 x1 x2 x3 x4 x5 x6 x7 x8 x9 (ix1 b)
      = RefSpec.refOut (val_main_v24 (F := Ideal) x0 x2 x3) (val_main_v33 (F := Ideal) x0 x2 x3) (val_main_v34 (F := Ideal) x1) x4 x5 x6 x7 x8 x9 b := by
  rw [val_main_v73_apply, out_v73, v55_eq]

/-! ## The second result: index bookkeeping (the generated index maps at coordinate-built indices) -/

theorem lidx_v57 (b : Fin 4096) (i : Fin 2048) (k : Fin 38032) : lidx_main_v57 (ix2 b i) k = ix2 b k := by
  funext a; match a with | ⟨0, _⟩ => rfl | ⟨1, _⟩ => rfl
theorem ridx_v57 (b : Fin 4096) (i : Fin 2048) (k : Fin 38032) : idx_main_v56 (ridx_main_v57 (ix2 b i) k) = ix2 i k := by
  funext a; match a with | ⟨0, _⟩ => rfl | ⟨1, _⟩ => rfl
theorem bias_v59 (b : Fin 4096) (i : Fin 2048) : idx_main_v58 (idx_main_v59 (ix2 b i)) = ix1 i := by
  funext a; match a with | ⟨0, _⟩ => rfl
theorem lidx_v63 (b : Fin 4096) (j : Fin 1024) (k : Fin 2048) : lidx_main_v63 (ix2 b j) k = ix2 b k := by
  funext a; match a with | ⟨0, _⟩ => rfl | ⟨1, _⟩ => rfl
theorem ridx_v63 (b : Fin 4096) (j : Fin 1024) (k : Fin 2048) : idx_main_v62 (ridx_main_v63 (ix2 b j) k) = ix2 j k := by
  funext a; match a with | ⟨0, _⟩ => rfl | ⟨1, _⟩ => rfl
theorem bias_v65 (b : Fin 4096) (j : Fin 1024) : idx_main_v64 (idx_main_v65 (ix2 b j)) = ix1 j := by
  funext a; match a with | ⟨0, _⟩ => rfl
theorem lidx_v69 (b : Fin 4096) (o : Fin 1) (k : Fin 1024) : lidx_main_v69 (ix2 b o) k = ix2 b k := by
  funext a; match a with | ⟨0, _⟩ => rfl | ⟨1, _⟩ => rfl
theorem ridx_v69 (b : Fin 4096) (k : Fin 1024) : idx_main_v68 (ridx_main_v69 (ix2 b (0 : Fin 1)) k) = ix2 (0 : Fin 1) k := by
  funext a; match a with | ⟨0, _⟩ => rfl | ⟨1, _⟩ => rfl
theorem bias_v71 (b : Fin 4096) : idx_main_v70 (idx_main_v71 (ix2 b (0 : Fin 1))) = ix1 (0 : Fin 1) := by
  funext a; match a with | ⟨0, _⟩ => rfl
theorem out_v74 (b : Fin 4096) : idx_main_v74 (ix1 b) = ix2 b (0 : Fin 1) := by
  funext a; match a with
  | ⟨0, _⟩ => exact Fin.ext (Nat.div_one _)
  | ⟨1, _⟩ => rfl

/-- The zero the first clamp of the second pipeline compares against. -/
theorem zero_call3 (j : S4096x2048.Idx) : val_main_call3_v0 (F := Ideal) j = (0 : EReal) := by
  rw [val_main_call3_v0_apply, val_main_call3_cst_apply]
  exact Ideal.ofBits_zero_f32
/-- The zero the second clamp of the second pipeline compares against. -/
theorem zero_call4 (j : S4096x1024.Idx) : val_main_call4_v0 (F := Ideal) j = (0 : EReal) := by
  rw [val_main_call4_v0_apply, val_main_call4_cst_apply]
  exact Ideal.ofBits_zero_f32

/-! ## The second result, layer by layer -/

/-- Layer 0's product: the sum over the 38032 columns is the four block sums. -/
theorem v57_eq (b : Fin 4096) (i : Fin 2048) :
    val_main_v57 (F := Ideal) x0 x1 x2 x3 x4 (ix2 b i)
      = RefSpec.z (val_main_v33 (F := Ideal) x0 x2 x3) (val_main_v24 (F := Ideal) x0 x2 x3) (val_main_v34 (F := Ideal) x1) x4 b i := by
  rw [val_main_v57_apply]
  simp only [lidx_v57, val_main_v56_apply, ridx_v57]
  rw [sum_split4 (fun k : Fin 38032 => val_main_v38 (F := Ideal) x0 x1 x2 x3 (ix2 b k) * x4 (ix2 i k))]
  simp only [v38_A, v38_B, v38_C, v38_D]
  rfl

/-- Layer 0 after the bias and the clamp. -/
theorem v61_eq (b : Fin 4096) (i : Fin 2048) :
    val_main_v61 (F := Ideal) x0 x1 x2 x3 x4 x5 (ix2 b i)
      = RefSpec.h (RefSpec.z (val_main_v33 (F := Ideal) x0 x2 x3) (val_main_v24 (F := Ideal) x0 x2 x3) (val_main_v34 (F := Ideal) x1) x4) x5 b i := by
  rw [val_main_v61_apply, val_main_v60_apply, val_main_v59_apply, val_main_v58_apply, zero_call3, bias_v59, v57_eq]
  rfl

/-- Layer 1 before the clamp. -/
theorem v66_eq (b : Fin 4096) (j : Fin 1024) :
    val_main_v66 (F := Ideal) x0 x1 x2 x3 x4 x5 x6 x7 (ix2 b j)
      = RefSpec.y (RefSpec.z (val_main_v33 (F := Ideal) x0 x2 x3) (val_main_v24 (F := Ideal) x0 x2 x3) (val_main_v34 (F := Ideal) x1) x4) x5 x6 x7 b j := by
  rw [val_main_v66_apply, val_main_v65_apply, val_main_v64_apply, bias_v65, val_main_v63_apply]
  simp only [lidx_v63, val_main_v62_apply, ridx_v63, v61_eq]
  rfl

/-- Layer 1 after the clamp. -/
theorem v67_eq (b : Fin 4096) (j : Fin 1024) :
    val_main_v67 (F := Ideal) x0 x1 x2 x3 x4 x5 x6 x7 (ix2 b j)
      = RefSpec.h' (RefSpec.z (val_main_v33 (F := Ideal) x0 x2 x3) (val_main_v24 (F := Ideal) x0 x2 x3) (val_main_v34 (F := Ideal) x1) x4) x5 x6 x7 b j := by
  rw [val_main_v67_apply, zero_call4, v66_eq]
  rfl

/-- The output layer. -/
theorem v72_eq (b : Fin 4096) :
    val_main_v72 (F := Ideal) x0 x1 x2 x3 x4 x5 x6 x7 x8 x9 (ix2 b (0 : Fin 1))
      = RefSpec.refOut (val_main_v33 (F := Ideal) x0 x2 x3) (val_main_v24 (F := Ideal) x0 x2 x3) (val_main_v34 (F := Ideal) x1) x4 x5 x6 x7 x8 x9 b := by
  rw [val_main_v72_apply, val_main_v71_apply, val_main_v70_apply, bias_v71, val_main_v69_apply]
  simp only [lidx_v69, val_main_v68_apply, ridx_v69, v67_eq]
  rfl

/-- The reference's second result at sample `b` is the specification on `(A1, A2) = (prot_2, prot_1)`. -/
theorem v74_eq (b : Fin 4096) :
    val_main_v74 (F := Ideal) x0 x1 x2 x3 x4 x5 x6 x7 x8 x9 (ix1 b)
      = RefSpec.refOut (val_main_v33 (F := Ideal) x0 x2 x3) (val_main_v24 (F := Ideal) x0 x2 x3) (val_main_v34 (F := Ideal) x1) x4 x5 x6 x7 x8 x9 b := by
  rw [val_main_v74_apply, out_v74, v72_eq]

end Cert.RefSide

end
-- ==== Proof.Assemble.lean ====
/-
  The kernel against its reference, assembled. Both programs end with their two result arrays at the same values: for
  every sample the kernel's closed form — the 38 half-sum steps, the cell-line term, the two later layers — is the
  reference's three-layer network on the concatenated rows. The two agree because the protein index is non-negative
  (so both tables mark the same drug–protein pairs, the kernel's extra columns meeting zero weights), every weight is a
  real number, and half of ((p+q)(u+v) + (p−q)(u−v)) is p·u + q·v.
-/
import proofs.«148840_j45294725103836_2_alg».proof.Defs
import proofs.«148840_j45294725103836_2_alg».proof.Proof.Gen.Kernel.Frame
import proofs.«148840_j45294725103836_2_alg».proof.Proof.Gen.KernelIdeal.Frame
import proofs.«148840_j45294725103836_2_alg».proof.Proof.KFinal
import proofs.«148840_j45294725103836_2_alg».proof.Proof.KGlue
import proofs.«148840_j45294725103836_2_alg».proof.Proof.IntSide
import proofs.«148840_j45294725103836_2_alg».proof.Proof.PreDecode
import proofs.«148840_j45294725103836_2_alg».proof.Proof.Bridge
import proofs.«148840_j45294725103836_2_alg».proof.Proof.RefSide
import proofs.«148840_j45294725103836_2_alg».proof.Proof.RefRunP
import proofs.«148840_j45294725103836_2_alg».proof.Proof.RefReadP
import proofs.«148840_j45294725103836_2_alg».proof.Proof.RefReadEq

set_option maxRecDepth 16384

noncomputable section

open Idealize.ShloMosaic Idealize.ShloMosaic.TcCoe Idealize.SL.Sem Idealize.ShloMosaic.ValueIdx

namespace Cert.Assemble

variable (m : (ℓ : Loc Cert.KernelIdeal.nD Cert.KernelIdeal.τ Cert.KernelIdeal.sig) → Buf (Elt Ideal) ℓ)

/-- The kernel's result 1 for sample b is the reference's float pipeline on the reference's own tables. -/
theorem kernel_ref1 (hpre : Cert.Pre_KernelIdeal m) (c : Dev Cert.KernelIdeal.nD) (b : Fin 4096) :
    Cert.KernelIdeal.Final.G1 m c (ix1 b)
      = Cert.RefSpec.refOut (Cert.ReferenceIdeal.ReadP.val_main_v24 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)))
          (Cert.ReferenceIdeal.ReadP.val_main_v33 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)))
          (Cert.ReferenceIdeal.ReadP.val_main_v34 (F := Ideal) (m ((c.tc : Thread Cert.KernelIdeal.nD Cert.KernelIdeal.τ).loc Cert.KernelIdeal.main_arg1)))
          (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) b := by
  obtain ⟨hW0, -, -, -, -, -, hpos⟩ := Cert.PreDecode.pre_decode m hpre c
  have e6 : Cert.KernelIdeal.Final.Xb0 m c = fun i => (m ((c.tc : Thread Cert.KernelIdeal.nD Cert.KernelIdeal.τ).loc Cert.KernelIdeal.main_arg5)) (ix1 i) := funext fun i => congrFun (Cert.KGlue.win6 m c) (ix1 i)
  have e7 : Cert.KernelIdeal.Final.Xw1 m c = fun j i => (m ((c.tc : Thread Cert.KernelIdeal.nD Cert.KernelIdeal.τ).loc Cert.KernelIdeal.main_arg6)) (ix2 j i) := funext fun j => funext fun i => congrFun (Cert.KGlue.win7 m c) (ix2 j i)
  have e8 : Cert.KernelIdeal.Final.Xb1 m c = fun j => (m ((c.tc : Thread Cert.KernelIdeal.nD Cert.KernelIdeal.τ).loc Cert.KernelIdeal.main_arg7)) (ix1 j) := funext fun j => congrFun (Cert.KGlue.win8 m c) (ix1 j)
  have e9 : Cert.KernelIdeal.Final.Xw2 m c = fun j => (m ((c.tc : Thread Cert.KernelIdeal.nD Cert.KernelIdeal.τ).loc Cert.KernelIdeal.main_arg8)) (ix2 (0 : Fin 1) j) := funext fun j => congrFun (Cert.KGlue.win9 m c) (ix2 (0 : Fin 1) j)
  have e10 : Cert.KernelIdeal.Final.Xb2 m c = (m ((c.tc : Thread Cert.KernelIdeal.nD Cert.KernelIdeal.τ).loc Cert.KernelIdeal.main_arg9)) (ix1 (0 : Fin 1)) := congrFun (Cert.KGlue.win10 m c) (ix1 (0 : Fin 1))
  show Cert.KSpec.out1 (Cert.KernelIdeal.Final.XP m c) (Cert.KernelIdeal.Final.XQ m c) (Cert.KernelIdeal.Final.XO m c)
      (Cert.KernelIdeal.Final.XS m c) (Cert.KernelIdeal.Final.XD m c) (Cert.KernelIdeal.Final.XC m c) (Cert.KernelIdeal.Final.Xb0 m c)
      (Cert.KernelIdeal.Final.Xw1 m c) (Cert.KernelIdeal.Final.Xb1 m c) (Cert.KernelIdeal.Final.Xw2 m c) (Cert.KernelIdeal.Final.Xb2 m c) b = _
  rw [e6, e7, e8, e9, e10]
  exact Cert.Bridge.out1_eq
    (Cert.ReferenceIdeal.ReadP.val_main_v24 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)))
    (Cert.ReferenceIdeal.ReadP.val_main_v33 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)))
    (Cert.ReferenceIdeal.ReadP.val_main_v34 (F := Ideal) (m ((c.tc : Thread Cert.KernelIdeal.nD Cert.KernelIdeal.τ).loc Cert.KernelIdeal.main_arg1)))
    (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))
    (Cert.KernelIdeal.Final.XP m c) (Cert.KernelIdeal.Final.XQ m c) (Cert.KernelIdeal.Final.XO m c)
    (Cert.KernelIdeal.Final.XS m c) (Cert.KernelIdeal.Final.XD m c) (Cert.KernelIdeal.Final.XC m c)
    (fun b q h => Cert.IntSide.win0_agree m c hpos b ⟨q.val, h⟩)
    (fun b q h => Cert.IntSide.win1_agree m c hpos b ⟨q.val, h⟩)
    (fun b q => Cert.IntSide.win0_01 m c (ix2 b q)) (fun b q => Cert.IntSide.win1_01 m c (ix2 b q))
    (fun b k => Cert.IntSide.win2_agree m c b k) (fun b k => Cert.IntSide.win2_01 m c (ix2 b k))
    (fun i q => Cert.KGlue.win3 m c i q) (fun i q => Cert.KGlue.win4 m c i q) (fun i k => Cert.KGlue.win5 m c i k)
    hW0 b

/-- The kernel's result 2 for sample b is the reference's float pipeline on the reference's own tables. -/
theorem kernel_ref2 (hpre : Cert.Pre_KernelIdeal m) (c : Dev Cert.KernelIdeal.nD) (b : Fin 4096) :
    Cert.KernelIdeal.Final.G2 m c (ix1 b)
      = Cert.RefSpec.refOut (Cert.ReferenceIdeal.ReadP.val_main_v33 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)))
          (Cert.ReferenceIdeal.ReadP.val_main_v24 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)))
          (Cert.ReferenceIdeal.ReadP.val_main_v34 (F := Ideal) (m ((c.tc : Thread Cert.KernelIdeal.nD Cert.KernelIdeal.τ).loc Cert.KernelIdeal.main_arg1)))
          (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) b := by
  obtain ⟨hW0, -, -, -, -, -, hpos⟩ := Cert.PreDecode.pre_decode m hpre c
  have e6 : Cert.KernelIdeal.Final.Xb0 m c = fun i => (m ((c.tc : Thread Cert.KernelIdeal.nD Cert.KernelIdeal.τ).loc Cert.KernelIdeal.main_arg5)) (ix1 i) := funext fun i => congrFun (Cert.KGlue.win6 m c) (ix1 i)
  have e7 : Cert.KernelIdeal.Final.Xw1 m c = fun j i => (m ((c.tc : Thread Cert.KernelIdeal.nD Cert.KernelIdeal.τ).loc Cert.KernelIdeal.main_arg6)) (ix2 j i) := funext fun j => funext fun i => congrFun (Cert.KGlue.win7 m c) (ix2 j i)
  have e8 : Cert.KernelIdeal.Final.Xb1 m c = fun j => (m ((c.tc : Thread Cert.KernelIdeal.nD Cert.KernelIdeal.τ).loc Cert.KernelIdeal.main_arg7)) (ix1 j) := funext fun j => congrFun (Cert.KGlue.win8 m c) (ix1 j)
  have e9 : Cert.KernelIdeal.Final.Xw2 m c = fun j => (m ((c.tc : Thread Cert.KernelIdeal.nD Cert.KernelIdeal.τ).loc Cert.KernelIdeal.main_arg8)) (ix2 (0 : Fin 1) j) := funext fun j => congrFun (Cert.KGlue.win9 m c) (ix2 (0 : Fin 1) j)
  have e10 : Cert.KernelIdeal.Final.Xb2 m c = (m ((c.tc : Thread Cert.KernelIdeal.nD Cert.KernelIdeal.τ).loc Cert.KernelIdeal.main_arg9)) (ix1 (0 : Fin 1)) := congrFun (Cert.KGlue.win10 m c) (ix1 (0 : Fin 1))
  show Cert.KSpec.out2 (Cert.KernelIdeal.Final.XP m c) (Cert.KernelIdeal.Final.XQ m c) (Cert.KernelIdeal.Final.XO m c)
      (Cert.KernelIdeal.Final.XS m c) (Cert.KernelIdeal.Final.XD m c) (Cert.KernelIdeal.Final.XC m c) (Cert.KernelIdeal.Final.Xb0 m c)
      (Cert.KernelIdeal.Final.Xw1 m c) (Cert.KernelIdeal.Final.Xb1 m c) (Cert.KernelIdeal.Final.Xw2 m c) (Cert.KernelIdeal.Final.Xb2 m c) b = _
  rw [e6, e7, e8, e9, e10]
  exact Cert.Bridge.out2_eq
    (Cert.ReferenceIdeal.ReadP.val_main_v24 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)))
    (Cert.ReferenceIdeal.ReadP.val_main_v33 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)))
    (Cert.ReferenceIdeal.ReadP.val_main_v34 (F := Ideal) (m ((c.tc : Thread Cert.KernelIdeal.nD Cert.KernelIdeal.τ).loc Cert.KernelIdeal.main_arg1)))
    (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))
    (Cert.KernelIdeal.Final.XP m c) (Cert.KernelIdeal.Final.XQ m c) (Cert.KernelIdeal.Final.XO m c)
    (Cert.KernelIdeal.Final.XS m c) (Cert.KernelIdeal.Final.XD m c) (Cert.KernelIdeal.Final.XC m c)
    (fun b q h => Cert.IntSide.win0_agree m c hpos b ⟨q.val, h⟩)
    (fun b q h => Cert.IntSide.win1_agree m c hpos b ⟨q.val, h⟩)
    (fun b q => Cert.IntSide.win0_01 m c (ix2 b q)) (fun b q => Cert.IntSide.win1_01 m c (ix2 b q))
    (fun b k => Cert.IntSide.win2_agree m c b k) (fun b k => Cert.IntSide.win2_01 m c (ix2 b k))
    (fun i q => Cert.KGlue.win3 m c i q) (fun i q => Cert.KGlue.win4 m c i q) (fun i k => Cert.KGlue.win5 m c i k)
    hW0 b

variable (m' : (ℓ : Loc Cert.ReferenceIdeal.nD Cert.ReferenceIdeal.τ Cert.ReferenceIdeal.sig) → Buf (Elt Ideal) ℓ)

/-- The reference's result 1, as its run names it, is its float pipeline on its own tables. -/
theorem ref1 (c : Dev Cert.ReferenceIdeal.nD) (b : Fin 4096) :
    (show Cert.ReferenceIdeal.S4096.Idx → EReal from Cert.ReferenceIdeal.ValueP.res_main_v73 m' c) (ix1 b)
      = Cert.RefSpec.refOut (Cert.ReferenceIdeal.ReadP.val_main_v24 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)))
          (Cert.ReferenceIdeal.ReadP.val_main_v33 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)))
          (Cert.ReferenceIdeal.ReadP.val_main_v34 (F := Ideal) (m' ((c.tc : Thread Cert.ReferenceIdeal.nD Cert.ReferenceIdeal.τ).loc Cert.ReferenceIdeal.main_arg1)))
          (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) b := by
  show (Cert.ReferenceIdeal.ValueP.res_main_v73 m' c : Cert.ReferenceIdeal.S4096.Idx → EReal) (ix1 b) = _
  rw [Cert.ReferenceIdeal.ReadP.val_main_v73_eq]
  exact Cert.RefSide.v73_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) b

/-- The reference's result 2, as its run names it, is its float pipeline on its own tables. -/
theorem ref2 (c : Dev Cert.ReferenceIdeal.nD) (b : Fin 4096) :
    (show Cert.ReferenceIdeal.S4096.Idx → EReal from Cert.ReferenceIdeal.ValueP.res_main_v74 m' c) (ix1 b)
      = Cert.RefSpec.refOut (Cert.ReferenceIdeal.ReadP.val_main_v33 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)))
          (Cert.ReferenceIdeal.ReadP.val_main_v24 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)))
          (Cert.ReferenceIdeal.ReadP.val_main_v34 (F := Ideal) (m' ((c.tc : Thread Cert.ReferenceIdeal.nD Cert.ReferenceIdeal.τ).loc Cert.ReferenceIdeal.main_arg1)))
          (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) b := by
  show (Cert.ReferenceIdeal.ValueP.res_main_v74 m' c : Cert.ReferenceIdeal.S4096.Idx → EReal) (ix1 b) = _
  rw [Cert.ReferenceIdeal.ReadP.val_main_v74_eq]
  exact Cert.RefSide.v74_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) b

/-- From memories that agree on the arguments, under the precondition, both programs run and end with equal results. -/
theorem algebraic : Cert.algebraic_KernelIdeal_ReferenceIdeal := by
  intro m ρ m' ρ' hpre hagree
  refine ⟨fun c => Cert.KernelIdeal.Final.G1 m c, fun c => Cert.KernelIdeal.Final.G2 m c, Cert.KernelIdeal.Final.run m ρ, ?_⟩
  refine (θ_run Cert.ReferenceIdeal.defs _ _).mono (fun r h c => ⟨(h c).1.trans ?_, (h c).2.1.trans ?_, (h c).2.2⟩)
    (Cert.ReferenceIdeal.ValueP.run (F := Ideal) m' ρ')
  · funext j
    obtain ⟨b, rfl⟩ : ∃ b : Fin 4096, j = ix1 b := ⟨j 0, eq_ix1 j⟩
    refine (ref1 m' c b).trans ?_
    rw [(hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2]
    exact (kernel_ref1 m hpre c b).symm
  · funext j
    obtain ⟨b, rfl⟩ : ∃ b : Fin 4096, j = ix1 b := ⟨j 0, eq_ix1 j⟩
    refine (ref2 m' c b).trans ?_
    rw [(hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2]
    exact (kernel_ref2 m hpre c b).symm

end Cert.Assemble

end
-- ==== Proof.lean ====
/-
  The certificate of the fused drug-pair network kernel against its reference: both are the same three-layer network on
  the two samples' concatenated 0/1 rows, for every input with finite weights and non-negative protein indices.

  The reference builds a 0/1 table of drug–protein pairs (4000 by 19000), gathers two rows per sample, joins them with a
  one-hot cell-line row into two inputs of width 38032 and applies relu(x·W0ᵀ + b0), relu(·W1ᵀ + b1), ·W2ᵀ + b2. The
  kernel builds the table 19456 columns wide, forms the summed and differenced first-layer weights, padded with zero
  columns, and accumulates over 38 blocks of 512 columns half of ((p+q)·(u+v) ± (p−q)·(u−v)), which is p·u + q·v and
  p·v + q·u; it adds the one-hot row against the summed cell-line weights and applies the two later layers. The proof
  reads the kernel's accumulators over a run of 38 grid points, the written-back blocks as the result arrays, the
  reference's run stage by stage, identifies the two tables on their common columns (the protein index is never negative,
  so both mark the same pairs, and the kernel's extra columns meet zero weights), and joins the two sides by the real
  identity above; every weight is a real number by the precondition, and the table and one-hot entries are 0 or 1.
-/
import proofs.«148840_j45294725103836_2_alg».proof.Defs
import proofs.«148840_j45294725103836_2_alg».proof.Proof.Gen.Kernel
import proofs.«148840_j45294725103836_2_alg».proof.Proof.Gen.Kernel.Skeleton
import proofs.«148840_j45294725103836_2_alg».proof.Proof.Gen.Kernel.Launch
import proofs.«148840_j45294725103836_2_alg».proof.Proof.Gen.Kernel.Points
import proofs.«148840_j45294725103836_2_alg».proof.Proof.Gen.Kernel.Frame
import proofs.«148840_j45294725103836_2_alg».proof.Proof.Gen.KernelIdeal
import proofs.«148840_j45294725103836_2_alg».proof.Proof.Gen.KernelIdeal.Skeleton
import proofs.«148840_j45294725103836_2_alg».proof.Proof.Gen.KernelIdeal.Launch
import proofs.«148840_j45294725103836_2_alg».proof.Proof.Gen.KernelIdeal.Points
import proofs.«148840_j45294725103836_2_alg».proof.Proof.Gen.KernelIdeal.Frame
import proofs.«148840_j45294725103836_2_alg».proof.Proof.Gen.ReferenceIdeal
import proofs.«148840_j45294725103836_2_alg».proof.Proof.Gen.Pre_finite_inputs
import proofs.«148840_j45294725103836_2_alg».proof.Proof.Gen.KernelIdeal.Value
import proofs.«148840_j45294725103836_2_alg».proof.Proof.RefRunP
import proofs.«148840_j45294725103836_2_alg».proof.Proof.RefReadP
import proofs.«148840_j45294725103836_2_alg».proof.Proof.Assemble
import Idealize.ShloMosaic.Adequacy
import Idealize.ShloMosaic.Init

noncomputable section

namespace Cert.Proof

open Idealize.ShloMosaic Idealize.SL.Sem Cert.Kernel

/-- Both kernel programs run and leave their arguments unchanged (the generated frames); the reference does, by its run. -/
theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2.2) (Cert.ReferenceIdeal.ValueP.run (F := Ideal) m ρ),
  trivial,
  Cert.Assemble.algebraic⟩

end Cert.Proof

end
